-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x2000 : Shape := ⟨2, ![10000, 2000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x2000 : S_.BroadcastsInDim S10000x2000 (![] : Fin 0 → Fin S10000x2000.rank)
  reducesTo_S10000x2000_S_d0_1 : S10000x2000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x256 .f32) (main_arg1 : FVec F S10000x2000 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x2000 .f32 := Host.absf main_arg1
  let main_cst_0 : FVec F S_ .f32 := constant S_ .f32 0x7F800000#32
  let main_v5 : FVec F S10000x2000 .f32 := broadcastInDim S10000x2000 ![] bcast_S_S10000x2000 main_cst_0
  let main_v6 : IVec S10000x2000 1 := cmpf .olt main_v4 main_v5
  let main_c_1 : IVec S_ 1 := constantI S_ 1 1#1
  let main_v7 : IVec S_ 1 := (fun x v => Host.reduce IntOp.andi x v reducesTo_S10000x2000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x256 : Shape := ⟨2, ![10000, 256]⟩
abbrev S10000x2000 : Shape := ⟨2, ![10000, 2000]⟩
abbrev S256x256 : Shape := ⟨2, ![256, 256]⟩
abbrev S256 : Shape := ⟨1, ![256]⟩
abbrev S1x256 : Shape := ⟨2, ![1, 256]⟩
abbrev S2000x10000 : Shape := ⟨2, ![2000, 10000]⟩
abbrev S2000x256 : Shape := ⟨2, ![2000, 256]⟩
abbrev S400x10000 : Shape := ⟨2, ![400, 10000]⟩
abbrev S400x256 : Shape := ⟨2, ![400, 256]⟩
abbrev S1024x256 : Shape := ⟨2, ![1024, 256]⟩
abbrev S2000x1024 : Shape := ⟨2, ![2000, 1024]⟩
abbrev S256x2000 : Shape := ⟨2, ![256, 2000]⟩
abbrev S2000x2000 : Shape := ⟨2, ![2000, 2000]⟩
abbrev S2000 : Shape := ⟨1, ![2000]⟩
abbrev S2000x1 : Shape := ⟨2, ![2000, 1]⟩
abbrev S256x1024 : Shape := ⟨2, ![256, 1024]⟩
abbrev S1024 : Shape := ⟨1, ![1024]⟩
abbrev S1x1024 : Shape := ⟨2, ![1, 1024]⟩

abbrev nBuf : Space → Nat
  | .hbm => 23
  | .vmem => 26
  | .smem => 0
  | _ => 0

abbrev bufTy : (tb : Table) → Fin (tcTables nBuf tb) → BufTy
  | .hbm, ⟨0, _⟩ => ⟨S10000x256, .f32⟩
  | .hbm, ⟨1, _⟩ => ⟨S10000x2000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S2000x10000, .f32⟩
  | .hbm, ⟨21, _⟩ => ⟨S2000x256, .f32⟩
  | .hbm, ⟨22, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S400x256, .f32⟩
  | .local _ .vmem, ⟨4, _⟩ => ⟨S400x256, .f32⟩
  | .local _ .vmem, ⟨5, _⟩ => ⟨S2000x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S2000x1024, .f32⟩
  | .local _ .vmem, ⟨17, _⟩ => ⟨S2000x1024, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S256x2000, .bf16⟩
  | .local _ .vmem, ⟨25, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg9_1 : Ref sig .tc := ⟨.vmem, 15, rfl⟩
abbrev cc1_stg10_0 : Ref sig .tc := ⟨.vmem, 16, rfl⟩
abbrev cc1_stg10_1 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg15_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem9_1 : DmaSem sig := 15
abbrev cc1_sem10_0 : DmaSem sig := 16
abbrev cc1_sem10_1 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem15_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1024x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  shapeCasts_S256_S1x256 : S256.ShapeCasts S1x256
  transposes_S10000x2000_S2000x10000_1_0 : S10000x2000.Transposes [1, 0] S2000x10000
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  inb_S400x256_S400x256_0_0 : ∀ a, (![0, 0] : Fin 2 → Nat) a + S400x256.size a ≤ S400x256.size a
  h_S400x256 : 0 < S400x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x2000_S2000 : S2000x2000.Reduces [1] S2000
  shapeCasts_S2000_S2000x1 : S2000.ShapeCasts S2000x1
  broadcasts_S2000x1_S2000x2000 : S2000x1.Broadcasts S2000x2000
  transposes_S2000x256_p1_0_S256x2000 : S2000x256.Transposes [1, 0] S256x2000
  bitsLt_bf16_f32 : FTy.bits .bf16 < FTy.bits .f32
  inb_S256x2000_S256x2000_0_0 : ∀ a, (![0, 0] : Fin 2 → Nat) a + S256x2000.size a ≤ S256x2000.size a
  h_S256x2000 : 0 < S256x2000.numel
  shapeCasts_S256x2000_S256x2000 : S256x2000.ShapeCasts S256x2000
  packedbf16_S256x2000_S256x2000_0_0 : (Rect.unit (s := S256x2000) ![0, 0] S256x2000.size inb_S256x2000_S256x2000_0_0).PackedRows (EltTy.packing .bf16)
  inb_S1024x256_S1024x256_0_0 : ∀ a, (![0, 0] : Fin 2 → Nat) a + S1024x256.size a ≤ S1024x256.size a
  h_S1024x256 : 0 < S1024x256.numel
  broadcasts_S1x256_S1024x256 : S1x256.Broadcasts S1024x256
  transposes_S1024x256_p1_0_S256x1024 : S1024x256.Transposes [1, 0] S256x1024
  reduces_S2000x1024_S1024 : S2000x1024.Reduces [0] S1024
  shapeCasts_S1024_S1x1024 : S1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  transposes_S256x1024_p1_0_S1024x256 : S256x1024.Transposes [1, 0] S1024x256
  dot_S400x10000_S10000x256_S400x256_1_0_0_1_n_n_wf : DotDims.WF S400x10000 S10000x256 S400x256 [1] [0] [0] [1] [] []
  dot_S2000x256_S256x256_S2000x256_1_0_0_1_n_n_wf : DotDims.WF S2000x256 S256x256 S2000x256 [1] [0] [0] [1] [] []
  dot_S2000x256_S2000x256_S2000x2000_1_1_0_0_n_n_wf : DotDims.WF S2000x256 S2000x256 S2000x2000 [1] [1] [0] [0] [] []
  dot_S2000x2000_S2000x256_S2000x256_1_0_0_1_n_n_wf : DotDims.WF S2000x2000 S2000x256 S2000x256 [1] [0] [0] [1] [] []
  dot_S1024x256_S256x256_S1024x256_1_0_0_1_n_n_wf : DotDims.WF S1024x256 S256x256 S1024x256 [1] [0] [0] [1] [] []
  dot_S2000x256_S256x1024_S2000x1024_1_0_0_1_n_n_wf : DotDims.WF S2000x256 S256x1024 S2000x1024 [1] [0] [0] [1] [] []
  dot_S256x2000_S2000x1024_S256x1024_1_0_0_1_n_n_wf : DotDims.WF S256x2000 S2000x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S2000x10000.size a
  hwx0_0 : ∀ i : grid0.Coords, EltTy.bits .f32 = 32 ∨ (Rect.block (s := S2000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S2000x256.size a
  hwx0_2 : ∀ i : grid0.Coords, EltTy.bits .f32 = 32 ∨ (Rect.block (s := S2000x256) S400x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S2000x256.size a
  hwx1_0 : ∀ i : grid1.Coords, EltTy.bits .f32 = 32 ∨ (Rect.block (s := S2000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hstart1_9 : ∀ (i : grid1.Coords) a, cc1_transform_9 i a * S1024x256.size a < S10000x256.size a
  hwx1_9 : ∀ i : grid1.Coords, EltTy.bits .f32 = 32 ∨ (Rect.unit (s := S10000x256) (fun a => cc1_transform_9 i a * S1024x256.size a) (fun a => (Pipeline.Clip.of (cc1_transform_9 i a) (S1024x256.size a) (S10000x256.size a)).extent (S1024x256.size a)) fun a => Pipeline.Clip.inb (Pipeline.Clip.ok_of (hstart1_9 i a))).WholeWords (EltTy.packing .f32)
  hwxs1_9 : ∀ i : grid1.Coords, EltTy.bits .f32 = 32 ∨ (Rect.unit (s := S1024x256) (fun _ => 0) (fun a => (Pipeline.Clip.of (cc1_transform_9 i a) (S1024x256.size a) (S10000x256.size a)).extent (S1024x256.size a)) fun a => (Nat.zero_add _).trans_le (Pipeline.Clip.extent_le (Pipeline.Clip.ok_of (hstart1_9 i a)))).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hstart1_10 : ∀ (i : grid1.Coords) a, cc1_transform_10 i a * S2000x1024.size a < S2000x10000.size a
  hwx1_10 : ∀ i : grid1.Coords, EltTy.bits .f32 = 32 ∨ (Rect.unit (s := S2000x10000) (fun a => cc1_transform_10 i a * S2000x1024.size a) (fun a => (Pipeline.Clip.of (cc1_transform_10 i a) (S2000x1024.size a) (S2000x10000.size a)).extent (S2000x1024.size a)) fun a => Pipeline.Clip.inb (Pipeline.Clip.ok_of (hstart1_10 i a))).WholeWords (EltTy.packing .f32)
  hwxs1_10 : ∀ i : grid1.Coords, EltTy.bits .f32 = 32 ∨ (Rect.unit (s := S2000x1024) (fun _ => 0) (fun a => (Pipeline.Clip.of (cc1_transform_10 i a) (S2000x1024.size a) (S2000x10000.size a)).extent (S2000x1024.size a)) fun a => (Nat.zero_add _).trans_le (Pipeline.Clip.extent_le (Pipeline.Clip.ok_of (hstart1_10 i a)))).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x256.size a ≤ S256x256.size a
  hwx1_11 : ∀ i : grid1.Coords, EltTy.bits .f32 = 32 ∨ (Rect.block (s := S256x256) S256x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x256.size a ≤ S256x256.size a
  hwx1_13 : ∀ i : grid1.Coords, EltTy.bits .f32 = 32 ∨ (Rect.block (s := S256x256) S256x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x256.size a ≤ S1x256.size a
  hwx1_14 : ∀ i : grid1.Coords, EltTy.bits .f32 = 32 ∨ (Rect.block (s := S1x256) S1x256.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hstart1_15 : ∀ (i : grid1.Coords) a, cc1_transform_15 i a * S1024x256.size a < S10000x256.size a
  hwx1_15 : ∀ i : grid1.Coords, EltTy.bits .f32 = 32 ∨ (Rect.unit (s := S10000x256) (fun a => cc1_transform_15 i a * S1024x256.size a) (fun a => (Pipeline.Clip.of (cc1_transform_15 i a) (S1024x256.size a) (S10000x256.size a)).extent (S1024x256.size a)) fun a => Pipeline.Clip.inb (Pipeline.Clip.ok_of (hstart1_15 i a))).WholeWords (EltTy.packing .f32)
  hwxs1_15 : ∀ i : grid1.Coords, EltTy.bits .f32 = 32 ∨ (Rect.unit (s := S1024x256) (fun _ => 0) (fun a => (Pipeline.Clip.of (cc1_transform_15 i a) (S1024x256.size a) (S10000x256.size a)).extent (S1024x256.size a)) fun a => (Nat.zero_add _).trans_le (Pipeline.Clip.extent_le (Pipeline.Clip.ok_of (hstart1_15 i a)))).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S2000x256_S2000x2000_1_1_0_0_n_n : DotDims S2000x256 S2000x256 S2000x2000 where
  lhsContracting := [1]
  rhsContracting := [1]
  lhsNonContracting := [0]
  rhsNonContracting := [0]
  lhsBatch := []
  rhsBatch := []
  wf := dot_S2000x256_S2000x256_S2000x2000_1_1_0_0_n_n_wf
def dot_S2000x2000_S2000x256_S2000x256_1_0_0_1_n_n : DotDims S2000x2000 S2000x256 S2000x256 where
  lhsContracting := [1]
  rhsContracting := [0]
  lhsNonContracting := [0]
  rhsNonContracting := [1]
  lhsBatch := []
  rhsBatch := []
  wf := dot_S2000x2000_S2000x256_S2000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S256x2000_S2000x1024_S256x1024_1_0_0_1_n_n : DotDims S256x2000 S2000x1024 S256x1024 where
  lhsContracting := [1]
  rhsContracting := [0]
  lhsNonContracting := [0]
  rhsNonContracting := [1]
  lhsBatch := []
  rhsBatch := []
  wf := dot_S256x2000_S2000x1024_S256x1024_1_0_0_1_n_n_wf

abbrev win0_0 : Pipeline.Window sig grid0 :=
  Pipeline.Window.ofSpec (Memref.whole main_v6) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S400x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S2000x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpecClip (Memref.whole main_arg0) S1024x256.size cc1_transform_9 reads1_9 false false 2 stage1_9 sem1_9
    hrank1 hreads1_9 hstart1_9 nbuf1_9 (Memref.isWhole_whole _) hwx1_9 hwxs1_9 hstage1_9

abbrev win1_10 : Pipeline.Window sig grid1 :=
  Pipeline.Window.ofSpecClip (Memref.whole main_v6) S2000x1024.size cc1_transform_10 reads1_10 false false 2 stage1_10 sem1_10
    hrank1 hreads1_10 hstart1_10 nbuf1_10 (Memref.isWhole_whole _) hwx1_10 hwxs1_10 hstage1_10

abbrev win1_11 : Pipeline.Window sig grid1 :=
  Pipeline.Window.ofSpec (Memref.whole main_arg8) S256x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v3) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg12) S256x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v5) S1x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpecClip (Memref.whole main_v8) S1024x256.size cc1_transform_15 reads1_15 true false 2 stage1_15 sem1_15
    hrank1 hreads1_15 hstart1_15 nbuf1_15 (Memref.isWhole_whole _) hwx1_15 hwxs1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x2000 : Shape := ⟨2, ![10000, 2000]⟩
abbrev S256x256 : Shape := ⟨2, ![256, 256]⟩
abbrev S256 : Shape := ⟨1, ![256]⟩
abbrev S_ : Shape := ⟨0, ![]⟩
abbrev S2000x10000 : Shape := ⟨2, ![2000, 10000]⟩
abbrev S2000x256 : Shape := ⟨2, ![2000, 256]⟩
abbrev S1x256 : Shape := ⟨2, ![1, 256]⟩
abbrev S256x2000 : Shape := ⟨2, ![256, 2000]⟩
abbrev S2000x2000 : Shape := ⟨2, ![2000, 2000]⟩
abbrev S2000 : Shape := ⟨1, ![2000]⟩
abbrev S2000x1 : Shape := ⟨2, ![2000, 1]⟩
abbrev S10000 : Shape := ⟨1, ![10000]⟩
abbrev S10000x1 : Shape := ⟨2, ![10000, 1]⟩

abbrev nBuf : Space → Nat
  | .hbm => 81
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x2000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S_, .f32⟩
  | .hbm, ⟨15, _⟩ => ⟨S_, .f32⟩
  | .hbm, ⟨16, _⟩ => ⟨S2000x10000, .f32⟩
  | .hbm, ⟨17, _⟩ => ⟨S2000x256, .f32⟩
  | .hbm, ⟨18, _⟩ => ⟨S2000x256, .f32⟩
  | .hbm, ⟨19, _⟩ => ⟨S1x256, .f32⟩
  | .hbm, ⟨20, _⟩ => ⟨S2000x256, .f32⟩
  | .hbm, ⟨21, _⟩ => ⟨S2000x256, .f32⟩
  | .hbm, ⟨22, _⟩ => ⟨S2000x256, .f32⟩
  | .hbm, ⟨23, _⟩ => ⟨S1x256, .f32⟩
  | .hbm, ⟨24, _⟩ => ⟨S2000x256, .f32⟩
  | .hbm, ⟨25, _⟩ => ⟨S2000x256, .f32⟩
  | .hbm, ⟨26, _⟩ => ⟨S2000x256, .f32⟩
  | .hbm, ⟨27, _⟩ => ⟨S1x256, .f32⟩
  | .hbm, ⟨28, _⟩ => ⟨S2000x256, .f32⟩
  | .hbm, ⟨29, _⟩ => ⟨S2000x256, .f32⟩
  | .hbm, ⟨30, _⟩ => ⟨S256x2000, .f32⟩
  | .hbm, ⟨31, _⟩ => ⟨S2000x2000, .f32⟩
  | .hbm, ⟨32, _⟩ => ⟨S2000x2000, .f32⟩
  | .hbm, ⟨33, _⟩ => ⟨S2000x2000, .f32⟩
  | .hbm, ⟨34, _⟩ => ⟨S_, .f32⟩
  | .hbm, ⟨35, _⟩ => ⟨S2000, .f32⟩
  | .hbm, ⟨36, _⟩ => ⟨S_, .f32⟩
  | .hbm, ⟨37, _⟩ => ⟨S2000, .f32⟩
  | .hbm, ⟨38, _⟩ => ⟨S2000, .f32⟩
  | .hbm, ⟨39, _⟩ => ⟨S2000x1, .f32⟩
  | .hbm, ⟨40, _⟩ => ⟨S2000x2000, .f32⟩
  | .hbm, ⟨41, _⟩ => ⟨S2000x2000, .f32⟩
  | .hbm, ⟨42, _⟩ => ⟨S2000x2000, .f32⟩
  | .hbm, ⟨43, _⟩ => ⟨S_, .f32⟩
  | .hbm, ⟨44, _⟩ => ⟨S2000, .f32⟩
  | .hbm, ⟨45, _⟩ => ⟨S2000x1, .f32⟩
  | .hbm, ⟨46, _⟩ => ⟨S2000x2000, .f32⟩
  | .hbm, ⟨47, _⟩ => ⟨S2000x2000, .f32⟩
  | .hbm, ⟨48, _⟩ => ⟨S2000x256, .f32⟩
  | .hbm, ⟨49, _⟩ => ⟨S10000x256, .f32⟩
  | .hbm, ⟨50, _⟩ => ⟨S1x256, .f32⟩
  | .hbm, ⟨51, _⟩ => ⟨S10000x256, .f32⟩
  | .hbm, ⟨52, _⟩ => ⟨S10000x256, .f32⟩
  | .hbm, ⟨53, _⟩ => ⟨S2000x256, .f32⟩
  | .hbm, ⟨54, _⟩ => ⟨S1x256, .f32⟩
  | .hbm, ⟨55, _⟩ => ⟨S2000x256, .f32⟩
  | .hbm, ⟨56, _⟩ => ⟨S2000x256, .f32⟩
  | .hbm, ⟨57, _⟩ => ⟨S256x2000, .f32⟩
  | .hbm, ⟨58, _⟩ => ⟨S10000x2000, .f32⟩
  | .hbm, ⟨59, _⟩ => ⟨S10000x2000, .f32⟩
  | .hbm, ⟨60, _⟩ => ⟨S10000x2000, .f32⟩
  | .hbm, ⟨61, _⟩ => ⟨S_, .f32⟩
  | .hbm, ⟨62, _⟩ => ⟨S10000, .f32⟩
  | .hbm, ⟨63, _⟩ => ⟨S_, .f32⟩
  | .hbm, ⟨64, _⟩ => ⟨S10000, .f32⟩
  | .hbm, ⟨65, _⟩ => ⟨S10000, .f32⟩
  | .hbm, ⟨66, _⟩ => ⟨S10000x1, .f32⟩
  | .hbm, ⟨67, _⟩ => ⟨S10000x2000, .f32⟩
  | .hbm, ⟨68, _⟩ => ⟨S10000x2000, .f32⟩
  | .hbm, ⟨69, _⟩ => ⟨S10000x2000, .f32⟩
  | .hbm, ⟨70, _⟩ => ⟨S_, .f32⟩
  | .hbm, ⟨71, _⟩ => ⟨S10000, .f32⟩
  | .hbm, ⟨72, _⟩ => ⟨S10000x1, .f32⟩
  | .hbm, ⟨73, _⟩ => ⟨S10000x2000, .f32⟩
  | .hbm, ⟨74, _⟩ => ⟨S10000x2000, .f32⟩
  | .hbm, ⟨75, _⟩ => ⟨S10000x2000, .f32⟩
  | .hbm, ⟨76, _⟩ => ⟨S10000x256, .f32⟩
  | .hbm, ⟨77, _⟩ => ⟨S10000x256, .f32⟩
  | .hbm, ⟨78, _⟩ => ⟨S1x256, .f32⟩
  | .hbm, ⟨79, _⟩ => ⟨S10000x256, .f32⟩
  | .hbm, ⟨80, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  transposes_S10000x2000_S2000x10000_1_0 : S10000x2000.Transposes [1, 0] S2000x10000
  bcast_S256_S1x256_1 : S256.BroadcastsInDim S1x256 (![1] : Fin 1 → Fin S1x256.rank)
  bcast_S1x256_S2000x256_0_1 : S1x256.BroadcastsInDim S2000x256 (![0, 1] : Fin 2 → Fin S2000x256.rank)
  transposes_S2000x256_S256x2000_1_0 : S2000x256.Transposes [1, 0] S256x2000
  bcast_S_S2000x2000 : S_.BroadcastsInDim S2000x2000 (![] : Fin 0 → Fin S2000x2000.rank)
  reducesTo_S2000x2000_S2000_d1 : S2000x2000.ReducesTo [1] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x2000_0_1 : S2000x1.BroadcastsInDim S2000x2000 (![0, 1] : Fin 2 → Fin S2000x2000.rank)
  bcast_S1x256_S10000x256_0_1 : S1x256.BroadcastsInDim S10000x256 (![0, 1] : Fin 2 → Fin S10000x256.rank)
  bcast_S_S10000x2000 : S_.BroadcastsInDim S10000x2000 (![] : Fin 0 → Fin S10000x2000.rank)
  reducesTo_S10000x2000_S10000_d1 : S10000x2000.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x2000_0_1 : S10000x1.BroadcastsInDim S10000x2000 (![0, 1] : Fin 2 → Fin S10000x2000.rank)
  dot_S2000x10000_S10000x256_S2000x256_1_0_0_1_n_n_wf : DotDims.WF S2000x10000 S10000x256 S2000x256 [1] [0] [0] [1] [] []
  dot_S2000x256_S256x256_S2000x256_1_0_0_1_n_n_wf : DotDims.WF S2000x256 S256x256 S2000x256 [1] [0] [0] [1] [] []
  dot_S2000x256_S256x2000_S2000x2000_1_0_0_1_n_n_wf : DotDims.WF S2000x256 S256x2000 S2000x2000 [1] [0] [0] [1] [] []
  dot_S2000x2000_S2000x256_S2000x256_1_0_0_1_n_n_wf : DotDims.WF S2000x2000 S2000x256 S2000x256 [1] [0] [0] [1] [] []
  dot_S10000x256_S256x256_S10000x256_1_0_0_1_n_n_wf : DotDims.WF S10000x256 S256x256 S10000x256 [1] [0] [0] [1] [] []
  dot_S10000x256_S256x2000_S10000x2000_1_0_0_1_n_n_wf : DotDims.WF S10000x256 S256x2000 S10000x2000 [1] [0] [0] [1] [] []
  dot_S10000x2000_S2000x256_S10000x256_1_0_0_1_n_n_wf : DotDims.WF S10000x2000 S2000x256 S10000x256 [1] [0] [0] [1] [] []

variable [Facts₀]

def dot_S2000x10000_S10000x256_S2000x256_1_0_0_1_n_n : DotDims S2000x10000 S10000x256 S2000x256 where
  lhsContracting := [1]
  rhsContracting := [0]
  lhsNonContracting := [0]
  rhsNonContracting := [1]
  lhsBatch := []
  rhsBatch := []
  wf := dot_S2000x10000_S10000x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2000_S2000x2000_1_0_0_1_n_n : DotDims S2000x256 S256x2000 S2000x2000 where
  lhsContracting := [1]
  rhsContracting := [0]
  lhsNonContracting := [0]
  rhsNonContracting := [1]
  lhsBatch := []
  rhsBatch := []
  wf := dot_S2000x256_S256x2000_S2000x2000_1_0_0_1_n_n_wf
def dot_S2000x2000_S2000x256_S2000x256_1_0_0_1_n_n : DotDims S2000x2000 S2000x256 S2000x256 where
  lhsContracting := [1]
  rhsContracting := [0]
  lhsNonContracting := [0]
  rhsNonContracting := [1]
  lhsBatch := []
  rhsBatch := []
  wf := dot_S2000x2000_S2000x256_S2000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x2000_S10000x2000_1_0_0_1_n_n : DotDims S10000x256 S256x2000 S10000x2000 where
  lhsContracting := [1]
  rhsContracting := [0]
  lhsNonContracting := [0]
  rhsNonContracting := [1]
  lhsBatch := []
  rhsBatch := []
  wf := dot_S10000x256_S256x2000_S10000x2000_1_0_0_1_n_n_wf
def dot_S10000x2000_S2000x256_S10000x256_1_0_0_1_n_n : DotDims S10000x2000 S2000x256 S10000x256 where
  lhsContracting := [1]
  rhsContracting := [0]
  lhsNonContracting := [0]
  rhsNonContracting := [1]
  lhsBatch := []
  rhsBatch := []
  wf := dot_S10000x2000_S2000x256_S10000x256_1_0_0_1_n_n_wf

class Facts : Prop extends Facts₀ where

variable [Facts]
-- ==== Proof.KHeBody.lean ====
/-
  The first pallas_call's body on its staging buffers (any float instance).

  The body loads the whole 400 x 10000 block of the transposed incidence matrix and the whole
  10000 x 256 feature matrix, multiplies them into a zero accumulator, and stores the 400 x 256
  product over the whole output buffer.  So after the body the output buffer holds one piece:
  the product payload of the two loaded blocks, laid over the buffer's full rectangle.
-/
import proofs.«181957_g30339648979507_cont_9to1_1753_20_alg».proof.Proof.Gen.Kernel.Launch
import proofs.«181957_g30339648979507_cont_9to1_1753_20_alg».proof.Proof.Gen.Kernel.Skeleton
import proofs.«181957_g30339648979507_cont_9to1_1753_20_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The full rectangle of the incidence block, of the feature matrix, of the product block. -/
abbrev rectInc : Rect S400x10000 := Rect.unit (s := S400x10000) ![0, 0] S400x10000.size inb_S400x10000_S400x10000_0_0
abbrev rectFeat : Rect S10000x256 := Rect.unit (s := S10000x256) ![0, 0] S10000x256.size inb_S10000x256_S10000x256_0_0
abbrev rectProd : Rect S400x256 := Rect.unit (s := S400x256) ![0, 0] S400x256.size inb_S400x256_S400x256_0_0

/-- What the product buffer holds after the body: the one store, the product of the loaded blocks. -/
def heOut (inc : Vec F S400x10000 .f32) (feat : Vec F S10000x256 .f32) : Vec F S400x256 .f32 :=
  k0_pay1 inc feat

/-- Every access of both bodies is at offset zero. -/
theorem offZero : (![0, 0] : Fin 2 → Nat) = fun _ => 0 := funext fun a => by fin_cases a <;> rfl

/-- The one store's rectangle is the whole buffer. -/
theorem heCover (p : Vec F S400x256 .f32) (y : S400x256.Idx) :
    ∃ pc ∈ ([⟨rectProd, p⟩] : List (View.Piece (Elt F) S400x256 .f32)), y ∈ pc.1.set :=
  View.cover_of_tiled [⟨rectProd, p⟩] S400x256.size (by rfl) y

set_option maxHeartbeats 1000000 in
/-- The body on whole staging memrefs: the two inputs at what they hold, the output at anything; it ends
    with the inputs as they were and the output at `heOut` of them. -/
theorem he_body_run (c : Dev nD) (E : Set ℕ) (i : grid0.Coords)
    (a1 : Memref sig .tc .vmem S400x10000 .f32) (h1 : a1.IsWhole)
    (a2 : Memref sig .tc .vmem S10000x256 .f32) (h2 : a2.IsWhole)
    (a3 : Memref sig .tc .vmem S400x256 .f32) (h3 : a3.IsWhole)
    (inc : Vec F S400x10000 .f32) (feat : Vec F S10000x256 .f32) (K : PUnit → sProp 𝕄) :
    iprop(owns (c : Thread nD τ) a1 fullShare inc ∗ owns (c : Thread nD τ) a2 fullShare feat
        ∗ (∃ d, owns (c : Thread nD τ) a3 fullShare d)
        ∗ (iprop(owns (c : Thread nD τ) a1 fullShare inc ∗ owns (c : Thread nD τ) a2 fullShare feat
              ∗ owns (c : Thread nD τ) a3 fullShare (heOut inc feat)) -∗ K ⟨⟩))
      ⊢ wp frame (wpE (defs₀ (F := F)) Variants.none c none) E (cc0__he_kernel i a1 h1 a2 h2 a3 h3) K := by
  simp only [cc0__he_kernel_eq_skeleton]; unfold cc0__he_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (heCover _), View.canon_unit_zero offZero]
  simp only [View.readAt_eq_ld, View.ld_unit_zero (S := S400x10000) offZero, View.ld_unit_zero (S := S10000x256) offZero]
  rfl

end Cert.Kernel.Hand

end
-- ==== Proof.KNodeBody.lean ====
/-
  The second pallas_call's body on its staging buffers and its two scratch buffers (any float instance).

  At the first grid point the body first computes the hyperedge attention from the whole hyperedge-feature
  block and the six projection operands, stores its transpose (narrowed) into the first scratch buffer and
  the node-key projection into the second; at every point it then reads both scratch buffers back, together
  with the point's block of node features and of the transposed incidence matrix, and stores one 1024 x 256
  output block over the whole output buffer.  Two runs, by whether the point is the first.
-/
import proofs.«181957_g30339648979507_cont_9to1_1753_20_alg».proof.Proof.KHeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The full rectangles of the body's buffers: hyperedge rows x features, a square weight, a bias row,
    a node block, an incidence block, the transposed attention. -/
abbrev rectHE : Rect S2000x256 := Rect.unit (s := S2000x256) ![0, 0] S2000x256.size inb_S2000x256_S2000x256_0_0
abbrev rectW : Rect S256x256 := Rect.unit (s := S256x256) ![0, 0] S256x256.size inb_S256x256_S256x256_0_0
abbrev rectB : Rect S1x256 := Rect.unit (s := S1x256) ![0, 0] S1x256.size inb_S1x256_S1x256_0_0
abbrev rectNode : Rect S1024x256 := Rect.unit (s := S1024x256) ![0, 0] S1024x256.size inb_S1024x256_S1024x256_0_0
abbrev rectIncT : Rect S2000x1024 := Rect.unit (s := S2000x1024) ![0, 0] S2000x1024.size inb_S2000x1024_S2000x1024_0_0
abbrev rectAttT : Rect S256x2000 := Rect.unit (s := S256x2000) ![0, 0] S256x2000.size inb_S256x2000_S256x2000_0_0

/-- The body's one condition: the grid coordinate is zero (the printed scalar chain). -/
abbrev firstPoint (i : grid1.Coords) : Prop :=
  (Scalar.cmpi .ne (Scalar.extui (Scalar.cmpi .eq (BitVec.ofNat 32 (i 0).val) 0#32)) 0#32) = 1#1

/-- It holds at the first point of the grid only. -/
theorem firstPoint_iff : ∀ t : Fin cfg1.N, firstPoint (grid1.coords t) ↔ t.val = 0 :=
  (by decide +kernel : ∀ t : Fin grid1.N, firstPoint (grid1.coords t) ↔ t.val = 0)

/-- The output block a point stores, from the node-feature block, the incidence block, the node-query
    weight and bias, the output weight and bias, and what the two scratch buffers hold. -/
def nodeOut (x10 : Vec F S1024x256 .f32) (x11 : Vec F S2000x1024 .f32) (x12 : Vec F S256x256 .f32) (x13 : Vec F S1x256 .f32)
    (x14 : Vec F S256x256 .f32) (x15 : Vec F S1x256 .f32) (s17 : Vec F S256x2000 .bf16) (s18 : Vec F S2000x256 .f32) : Vec F S1024x256 .f32 :=
  k1_pay1 (k1_pay6 x10 x12 x13 s18 x11 s17 x14) x15

/-- What the first point stores into the first scratch buffer: the transposed hyperedge attention. -/
def scrAtt (x1 : Vec F S2000x256 .f32) (x2 : Vec F S256x256 .f32) (x3 : Vec F S1x256 .f32) (x4 : Vec F S256x256 .f32)
    (x5 : Vec F S1x256 .f32) (x6 : Vec F S256x256 .f32) (x7 : Vec F S1x256 .f32) : Vec F S256x2000 .bf16 :=
  k1_pay4 (k1_pay3 x1 x2 x3 x4 x5 x6 x7)

/-- What the first point stores into the second scratch buffer: the node keys. -/
def scrKn (x1 : Vec F S2000x256 .f32) (x2 : Vec F S256x256 .f32) (x3 : Vec F S1x256 .f32) (x4 : Vec F S256x256 .f32)
    (x5 : Vec F S1x256 .f32) (x6 : Vec F S256x256 .f32) (x7 : Vec F S1x256 .f32) (x8 : Vec F S256x256 .f32) (x9 : Vec F S1x256 .f32) :
    Vec F S2000x256 .f32 :=
  k1_pay5 (k1_pay2 x1 x2 x3 x4 x5 x6 x7) x8 x9

theorem nodeCover (p : Vec F S1024x256 .f32) (y : S1024x256.Idx) :
    ∃ pc ∈ ([⟨rectNode, p⟩] : List (View.Piece (Elt F) S1024x256 .f32)), y ∈ pc.1.set :=
  View.cover_of_tiled [⟨rectNode, p⟩] S1024x256.size (by rfl) y
theorem attCover (p : Vec F S256x2000 .bf16) (y : S256x2000.Idx) :
    ∃ pc ∈ ([⟨rectAttT, p⟩] : List (View.Piece (Elt F) S256x2000 .bf16)), y ∈ pc.1.set :=
  View.cover_of_tiled [⟨rectAttT, p⟩] S256x2000.size (by rfl) y
theorem knCover (p : Vec F S2000x256 .f32) (y : S2000x256.Idx) :
    ∃ pc ∈ ([⟨rectHE, p⟩] : List (View.Piece (Elt F) S2000x256 .f32)), y ∈ pc.1.set :=
  View.cover_of_tiled [⟨rectHE, p⟩] S2000x256.size (by rfl) y

set_option maxHeartbeats 4000000 in
/-- A later point: the scratch buffers are read and left as they are, the output buffer ends at `nodeOut`. -/
theorem node_body_later (c : Dev nD) (E : Set ℕ) (i : grid1.Coords) (hc : ¬ firstPoint i)
    (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S1024x256 .f32) (h10 : a10.IsWhole) (a11 : Memref sig .tc .vmem S2000x1024 .f32) (h11 : a11.IsWhole) (a12 : Memref sig .tc .vmem S256x256 .f32) (h12 : a12.IsWhole) (a13 : Memref sig .tc .vmem S1x256 .f32) (h13 : a13.IsWhole) (a14 : Memref sig .tc .vmem S256x256 .f32) (h14 : a14.IsWhole) (a15 : Memref sig .tc .vmem S1x256 .f32) (h15 : a15.IsWhole) (a16 : Memref sig .tc .vmem S1024x256 .f32) (h16 : a16.IsWhole) (a17 : Memref sig .tc .vmem S256x2000 .bf16) (h17 : a17.IsWhole) (a18 : Memref sig .tc .vmem S2000x256 .f32) (h18 : a18.IsWhole)
    (x1 : Vec F S2000x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1024x256 .f32) (x11 : Vec F S2000x1024 .f32) (x12 : Vec F S256x256 .f32) (x13 : Vec F S1x256 .f32) (x14 : Vec F S256x256 .f32) (x15 : Vec F S1x256 .f32) (s17 : Vec F S256x2000 .bf16) (s18 : Vec F S2000x256 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
        ∗ (∃ d, owns (c : Thread nD τ) a16 fullShare d) ∗ owns (c : Thread nD τ) a17 fullShare s17 ∗ owns (c : Thread nD τ) a18 fullShare s18
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
              ∗ owns (c : Thread nD τ) a16 fullShare (nodeOut x10 x11 x12 x13 x14 x15 s17 s18)
              ∗ owns (c : Thread nD τ) a17 fullShare s17 ∗ owns (c : Thread nD τ) a18 fullShare s18) -∗ K ⟨⟩))
      ⊢ wp frame (wpE (defs₀ (F := F)) Variants.none c none) E (cc1__node_kernel i a1 h1 a2 h2 a3 h3 a4 h4 a5 h5 a6 h6 a7 h7 a8 h8 a9 h9 a10 h10 a11 h11 a12 h12 a13 h13 a14 h14 a15 h15 a16 h16 a17 h17 a18 h18) K := by
  simp only [cc1__node_kernel_eq_skeleton]; unfold cc1__node_kernel_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, Hk⟩
  subst hf1; subst hf2; subst hf3; subst hf4; subst hf5; subst hf6; subst hf7; subst hf8; subst hf9; subst hf10; subst hf11; subst hf12; subst hf13; subst hf14; subst hf15; subst hf17; subst hf18
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    rw [View.read_writes_eq_canon _ _ _ (nodeCover _), View.canon_unit_zero offZero]
    sl_unfold_run_names
    unfold nodeOut
    simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]
  isplitl [H17]
  · iexists f17; isplitr; · ipureintro; rfl
    iexact H17
  iexists f18; isplitr; · ipureintro; rfl
  iexact H18

set_option maxHeartbeats 8000000 in
/-- The first point: whatever the output and the two scratch buffers held, the body leaves the transposed
    attention and the node keys in the scratch buffers and the output buffer at `nodeOut` of those. -/
theorem node_body_first (c : Dev nD) (E : Set ℕ) (i : grid1.Coords) (hc : firstPoint i)
    (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S1024x256 .f32) (h10 : a10.IsWhole) (a11 : Memref sig .tc .vmem S2000x1024 .f32) (h11 : a11.IsWhole) (a12 : Memref sig .tc .vmem S256x256 .f32) (h12 : a12.IsWhole) (a13 : Memref sig .tc .vmem S1x256 .f32) (h13 : a13.IsWhole) (a14 : Memref sig .tc .vmem S256x256 .f32) (h14 : a14.IsWhole) (a15 : Memref sig .tc .vmem S1x256 .f32) (h15 : a15.IsWhole) (a16 : Memref sig .tc .vmem S1024x256 .f32) (h16 : a16.IsWhole) (a17 : Memref sig .tc .vmem S256x2000 .bf16) (h17 : a17.IsWhole) (a18 : Memref sig .tc .vmem S2000x256 .f32) (h18 : a18.IsWhole)
    (x1 : Vec F S2000x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1024x256 .f32) (x11 : Vec F S2000x1024 .f32) (x12 : Vec F S256x256 .f32) (x13 : Vec F S1x256 .f32) (x14 : Vec F S256x256 .f32) (x15 : Vec F S1x256 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
        ∗ (∃ d, owns (c : Thread nD τ) a16 fullShare d) ∗ (∃ d, owns (c : Thread nD τ) a17 fullShare d) ∗ (∃ d, owns (c : Thread nD τ) a18 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
              ∗ owns (c : Thread nD τ) a16 fullShare (nodeOut x10 x11 x12 x13 x14 x15 (scrAtt x1 x2 x3 x4 x5 x6 x7) (scrKn x1 x2 x3 x4 x5 x6 x7 x8 x9))
              ∗ owns (c : Thread nD τ) a17 fullShare (scrAtt x1 x2 x3 x4 x5 x6 x7)
              ∗ owns (c : Thread nD τ) a18 fullShare (scrKn x1 x2 x3 x4 x5 x6 x7 x8 x9)) -∗ K ⟨⟩))
      ⊢ wp frame (wpE (defs₀ (F := F)) Variants.none c none) E (cc1__node_kernel i a1 h1 a2 h2 a3 h3 a4 h4 a5 h5 a6 h6 a7 h7 a8 h8 a9 h9 a10 h10 a11 h11 a12 h12 a13 h13 a14 h14 a15 h15 a16 h16 a17 h17 a18 h18) K := by
  simp only [cc1__node_kernel_eq_skeleton]; unfold cc1__node_kernel_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf1; subst hf2; subst hf3; subst hf4; subst hf5; subst hf6; subst hf7; subst hf8; subst hf9; subst hf10; subst hf11; subst hf12; subst hf13; subst hf14; subst hf15
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    rw [View.read_writes_eq_canon _ _ _ (nodeCover _), View.canon_unit_zero offZero]
    sl_unfold_run_names
    unfold nodeOut scrAtt scrKn
    simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]
  isplitl [H17]
  · iexists _; isplitr
    swap; · iexact H17
    ipureintro
    sl_unfold_run_names
    rw [View.read_writes_eq_canon _ _ _ (attCover _), View.canon_unit_zero offZero]
    unfold scrAtt
    simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]
  iexists _; isplitr
  swap; · iexact H18
  ipureintro
  sl_unfold_run_names
  rw [View.read_writes_eq_canon _ _ _ (knCover _), View.canon_unit_zero offZero]
  unfold scrKn
  simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]

end Cert.Kernel.Hand

end
-- ==== Proof.KHeRegion.lean ====
/-
  The first pallas_call's proof data and body obligation (any float instance), at a parameter `V`:
  what the TensorCore's buffers hold when the region is entered.

  Five grid points; point t stages rows 400 t .. 400 t + 399 of the transposed incidence matrix, the whole
  feature matrix (fetched once), and writes back rows 400 t .. 400 t + 399 of the product.  The blocks tile
  their arrays, so an input's staging buffer holds its block whenever the body runs.
-/
import proofs.«181957_g30339648979507_cont_9to1_1753_20_alg».proof.Proof.KHeBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def heBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The incidence window's staging buffer holds its block whenever the body runs. -/
theorem he_found_inc {c : Dev nD} (dat : Dat τ (Elt F) Unit ℕ (UR sig nD τ) ℕ cfg0 c) (hA : dat.A 0 = V c (Pipeline.arrRef spec0 0))
    (hafter : ∀ t, dat.after 0 t = heBlk V c 0 t) (t : Fin cfg0.N) (d) : dat.before 0 t d = heBlk V c 0 t :=
  (dat.before_in_eq_fetched 0 rfl (fun _ => rfl) (fun _ _ _ => rfl) (fun t => by rw [hafter]; unfold Dat.blockOf heBlk; rw [hA]; try rfl) t d).trans
    (by unfold Dat.fetched Dat.blockOf heBlk; rw [hA]; try rfl)

/-- The feature window's staging buffer holds the whole feature matrix whenever the body runs (fetched at the
    first point, its block index never moves). -/
theorem he_found_feat {c : Dev nD} (dat : Dat τ (Elt F) Unit ℕ (UR sig nD τ) ℕ cfg0 c) (hA : dat.A 1 = V c (Pipeline.arrRef spec0 1))
    (hafter : ∀ t, dat.after 1 t = heBlk V c 1 t) (t : Fin cfg0.N) (d) : dat.before 1 t d = heBlk V c 1 t :=
  (dat.before_in_eq_fetched 1 rfl (fun _ => rfl) (fun _ _ _ => rfl) (fun t => by rw [hafter]; unfold Dat.blockOf heBlk; rw [hA]; try rfl) t d).trans
    (by unfold Dat.fetched Dat.blockOf heBlk; rw [hA]; try rfl)

/-- The proof data: the arrays as the region finds them; after the body the inputs' buffers at their blocks and
    the product's at the product of the two blocks; the scoped rest and the generator register untouched. -/
def heDat (c : Dev nD) : Dat τ (Elt F) Unit ℕ (UR sig nD τ) ℕ cfg0 c where
  A w := V c (Pipeline.arrRef spec0 w)
  after w t := match w with
    | ⟨0, _⟩ => heBlk V c 0 t
    | ⟨1, _⟩ => heBlk V c 1 t
    | ⟨2, _⟩ => heOut (heBlk V c 0 t) (heBlk V c 1 t)
  Φ _ := Pipeline.ΦA spec0 c
  q _ := fullShare
  owed _ := 0

theorem heDat_A (c : Dev nD) (w : Fin cfg0.W) : (heDat V c).A w = V c (Pipeline.arrRef spec0 w) := by
  dsimp only [heDat]
theorem heDat_after0 (c : Dev nD) (t : Fin cfg0.N) : (heDat V c).after 0 t = heBlk V c 0 t := by dsimp only [heDat]
theorem heDat_after1 (c : Dev nD) (t : Fin cfg0.N) : (heDat V c).after 1 t = heBlk V c 1 t := by dsimp only [heDat]
theorem heDat_after2 (c : Dev nD) (t : Fin cfg0.N) : (heDat V c).after 2 t = heOut (heBlk V c 0 t) (heBlk V c 1 t) := by
  dsimp only [heDat]

theorem heDat_found0 (c : Dev nD) (t : Fin cfg0.N) (d) : (heDat V c).before 0 t d = heBlk V c 0 t :=
  he_found_inc V (heDat V c) (heDat_A V c 0) (heDat_after0 V c) t d
theorem heDat_found1 (c : Dev nD) (t : Fin cfg0.N) (d) : (heDat V c).before 1 t d = heBlk V c 1 t :=
  he_found_feat V (heDat V c) (heDat_A V c 1) (heDat_after1 V c) t d

/-- What the body is called with at point `t`, the windows one by one, -/
def heBodyPre (c : Dev nD) (t : Fin cfg0.N) : sProp 𝕄 :=
  iprop((heDat V c).Φ t.castSucc ∗ (heDat V c).owesAt () t.castSucc
    ∗ (∃ d, owns (c : Thread nD τ) (st0_0 t) fullShare ((heDat V c).before 0 t d))
    ∗ (∃ d, owns (c : Thread nD τ) (st0_1 t) fullShare ((heDat V c).before 1 t d))
    ∗ (∃ d, owns (c : Thread nD τ) (st0_2 t) fullShare ((heDat V c).before 2 t d)))

/-- and what it returns. -/
def heBodyPost (c : Dev nD) (t : Fin cfg0.N) : sProp 𝕄 :=
  iprop((heDat V c).Φ t.succ ∗ (heDat V c).owesAt () t.succ
    ∗ owns (c : Thread nD τ) (st0_0 t) fullShare ((heDat V c).after 0 t)
    ∗ owns (c : Thread nD τ) (st0_1 t) fullShare ((heDat V c).after 1 t)
    ∗ owns (c : Thread nD τ) (st0_2 t) fullShare ((heDat V c).after 2 t))

theorem he_sound_body (c : Dev nD) (t : Fin cfg0.N) :
    heBodyPre V c t ⊢ wp frame (wpE (defs₀ (F := F)) Variants.none c none) Set.univ (bodyAt0 t) (fun _ => heBodyPost V c t) := by
  unfold heBodyPre heBodyPost bodyAt0
  simp only [heDat_found0, heDat_found1]
  rw [show (heDat V c).Φ t.succ = (heDat V c).Φ t.castSucc from rfl,
    show (heDat V c).owesAt () t.succ = (heDat V c).owesAt () t.castSucc from rfl,
    heDat_after0, heDat_after1, heDat_after2]
  iintro ⟨HΦ, Ho, ⟨%d0, H0⟩, ⟨%d1, H1⟩, ⟨%d2, H2⟩⟩
  iapply (he_body_run c Set.univ _ _ _ _ _ _ _ (heBlk V c 0 t) (heBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem he_body_obligation (c : Dev nD) : BodyObligation (heDat (F := F) V c) (defs₀ (F := F)) Variants.none () Set.univ := fun t => by
  rw [bigSep_W0, bigSep_W0]
  exact he_sound_body V c t

end Cert.Kernel.Hand

end
-- ==== Proof.KNodeRegion.lean ====
/-
  The second pallas_call's proof data (any float instance), at a parameter `V`: what the TensorCore's buffers hold
  when the region is entered.

  Ten grid points; point t stages rows 1024 t .. of the node features and columns 1024 t .. of the transposed
  incidence matrix (the last block overhangs: only 784 of its 1024 rows / columns lie inside the arrays) and
  writes back rows 1024 t .. of the result, cut the same way; the thirteen other inputs are whole arrays fetched
  once.  The two scratch buffers hold anything before the first point and, from then on, the transposed hyperedge
  attention and the node keys the first point computed from the whole-array inputs.
-/
import proofs.«181957_g30339648979507_cont_9to1_1753_20_alg».proof.Proof.KNodeBody
import proofs.«181957_g30339648979507_cont_9to1_1753_20_alg».proof.Proof.KHeRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: its part inside the array. -/
def nodeBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## A whole-array input's staging buffer holds the array whenever the body runs -/

theorem node_found0 {c : Dev nD} (dat : Dat τ (Elt F) Unit ℕ (UR sig nD τ) ℕ cfg1 c) (hA : dat.A 0 = V c (Pipeline.arrRef spec1 0))
    (hafter : ∀ t, dat.after 0 t = nodeBlk V c 0 t) (t : Fin cfg1.N) (d) : dat.before 0 t d = nodeBlk V c 0 t :=
  (dat.before_in_eq_fetched 0 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found1 {c : Dev nD} (dat : Dat τ (Elt F) Unit ℕ (UR sig nD τ) ℕ cfg1 c) (hA : dat.A 1 = V c (Pipeline.arrRef spec1 1))
    (hafter : ∀ t, dat.after 1 t = nodeBlk V c 1 t) (t : Fin cfg1.N) (d) : dat.before 1 t d = nodeBlk V c 1 t :=
  (dat.before_in_eq_fetched 1 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found2 {c : Dev nD} (dat : Dat τ (Elt F) Unit ℕ (UR sig nD τ) ℕ cfg1 c) (hA : dat.A 2 = V c (Pipeline.arrRef spec1 2))
    (hafter : ∀ t, dat.after 2 t = nodeBlk V c 2 t) (t : Fin cfg1.N) (d) : dat.before 2 t d = nodeBlk V c 2 t :=
  (dat.before_in_eq_fetched 2 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found3 {c : Dev nD} (dat : Dat τ (Elt F) Unit ℕ (UR sig nD τ) ℕ cfg1 c) (hA : dat.A 3 = V c (Pipeline.arrRef spec1 3))
    (hafter : ∀ t, dat.after 3 t = nodeBlk V c 3 t) (t : Fin cfg1.N) (d) : dat.before 3 t d = nodeBlk V c 3 t :=
  (dat.before_in_eq_fetched 3 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found4 {c : Dev nD} (dat : Dat τ (Elt F) Unit ℕ (UR sig nD τ) ℕ cfg1 c) (hA : dat.A 4 = V c (Pipeline.arrRef spec1 4))
    (hafter : ∀ t, dat.after 4 t = nodeBlk V c 4 t) (t : Fin cfg1.N) (d) : dat.before 4 t d = nodeBlk V c 4 t :=
  (dat.before_in_eq_fetched 4 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found5 {c : Dev nD} (dat : Dat τ (Elt F) Unit ℕ (UR sig nD τ) ℕ cfg1 c) (hA : dat.A 5 = V c (Pipeline.arrRef spec1 5))
    (hafter : ∀ t, dat.after 5 t = nodeBlk V c 5 t) (t : Fin cfg1.N) (d) : dat.before 5 t d = nodeBlk V c 5 t :=
  (dat.before_in_eq_fetched 5 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found6 {c : Dev nD} (dat : Dat τ (Elt F) Unit ℕ (UR sig nD τ) ℕ cfg1 c) (hA : dat.A 6 = V c (Pipeline.arrRef spec1 6))
    (hafter : ∀ t, dat.after 6 t = nodeBlk V c 6 t) (t : Fin cfg1.N) (d) : dat.before 6 t d = nodeBlk V c 6 t :=
  (dat.before_in_eq_fetched 6 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found7 {c : Dev nD} (dat : Dat τ (Elt F) Unit ℕ (UR sig nD τ) ℕ cfg1 c) (hA : dat.A 7 = V c (Pipeline.arrRef spec1 7))
    (hafter : ∀ t, dat.after 7 t = nodeBlk V c 7 t) (t : Fin cfg1.N) (d) : dat.before 7 t d = nodeBlk V c 7 t :=
  (dat.before_in_eq_fetched 7 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found8 {c : Dev nD} (dat : Dat τ (Elt F) Unit ℕ (UR sig nD τ) ℕ cfg1 c) (hA : dat.A 8 = V c (Pipeline.arrRef spec1 8))
    (hafter : ∀ t, dat.after 8 t = nodeBlk V c 8 t) (t : Fin cfg1.N) (d) : dat.before 8 t d = nodeBlk V c 8 t :=
  (dat.before_in_eq_fetched 8 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found11 {c : Dev nD} (dat : Dat τ (Elt F) Unit ℕ (UR sig nD τ) ℕ cfg1 c) (hA : dat.A 11 = V c (Pipeline.arrRef spec1 11))
    (hafter : ∀ t, dat.after 11 t = nodeBlk V c 11 t) (t : Fin cfg1.N) (d) : dat.before 11 t d = nodeBlk V c 11 t :=
  (dat.before_in_eq_fetched 11 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found12 {c : Dev nD} (dat : Dat τ (Elt F) Unit ℕ (UR sig nD τ) ℕ cfg1 c) (hA : dat.A 12 = V c (Pipeline.arrRef spec1 12))
    (hafter : ∀ t, dat.after 12 t = nodeBlk V c 12 t) (t : Fin cfg1.N) (d) : dat.before 12 t d = nodeBlk V c 12 t :=
  (dat.before_in_eq_fetched 12 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found13 {c : Dev nD} (dat : Dat τ (Elt F) Unit ℕ (UR sig nD τ) ℕ cfg1 c) (hA : dat.A 13 = V c (Pipeline.arrRef spec1 13))
    (hafter : ∀ t, dat.after 13 t = nodeBlk V c 13 t) (t : Fin cfg1.N) (d) : dat.before 13 t d = nodeBlk V c 13 t :=
  (dat.before_in_eq_fetched 13 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found14 {c : Dev nD} (dat : Dat τ (Elt F) Unit ℕ (UR sig nD τ) ℕ cfg1 c) (hA : dat.A 14 = V c (Pipeline.arrRef spec1 14))
    (hafter : ∀ t, dat.after 14 t = nodeBlk V c 14 t) (t : Fin cfg1.N) (d) : dat.before 14 t d = nodeBlk V c 14 t :=
  (dat.before_in_eq_fetched 14 rfl (fun _ => rfl) (fun _ _ _ => rfl) (fun t => by rw [hafter]; unfold Dat.blockOf nodeBlk; rw [hA]; try rfl) t d).trans
    (by unfold Dat.fetched Dat.blockOf nodeBlk; rw [hA]; try rfl)

/-! ## What the scratch buffers hold from the first point on -/

/-- The transposed hyperedge attention, from the whole-array inputs (read as the first point stages them). -/
def attVal (c : Dev nD) : Vec F S256x2000 .bf16 :=
  scrAtt (nodeBlk V c 0 t1_0) (nodeBlk V c 1 t1_0) (nodeBlk V c 2 t1_0) (nodeBlk V c 3 t1_0) (nodeBlk V c 4 t1_0)
    (nodeBlk V c 5 t1_0) (nodeBlk V c 6 t1_0)

/-- The node keys likewise. -/
def knVal (c : Dev nD) : Vec F S2000x256 .f32 :=
  scrKn (nodeBlk V c 0 t1_0) (nodeBlk V c 1 t1_0) (nodeBlk V c 2 t1_0) (nodeBlk V c 3 t1_0) (nodeBlk V c 4 t1_0)
    (nodeBlk V c 5 t1_0) (nodeBlk V c 6 t1_0) (nodeBlk V c 7 t1_0) (nodeBlk V c 8 t1_0)

/-- The two scratch buffers before point `t`: anything before the first point, then the attention and the keys. -/
def scrHeld (c : Dev nD) (t : Fin (cfg1.N + 1)) : sProp 𝕄 :=
  if t.val = 0 then
    iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f))
  else
    iprop(owns (c : Thread nD τ) (Memref.whole cc1_scratch0) fullShare (attVal V c)
      ∗ owns (c : Thread nD τ) (Memref.whole cc1_scratch1) fullShare (knVal V c))

/-- The first call's five staging buffers, whole at some contents: scoped buffers this region never touches. -/
def idleStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before point `t`. -/
def nodeInv (c : Dev nD) (t : Fin (cfg1.N + 1)) : sProp 𝕄 :=
  iprop(idleStaging (F := F) c ∗ scrHeld V c t ∗ ∃ r, prngReg c r)

/-! ## The proof data -/

/-- The arrays as the region finds them; after the body each whole-array input's buffer at the array, the two
    clipped inputs' at their block (filled out past the array's end with the zero word, which nothing reads), the
    output's at the block computed from those and the scratch values. -/
def nodeDat (c : Dev nD) : Dat τ (Elt F) Unit ℕ (UR sig nD τ) ℕ cfg1 c where
  A w := V c (Pipeline.arrRef spec1 w)
  after w t := match w with
    | ⟨0, _⟩ => nodeBlk V c 0 t
    | ⟨1, _⟩ => nodeBlk V c 1 t
    | ⟨2, _⟩ => nodeBlk V c 2 t
    | ⟨3, _⟩ => nodeBlk V c 3 t
    | ⟨4, _⟩ => nodeBlk V c 4 t
    | ⟨5, _⟩ => nodeBlk V c 5 t
    | ⟨6, _⟩ => nodeBlk V c 6 t
    | ⟨7, _⟩ => nodeBlk V c 7 t
    | ⟨8, _⟩ => nodeBlk V c 8 t
    | ⟨9, _⟩ => (cfg1.win 9).fill (cfg1.grid.coords t) (fun _ => Scalar.ofBits .f32 0#32) (nodeBlk V c 9 t)
    | ⟨10, _⟩ => (cfg1.win 10).fill (cfg1.grid.coords t) (fun _ => Scalar.ofBits .f32 0#32) (nodeBlk V c 10 t)
    | ⟨11, _⟩ => nodeBlk V c 11 t
    | ⟨12, _⟩ => nodeBlk V c 12 t
    | ⟨13, _⟩ => nodeBlk V c 13 t
    | ⟨14, _⟩ => nodeBlk V c 14 t
    | ⟨15, _⟩ => nodeOut ((cfg1.win 9).fill (cfg1.grid.coords t) (fun _ => Scalar.ofBits .f32 0#32) (nodeBlk V c 9 t))
        ((cfg1.win 10).fill (cfg1.grid.coords t) (fun _ => Scalar.ofBits .f32 0#32) (nodeBlk V c 10 t))
        (nodeBlk V c 11 t) (nodeBlk V c 12 t) (nodeBlk V c 13 t) (nodeBlk V c 14 t) (attVal V c) (knVal V c)
    | ⟨_ + 16, h⟩ => absurd h (Nat.not_lt.2 (Nat.le_add_left _ _))
  Φ t := nodeInv V c t
  q _ := fullShare
  owed _ := 0

theorem nodeDat_A (c : Dev nD) (w : Fin cfg1.W) : (nodeDat V c).A w = V c (Pipeline.arrRef spec1 w) := by
  dsimp only [nodeDat]
theorem nodeDat_after0 (c : Dev nD) (t : Fin cfg1.N) : (nodeDat V c).after 0 t = nodeBlk V c 0 t := by dsimp only [nodeDat]
theorem nodeDat_after1 (c : Dev nD) (t : Fin cfg1.N) : (nodeDat V c).after 1 t = nodeBlk V c 1 t := by dsimp only [nodeDat]
theorem nodeDat_after2 (c : Dev nD) (t : Fin cfg1.N) : (nodeDat V c).after 2 t = nodeBlk V c 2 t := by dsimp only [nodeDat]
theorem nodeDat_after3 (c : Dev nD) (t : Fin cfg1.N) : (nodeDat V c).after 3 t = nodeBlk V c 3 t := by dsimp only [nodeDat]
theorem nodeDat_after4 (c : Dev nD) (t : Fin cfg1.N) : (nodeDat V c).after 4 t = nodeBlk V c 4 t := by dsimp only [nodeDat]
theorem nodeDat_after5 (c : Dev nD) (t : Fin cfg1.N) : (nodeDat V c).after 5 t = nodeBlk V c 5 t := by dsimp only [nodeDat]
theorem nodeDat_after6 (c : Dev nD) (t : Fin cfg1.N) : (nodeDat V c).after 6 t = nodeBlk V c 6 t := by dsimp only [nodeDat]
theorem nodeDat_after7 (c : Dev nD) (t : Fin cfg1.N) : (nodeDat V c).after 7 t = nodeBlk V c 7 t := by dsimp only [nodeDat]
theorem nodeDat_after8 (c : Dev nD) (t : Fin cfg1.N) : (nodeDat V c).after 8 t = nodeBlk V c 8 t := by dsimp only [nodeDat]
theorem nodeDat_after11 (c : Dev nD) (t : Fin cfg1.N) : (nodeDat V c).after 11 t = nodeBlk V c 11 t := by dsimp only [nodeDat]
theorem nodeDat_after12 (c : Dev nD) (t : Fin cfg1.N) : (nodeDat V c).after 12 t = nodeBlk V c 12 t := by dsimp only [nodeDat]
theorem nodeDat_after13 (c : Dev nD) (t : Fin cfg1.N) : (nodeDat V c).after 13 t = nodeBlk V c 13 t := by dsimp only [nodeDat]
theorem nodeDat_after14 (c : Dev nD) (t : Fin cfg1.N) : (nodeDat V c).after 14 t = nodeBlk V c 14 t := by dsimp only [nodeDat]
theorem nodeDat_after9 (c : Dev nD) (t : Fin cfg1.N) : (nodeDat V c).after 9 t
    = (cfg1.win 9).fill (cfg1.grid.coords t) (fun _ => Scalar.ofBits .f32 0#32) (nodeBlk V c 9 t) := by dsimp only [nodeDat]
theorem nodeDat_after10 (c : Dev nD) (t : Fin cfg1.N) : (nodeDat V c).after 10 t
    = (cfg1.win 10).fill (cfg1.grid.coords t) (fun _ => Scalar.ofBits .f32 0#32) (nodeBlk V c 10 t) := by dsimp only [nodeDat]
theorem nodeDat_after15 (c : Dev nD) (t : Fin cfg1.N) : (nodeDat V c).after 15 t
    = nodeOut ((cfg1.win 9).fill (cfg1.grid.coords t) (fun _ => Scalar.ofBits .f32 0#32) (nodeBlk V c 9 t))
        ((cfg1.win 10).fill (cfg1.grid.coords t) (fun _ => Scalar.ofBits .f32 0#32) (nodeBlk V c 10 t))
        (nodeBlk V c 11 t) (nodeBlk V c 12 t) (nodeBlk V c 13 t) (nodeBlk V c 14 t) (attVal V c) (knVal V c) := by
  dsimp only [nodeDat]

theorem nodeDat_found0 (c : Dev nD) (t : Fin cfg1.N) (d) : (nodeDat V c).before 0 t d = nodeBlk V c 0 t :=
  node_found0 V (nodeDat V c) (nodeDat_A V c 0) (nodeDat_after0 V c) t d
theorem nodeDat_found1 (c : Dev nD) (t : Fin cfg1.N) (d) : (nodeDat V c).before 1 t d = nodeBlk V c 1 t :=
  node_found1 V (nodeDat V c) (nodeDat_A V c 1) (nodeDat_after1 V c) t d
theorem nodeDat_found2 (c : Dev nD) (t : Fin cfg1.N) (d) : (nodeDat V c).before 2 t d = nodeBlk V c 2 t :=
  node_found2 V (nodeDat V c) (nodeDat_A V c 2) (nodeDat_after2 V c) t d
theorem nodeDat_found3 (c : Dev nD) (t : Fin cfg1.N) (d) : (nodeDat V c).before 3 t d = nodeBlk V c 3 t :=
  node_found3 V (nodeDat V c) (nodeDat_A V c 3) (nodeDat_after3 V c) t d
theorem nodeDat_found4 (c : Dev nD) (t : Fin cfg1.N) (d) : (nodeDat V c).before 4 t d = nodeBlk V c 4 t :=
  node_found4 V (nodeDat V c) (nodeDat_A V c 4) (nodeDat_after4 V c) t d
theorem nodeDat_found5 (c : Dev nD) (t : Fin cfg1.N) (d) : (nodeDat V c).before 5 t d = nodeBlk V c 5 t :=
  node_found5 V (nodeDat V c) (nodeDat_A V c 5) (nodeDat_after5 V c) t d
theorem nodeDat_found6 (c : Dev nD) (t : Fin cfg1.N) (d) : (nodeDat V c).before 6 t d = nodeBlk V c 6 t :=
  node_found6 V (nodeDat V c) (nodeDat_A V c 6) (nodeDat_after6 V c) t d
theorem nodeDat_found7 (c : Dev nD) (t : Fin cfg1.N) (d) : (nodeDat V c).before 7 t d = nodeBlk V c 7 t :=
  node_found7 V (nodeDat V c) (nodeDat_A V c 7) (nodeDat_after7 V c) t d
theorem nodeDat_found8 (c : Dev nD) (t : Fin cfg1.N) (d) : (nodeDat V c).before 8 t d = nodeBlk V c 8 t :=
  node_found8 V (nodeDat V c) (nodeDat_A V c 8) (nodeDat_after8 V c) t d
theorem nodeDat_found11 (c : Dev nD) (t : Fin cfg1.N) (d) : (nodeDat V c).before 11 t d = nodeBlk V c 11 t :=
  node_found11 V (nodeDat V c) (nodeDat_A V c 11) (nodeDat_after11 V c) t d
theorem nodeDat_found12 (c : Dev nD) (t : Fin cfg1.N) (d) : (nodeDat V c).before 12 t d = nodeBlk V c 12 t :=
  node_found12 V (nodeDat V c) (nodeDat_A V c 12) (nodeDat_after12 V c) t d
theorem nodeDat_found13 (c : Dev nD) (t : Fin cfg1.N) (d) : (nodeDat V c).before 13 t d = nodeBlk V c 13 t :=
  node_found13 V (nodeDat V c) (nodeDat_A V c 13) (nodeDat_after13 V c) t d
theorem nodeDat_found14 (c : Dev nD) (t : Fin cfg1.N) (d) : (nodeDat V c).before 14 t d = nodeBlk V c 14 t :=
  node_found14 V (nodeDat V c) (nodeDat_A V c 14) (nodeDat_after14 V c) t d

/-- A clipped input's buffer just fetched: its block on the part inside the array, whatever was there elsewhere. -/
theorem nodeDat_found9 (c : Dev nD) (t : Fin cfg1.N) (d) :
    (nodeDat V c).before 9 t d = (cfg1.win 9).fill (cfg1.grid.coords t) d (nodeBlk V c 9 t) := by
  unfold Dat.before; rw [if_pos (fetch1_9 t)]; rfl
theorem nodeDat_found10 (c : Dev nD) (t : Fin cfg1.N) (d) :
    (nodeDat V c).before 10 t d = (cfg1.win 10).fill (cfg1.grid.coords t) d (nodeBlk V c 10 t) := by
  unfold Dat.before; rw [if_pos (fetch1_10 t)]; rfl

end Cert.Kernel.Hand

end
-- ==== Proof.KNodeObligation.lean ====
/-
  The second pallas_call's body obligation (any float instance), at a parameter `V`.

  At every point the body finds each whole-array input's buffer at the array and each clipped input's at its
  block filled out with whatever the tail held; it leaves the inputs as found, the scratch buffers at the attention
  and the node keys, and the output buffer at the block computed from what it found.  The loop asks of a clipped
  window only the part inside the array; for the output that part must not depend on the clipped inputs' tails
  (`TailFree`: a fact about the arithmetic, supplied where the arithmetic is known).
-/
import proofs.«181957_g30339648979507_cont_9to1_1753_20_alg».proof.Proof.KNodeRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of the output block inside the array does not depend on what the clipped inputs' buffers hold past
    the arrays' ends. -/
def TailFree (c : Dev nD) : Prop :=
  ∀ (t : Fin cfg1.N) (d9 : (cfg1.win 9).block.Idx → Elt F (cfg1.win 9).elt) (d10 : (cfg1.win 10).block.Idx → Elt F (cfg1.win 10).elt),
    (cfg1.win 15).cut (cfg1.grid.coords t)
        (nodeOut ((cfg1.win 9).fill (cfg1.grid.coords t) d9 (nodeBlk V c 9 t)) ((cfg1.win 10).fill (cfg1.grid.coords t) d10 (nodeBlk V c 10 t))
          (nodeBlk V c 11 t) (nodeBlk V c 12 t) (nodeBlk V c 13 t) (nodeBlk V c 14 t) (attVal V c) (knVal V c))
      = (cfg1.win 15).cut (cfg1.grid.coords t) ((nodeDat V c).after 15 t)

/-- What the body is called with at point `t`, the windows one by one, -/
def nodeBodyPre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d))
    ∗ (∃ d, owns (c : Thread nD τ) (st1_8 t) fullShare ((nodeDat V c).before 8 t d))
    ∗ (∃ d, owns (c : Thread nD τ) (st1_9 t) fullShare ((nodeDat V c).before 9 t d))
    ∗ (∃ d, owns (c : Thread nD τ) (st1_10 t) fullShare ((nodeDat V c).before 10 t d))
    ∗ (∃ d, owns (c : Thread nD τ) (st1_11 t) fullShare ((nodeDat V c).before 11 t d))
    ∗ (∃ d, owns (c : Thread nD τ) (st1_12 t) fullShare ((nodeDat V c).before 12 t d))
    ∗ (∃ d, owns (c : Thread nD τ) (st1_13 t) fullShare ((nodeDat V c).before 13 t d))
    ∗ (∃ d, owns (c : Thread nD τ) (st1_14 t) fullShare ((nodeDat V c).before 14 t d))
    ∗ (∃ d, owns (c : Thread nD τ) (st1_15 t) fullShare ((nodeDat V c).before 15 t d)))

/-- and what it returns (a clipped window's buffer stated on the part inside the array). -/
def nodeBodyPost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t)
    ∗ owns (c : Thread nD τ) (st1_8 t) fullShare ((nodeDat V c).after 8 t)
    ∗ (∃ d, owns (c : Thread nD τ) (st1_9 t) fullShare ((cfg1.win 9).fill (cfg1.grid.coords t) d ((cfg1.win 9).cut (cfg1.grid.coords t) ((nodeDat V c).after 9 t))))
    ∗ (∃ d, owns (c : Thread nD τ) (st1_10 t) fullShare ((cfg1.win 10).fill (cfg1.grid.coords t) d ((cfg1.win 10).cut (cfg1.grid.coords t) ((nodeDat V c).after 10 t))))
    ∗ owns (c : Thread nD τ) (st1_11 t) fullShare ((nodeDat V c).after 11 t)
    ∗ owns (c : Thread nD τ) (st1_12 t) fullShare ((nodeDat V c).after 12 t)
    ∗ owns (c : Thread nD τ) (st1_13 t) fullShare ((nodeDat V c).after 13 t)
    ∗ owns (c : Thread nD τ) (st1_14 t) fullShare ((nodeDat V c).after 14 t)
    ∗ (∃ d, owns (c : Thread nD τ) (st1_15 t) fullShare ((cfg1.win 15).fill (cfg1.grid.coords t) d ((cfg1.win 15).cut (cfg1.grid.coords t) ((nodeDat V c).after 15 t)))))

set_option maxHeartbeats 4000000 in
theorem node_sound_body (c : Dev nD) (hfree : TailFree V c) (t : Fin cfg1.N) :
    nodeBodyPre V c t ⊢ wp frame (wpE (defs₀ (F := F)) Variants.none c none) Set.univ (bodyAt1 t) (fun _ => nodeBodyPost V c t) := by
  unfold nodeBodyPre nodeBodyPost bodyAt1
  simp only [nodeDat_found0, nodeDat_found1, nodeDat_found2, nodeDat_found3, nodeDat_found4, nodeDat_found5, nodeDat_found6, nodeDat_found7, nodeDat_found8, nodeDat_found11, nodeDat_found12, nodeDat_found13, nodeDat_found14, nodeDat_found9, nodeDat_found10]
  rw [show (nodeDat V c).owesAt () t.succ = (nodeDat V c).owesAt () t.castSucc from rfl]
  rw [nodeDat_after0, nodeDat_after1, nodeDat_after2, nodeDat_after3, nodeDat_after4, nodeDat_after5, nodeDat_after6, nodeDat_after7, nodeDat_after8, nodeDat_after11, nodeDat_after12, nodeDat_after13, nodeDat_after14]
  rw [show (nodeDat V c).Φ t.castSucc = nodeInv V c t.castSucc from rfl, show (nodeDat V c).Φ t.succ = nodeInv V c t.succ from rfl]
  unfold nodeInv scrHeld
  rw [if_neg (show ¬ (t.succ).val = 0 from Nat.succ_ne_zero _)]
  by_cases h0 : t.val = 0
  · -- the first point: the scratch buffers hold anything and are filled here
    have hc : firstPoint (grid1.coords t) := (firstPoint_iff t).mpr h0
    obtain rfl : t = t1_0 := Fin.ext h0
    rw [if_pos (show (Fin.castSucc t1_0).val = 0 from rfl)]
    iintro ⟨⟨Hidle, ⟨⟨%s0, Hs0⟩, ⟨%s1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_first c Set.univ (grid1.coords t1_0) hc _ _ _ _ _ _ _ _ _ _ _ _ _ _ _ _ _ _ _ _ _ _ _ _ _ _ _ _ _ _ _ _ _ _ _ _ (nodeBlk V c 0 t1_0) (nodeBlk V c 1 t1_0) (nodeBlk V c 2 t1_0) (nodeBlk V c 3 t1_0) (nodeBlk V c 4 t1_0) (nodeBlk V c 5 t1_0) (nodeBlk V c 6 t1_0) (nodeBlk V c 7 t1_0) (nodeBlk V c 8 t1_0) ((cfg1.win 9).fill (cfg1.grid.coords t1_0) d9 (nodeBlk V c 9 t1_0)) ((cfg1.win 10).fill (cfg1.grid.coords t1_0) d10 (nodeBlk V c 10 t1_0)) (nodeBlk V c 11 t1_0) (nodeBlk V c 12 t1_0) (nodeBlk V c 13 t1_0) (nodeBlk V c 14 t1_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexists s0; rw [owns_whole]; iexact Hs0
    isplitl [Hs1]; · iexists s1; rw [owns_whole]; iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _
    rw [← hfree t1_0 d9 d10, (cfg1.win 15).fill_cut]
    iexact H15
  · -- a later point: the scratch buffers hold the attention and the keys, and keep them
    have hc : ¬ firstPoint (grid1.coords t) := fun h => h0 ((firstPoint_iff t).mp h)
    rw [if_neg (show ¬ (Fin.castSucc t).val = 0 from h0)]
    iintro ⟨⟨Hidle, ⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_later c Set.univ (grid1.coords t) hc _ _ _ _ _ _ _ _ _ _ _ _ _ _ _ _ _ _ _ _ _ _ _ _ _ _ _ _ _ _ _ _ _ _ _ _ (nodeBlk V c 0 t) (nodeBlk V c 1 t) (nodeBlk V c 2 t) (nodeBlk V c 3 t) (nodeBlk V c 4 t) (nodeBlk V c 5 t) (nodeBlk V c 6 t) (nodeBlk V c 7 t) (nodeBlk V c 8 t) ((cfg1.win 9).fill (cfg1.grid.coords t) d9 (nodeBlk V c 9 t)) ((cfg1.win 10).fill (cfg1.grid.coords t) d10 (nodeBlk V c 10 t)) (nodeBlk V c 11 t) (nodeBlk V c 12 t) (nodeBlk V c 13 t) (nodeBlk V c 14 t) (attVal V c) (knVal V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexact Hs0
    isplitl [Hs1]; · iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _
    rw [← hfree t d9 d10, (cfg1.win 15).fill_cut]
    iexact H15

/-- The body obligation of the second pipeline, at every point, in the form the loop uses. -/
theorem node_body_obligation (c : Dev nD) (hfree : TailFree V c) :
    BodyObligationLoose (nodeDat (F := F) V c) (defs₀ (F := F)) Variants.none () Set.univ := fun t => by
  rw [bigSep_W1, bigSep_W1]
  exact node_sound_body V c hfree t

end Cert.Kernel.Hand

end
-- ==== Proof.KKernelRun.lean ====
/-
  The kernel program's run (any float instance): @main is seven host operations (six bias reshapes and the
  transpose of the incidence matrix), the first pallas_call, the second pallas_call.

  The buffers' contents at the four boundaries are a fold from the launch memory: the host operations' results,
  then the first call's arrays at what its write-backs leave, then the second call's.  Each region is entered
  from "every unscoped buffer at the boundary's contents" and left at the next boundary's; so every final
  state has every unscoped buffer at the last boundary's contents.  The second region's part inside the array
  of its output block must not depend on the clipped inputs' tails: a hypothesis here.
-/
import proofs.«181957_g30339648979507_cont_9to1_1753_20_alg».proof.Proof.KNodeObligation
import proofs.«181957_g30339648979507_cont_9to1_1753_20_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch, and after the host operations (the first region's entry). -/
abbrev bnd0 : Dev nD → Valuation τ sig (Elt F) := fun c => Gen.V0 m c
abbrev bnd1 : Dev nD → Valuation τ sig (Elt F) := fun c => Gen.V1 m c
abbrev at1 : (c : Dev nD) → (b : Ref sig .tc) → Buf (Elt F) ((c : Thread nD τ).loc b) := fun c b => bnd1 m c b

/-- At the first region's exit: its arrays at what the pipeline leaves, every other buffer as entered. -/
def bnd2 (c : Dev nD) : Valuation τ sig (Elt F) :=
  Pipeline.withArrays spec0 c (bnd1 m c) fun w => (heDat (at1 m) c).arrAt w cfg0.N
theorem bnd2_arr (c : Dev nD) (w : Fin cfg0.W) :
    bnd2 m c (Proc.devRef .tc (Pipeline.arrRef spec0 w)) = (heDat (at1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev at2 : (c : Dev nD) → (b : Ref sig .tc) → Buf (Elt F) ((c : Thread nD τ).loc b) := fun c b => bnd2 m c b
theorem heFinal (c : Dev nD) (w : Fin cfg0.W) : (heDat (at1 m) c).arrAt w cfg0.N = at2 m c (Pipeline.arrRef spec0 w) :=
  (bnd2_arr m c w).symm
theorem heRest (c : Dev nD) : ∀ b, b ∉ Finset.univ.image (Pipeline.arrRef spec0) → at2 m c b = at1 m c b :=
  fun b hb => bnd2_of_ne m c b fun w e => hb (Finset.mem_image.mpr ⟨w, Finset.mem_univ _, e⟩)

/-- At the second region's exit, likewise: the last boundary. -/
def bnd3 (c : Dev nD) : Valuation τ sig (Elt F) :=
  Pipeline.withArrays spec1 c (bnd2 m c) fun w => (nodeDat (at2 m) c).arrAt w cfg1.N
theorem bnd3_arr (c : Dev nD) (w : Fin cfg1.W) :
    bnd3 m c (Proc.devRef .tc (Pipeline.arrRef spec1 w)) = (nodeDat (at2 m) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m c (Proc.devRef .tc b) = bnd2 m c (Proc.devRef .tc b) := by
  unfold bnd3; exact Pipeline.withArrays_of_ne spec1 c _ _ b hb
abbrev at3 : (c : Dev nD) → (b : Ref sig .tc) → Buf (Elt F) ((c : Thread nD τ).loc b) := fun c b => bnd3 m c b
theorem nodeFinal (c : Dev nD) (w : Fin cfg1.W) : (nodeDat (at2 m) c).arrAt w cfg1.N = at3 m c (Pipeline.arrRef spec1 w) :=
  (bnd3_arr m c w).symm
theorem nodeRest (c : Dev nD) : ∀ b, b ∉ Finset.univ.image (Pipeline.arrRef spec1) → at3 m c b = at2 m c b :=
  fun b hb => bnd3_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => heDat (at1 m) c
  | ⟨1, _⟩ => fun c => nodeDat (at2 m) c
abbrev noVariants : Variants := Variants.none
/-- No core owes another anything: no level is assigned. -/
abbrev noLevels : GSem nD τ sig → Finset Unit := fun _ => ∅
abbrev lvl : GSem nD τ sig → Unit → ℕ := fun _ _ => 0
/-- What rides beside the buffers through every segment: the generator register at some state, nothing owed. -/
abbrev beside (c : Dev nD) : sProp 𝕄 := iprop((∃ r, prngReg c r) ∗ ∃ W, owes (c : Thread nD τ) (0 : CellTallies nD τ sig Unit) W)
/-- The host operations as a segment over the unscoped references. -/
abbrev hostSeg : Pipeline.HostSeg (Name := ℕ) (U := UR sig nD τ) (pcfgs (F := F)) defs₀ noVariants noLevels lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (bnd0 m) beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastState (c : Dev nD) : sProp 𝕄 := iprop(StableHlo.held (c : Thread nD τ) (Pipeline.ucRefs τ sig) (bnd3 m c) ∗ ∃ r, prngReg c r)

/-! ## The regions as segments -/

set_option backward.isDefEq.respectTransparency.types false in
/-- The first region: entered from every unscoped buffer at the host operations' results, left with the product
    array at what the five write-backs leave. -/
def heSeg : Pipeline.RegionSeg (pcfgs (F := F)) Gen.adm (pdats m) () defs₀ noVariants noLevels lvl 0 where
  win := launch0.win.to₀
  block_pos := launch0.block_pos
  stage_whole := launch0.stage_whole
  K := PEmpty
  osem k := k.elim
  ho := Pipeline.OwnSemFacts.none _
  hbody c := (he_body_obligation (at1 m) c).loose
  hwaits := Pipeline.hwaits_of_owed_zero _ _ _ _ noLevels lvl 0 fun _ _ => rfl
  pre c := iprop(StableHlo.held (c : Thread nD τ) (Pipeline.ucRefs τ sig) (bnd1 m c) ∗ beside c)
  post c := iprop(StableHlo.held (c : Thread nD τ) (Pipeline.ucRefs τ sig) (bnd2 m c) ∗ beside c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (at1 m c) (at2 m c) ((pdats m 0 c).arrAt · cfg0.N) (heFinal m c) (heRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the first region's exit contents, left at the last boundary.  The two scratch
    buffers enter its invariant at anything (they are scoped buffers no window stages) and leave it the same way. -/
def nodeSeg (hfree : ∀ c, TailFree (at2 m) c) :
    Pipeline.RegionSeg (pcfgs (F := F)) Gen.adm (pdats m) () defs₀ noVariants noLevels lvl 1 where
  win := launch1.win.to₀
  block_pos := launch1.block_pos
  stage_whole := launch1.stage_whole
  K := PEmpty
  osem k := k.elim
  ho := Pipeline.OwnSemFacts.none _
  hbody c := node_body_obligation (at2 m) c (hfree c)
  hwaits := Pipeline.hwaits_of_owed_zero _ _ _ _ noLevels lvl 1 fun _ _ => rfl
  pre c := iprop(StableHlo.held (c : Thread nD τ) (Pipeline.ucRefs τ sig) (bnd2 m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (at2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = nodeInv (at2 m) c 0 from rfl,
      show (Pipeline.scopedRest (Pipeline.pin (pcfgs (F := F)) Gen.adm 1).spec c : sProp 𝕄) = Pipeline.scopedRest spec1 c from rfl, scopedRest1_eq]
    unfold nodeInv scrHeld idleStaging
    rw [if_pos (show ((0 : Fin (cfg1.N + 1))).val = 0 from rfl)]
    iintro ⟨Hp, -, ⟨H1, H2, H3, H4, H5, Hs0, Hs1⟩⟩
    isplitl [H1 H2 H3 H4 H5]
    · isplitl [H1]; · iexact H1
      isplitl [H2]; · iexact H2
      isplitl [H3]; · iexact H3
      isplitl [H4]; · iexact H4
      iexact H5
    isplitl [Hs0 Hs1]
    · isplitl [Hs0]; · iexact Hs0
      iexact Hs1
    iexact Hp
  hout c := by
    rw [Pipeline.ownSems0_none, show (pdats m 1 c).Φ (Fin.last _) = nodeInv (at2 m) c (Fin.last _) from rfl,
      show (Pipeline.scopedRest (Pipeline.pin (pcfgs (F := F)) Gen.adm 1).spec c : sProp 𝕄) = Pipeline.scopedRest spec1 c from rfl, scopedRest1_eq]
    unfold nodeInv scrHeld idleStaging
    rw [if_neg (show ¬ (Fin.last cfg1.N).val = 0 from by decide)]
    iintro ⟨⟨H1, H2, H3, H4, H5⟩, ⟨Hs0, Hs1⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [Hs0]
    · iexists (attVal (at2 m) c); rw [← owns_whole (c : Thread nD τ) cc1_scratch0 fullShare]; iexact Hs0
    iexists (knVal (at2 m) c); rw [← owns_whole (c : Thread nD τ) cc1_scratch1 fullShare]; iexact Hs1
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (at2 m c) (at3 m c) ((pdats m 1 c).arrAt · cfg1.N) (nodeFinal m c) (nodeRest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs (hfree : ∀ c, TailFree (at2 m) c) :
    List (Pipeline.Seg (pcfgs (F := F)) Gen.adm (pdats m) () defs₀ noVariants noLevels lvl) :=
  [ .host (hostSeg m), .region (heSeg m), .region (nodeSeg m hfree) ]

theorem main_is_segs (hfree : ∀ c, TailFree (at2 m) c) (c : Dev nD) : main (F := F) c = Pipeline.Seg.run (mainSegs m hfree) :=
  (main_chain c).trans (by chain_rfl)

set_option backward.isDefEq.respectTransparency.types false in
/-- From any memory with zero counters every weakly fair execution of @main terminates, nothing faulting, and
    every final state has every unscoped buffer at the last boundary's contents. -/
theorem run_all (hfree : ∀ c, TailFree (at2 m) c) :
    θ_run defs (onTc (τ := τ) (main (F := F))) ⟨m, fun _ => 0, ρ⟩ (fun r => ∀ c : Dev nD,
      ∀ b ∈ Pipeline.ucRefs τ sig, r.2.mem (((c : Thread nD τ)).1, b) = bnd3 m c b) :=
  Pipeline.θ_run_regions_kit (pcfgs (F := F)) Gen.adm (pdats m) () cellOf_inj emb₁ defs₀ noVariants noLevels lvl m ρ main (mainSegs m hfree)
    (fun c Q => by rw [main_is_segs m hfree c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ beside c)) (Tₙ := lastState m)
    (hch := ⟨fun _ => .rfl, fun _ => .rfl, fun _ => .rfl, fun _ => .rfl⟩)
    (hinit := by
      refine Pipeline.initEach noLevels lvl fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd3 m c b)
    (hfin := fun c s' => by
      iintro ⟨⟨Hh, -⟩, HSI⟩
      unfold StableHlo.held
      imodintro
      iapply (pointsTo_read_all (Pipeline.ucRefs τ sig) (fun b => (((c : Thread nD τ)).1, b)) (bnd3 m c) s')
      isplitl [Hh] <;> iassumption)
    (hQ := fun s h => h)

end Cert.Kernel.Hand

end
-- ==== Proof.KNodeForget.lean ====
/-
  The second pallas_call's body obligation read for a FRAME only (any float instance): the output window is
  forgotten — handed to the body at anything and taken back at anything — so nothing is asked of what the body
  computes from the clipped inputs' tails.  The inputs are found and left exactly as in the exact obligation, the
  scratch buffers filled at the first point and kept afterwards.
-/
import proofs.«181957_g30339648979507_cont_9to1_1753_20_alg».proof.Proof.KNodeRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows a frame-only reading forgets: the output window. -/
abbrev forgetOut : Fin cfg1.W → Bool := fun w => w.val == 15

/-- What the body is called with at point `t`, the windows one by one, -/
def nodeFramePre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d))
    ∗ (∃ d, owns (c : Thread nD τ) (st1_8 t) fullShare ((nodeDat V c).before 8 t d))
    ∗ (∃ d, owns (c : Thread nD τ) (st1_9 t) fullShare ((nodeDat V c).before 9 t d))
    ∗ (∃ d, owns (c : Thread nD τ) (st1_10 t) fullShare ((nodeDat V c).before 10 t d))
    ∗ (∃ d, owns (c : Thread nD τ) (st1_11 t) fullShare ((nodeDat V c).before 11 t d))
    ∗ (∃ d, owns (c : Thread nD τ) (st1_12 t) fullShare ((nodeDat V c).before 12 t d))
    ∗ (∃ d, owns (c : Thread nD τ) (st1_13 t) fullShare ((nodeDat V c).before 13 t d))
    ∗ (∃ d, owns (c : Thread nD τ) (st1_14 t) fullShare ((nodeDat V c).before 14 t d))
    ∗ (∃ X, owns (c : Thread nD τ) (st1_15 t) fullShare X))

/-- and what it returns (a clipped window's buffer stated on the part inside the array). -/
def nodeFramePost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t)
    ∗ owns (c : Thread nD τ) (st1_8 t) fullShare ((nodeDat V c).after 8 t)
    ∗ (∃ d, owns (c : Thread nD τ) (st1_9 t) fullShare ((cfg1.win 9).fill (cfg1.grid.coords t) d ((cfg1.win 9).cut (cfg1.grid.coords t) ((nodeDat V c).after 9 t))))
    ∗ (∃ d, owns (c : Thread nD τ) (st1_10 t) fullShare ((cfg1.win 10).fill (cfg1.grid.coords t) d ((cfg1.win 10).cut (cfg1.grid.coords t) ((nodeDat V c).after 10 t))))
    ∗ owns (c : Thread nD τ) (st1_11 t) fullShare ((nodeDat V c).after 11 t)
    ∗ owns (c : Thread nD τ) (st1_12 t) fullShare ((nodeDat V c).after 12 t)
    ∗ owns (c : Thread nD τ) (st1_13 t) fullShare ((nodeDat V c).after 13 t)
    ∗ owns (c : Thread nD τ) (st1_14 t) fullShare ((nodeDat V c).after 14 t)
    ∗ (∃ X, owns (c : Thread nD τ) (st1_15 t) fullShare X))

set_option maxHeartbeats 4000000 in
theorem node_frame_body (c : Dev nD) (t : Fin cfg1.N) :
    nodeFramePre V c t ⊢ wp frame (wpE (defs₀ (F := F)) Variants.none c none) Set.univ (bodyAt1 t) (fun _ => nodeFramePost V c t) := by
  unfold nodeFramePre nodeFramePost bodyAt1
  simp only [nodeDat_found0, nodeDat_found1, nodeDat_found2, nodeDat_found3, nodeDat_found4, nodeDat_found5, nodeDat_found6, nodeDat_found7, nodeDat_found8, nodeDat_found11, nodeDat_found12, nodeDat_found13, nodeDat_found14, nodeDat_found9, nodeDat_found10]
  rw [show (nodeDat V c).owesAt () t.succ = (nodeDat V c).owesAt () t.castSucc from rfl]
  rw [nodeDat_after0, nodeDat_after1, nodeDat_after2, nodeDat_after3, nodeDat_after4, nodeDat_after5, nodeDat_after6, nodeDat_after7, nodeDat_after8, nodeDat_after11, nodeDat_after12, nodeDat_after13, nodeDat_after14]
  rw [show (nodeDat V c).Φ t.castSucc = nodeInv V c t.castSucc from rfl, show (nodeDat V c).Φ t.succ = nodeInv V c t.succ from rfl]
  unfold nodeInv scrHeld
  rw [if_neg (show ¬ (t.succ).val = 0 from Nat.succ_ne_zero _)]
  by_cases h0 : t.val = 0
  · -- the first point: the scratch buffers hold anything and are filled here
    have hc : firstPoint (grid1.coords t) := (firstPoint_iff t).mpr h0
    obtain rfl : t = t1_0 := Fin.ext h0
    rw [if_pos (show (Fin.castSucc t1_0).val = 0 from rfl)]
    iintro ⟨⟨Hidle, ⟨⟨%s0, Hs0⟩, ⟨%s1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_first c Set.univ (grid1.coords t1_0) hc _ _ _ _ _ _ _ _ _ _ _ _ _ _ _ _ _ _ _ _ _ _ _ _ _ _ _ _ _ _ _ _ _ _ _ _ (nodeBlk V c 0 t1_0) (nodeBlk V c 1 t1_0) (nodeBlk V c 2 t1_0) (nodeBlk V c 3 t1_0) (nodeBlk V c 4 t1_0) (nodeBlk V c 5 t1_0) (nodeBlk V c 6 t1_0) (nodeBlk V c 7 t1_0) (nodeBlk V c 8 t1_0) ((cfg1.win 9).fill (cfg1.grid.coords t1_0) d9 (nodeBlk V c 9 t1_0)) ((cfg1.win 10).fill (cfg1.grid.coords t1_0) d10 (nodeBlk V c 10 t1_0)) (nodeBlk V c 11 t1_0) (nodeBlk V c 12 t1_0) (nodeBlk V c 13 t1_0) (nodeBlk V c 14 t1_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexists s0; rw [owns_whole]; iexact Hs0
    isplitl [Hs1]; · iexists s1; rw [owns_whole]; iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _; iexact H15
  · -- a later point: the scratch buffers hold the attention and the keys, and keep them
    have hc : ¬ firstPoint (grid1.coords t) := fun h => h0 ((firstPoint_iff t).mp h)
    rw [if_neg (show ¬ (Fin.castSucc t).val = 0 from h0)]
    iintro ⟨⟨Hidle, ⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_later c Set.univ (grid1.coords t) hc _ _ _ _ _ _ _ _ _ _ _ _ _ _ _ _ _ _ _ _ _ _ _ _ _ _ _ _ _ _ _ _ _ _ _ _ (nodeBlk V c 0 t) (nodeBlk V c 1 t) (nodeBlk V c 2 t) (nodeBlk V c 3 t) (nodeBlk V c 4 t) (nodeBlk V c 5 t) (nodeBlk V c 6 t) (nodeBlk V c 7 t) (nodeBlk V c 8 t) ((cfg1.win 9).fill (cfg1.grid.coords t) d9 (nodeBlk V c 9 t)) ((cfg1.win 10).fill (cfg1.grid.coords t) d10 (nodeBlk V c 10 t)) (nodeBlk V c 11 t) (nodeBlk V c 12 t) (nodeBlk V c 13 t) (nodeBlk V c 14 t) (attVal V c) (knVal V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexact Hs0
    isplitl [Hs1]; · iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _; iexact H15

/-- The body obligation of the second pipeline with its output window forgotten, at every point. -/
theorem node_frame_obligation (c : Dev nD) :
    BodyObligationLoose (nodeDat (F := F) V c) (defs₀ (F := F)) Variants.none () Set.univ forgetOut := fun t => by
  rw [bigSep_W1, bigSep_W1]
  exact node_frame_body V c t

end Cert.Kernel.Hand

end
-- ==== Proof.KKernelArgs.lean ====
/-
  The kernel program's argument arrays at the last boundary are the launch memory's (any float instance): no host
  operation writes an argument, the first region only reads the node features, the second only reads the seven
  arguments it stages.  And what the second region finds at its entry, buffer by buffer: the arguments as launched,
  the reshaped biases and the transposed incidence matrix as the host operations left them.
-/
import proofs.«181957_g30339648979507_cont_9to1_1753_20_alg».proof.Proof.KKernelRun

set_option maxRecDepth 16384

noncomputable section

namespace Cert.Kernel.Args

open Cert.Kernel Cert.Kernel.Gen Cert.Kernel.Hand
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-! ## One step back at a time -/

/-- After the host operations a buffer none of them writes holds what the launch memory does. -/
theorem at1_launch (c : Dev nD) (r : Ref sig .tc) (h : r ∉ hostOps0_W) : at1 m c r = m ((c : Thread nD τ).loc r) :=
  (V1_of m c r h).trans rfl

/-- A buffer that is no array of the first region leaves it as it entered. -/
theorem at2_of_ne (c : Dev nD) (r : Ref sig .tc) (hr : ∀ w, Pipeline.arrRef spec0 w ≠ r) : at2 m c r = at1 m c r :=
  bnd2_of_ne m c r hr

/-- An array the first region only reads leaves it as it entered. -/
theorem at2_in (c : Dev nD) (w : Fin cfg0.W) (hin : (cfg0.win w).isOut = false) :
    at2 m c (Pipeline.arrRef spec0 w) = at1 m c (Pipeline.arrRef spec0 w) :=
  (bnd2_arr m c w).trans (((heDat (at1 m) c).arrAt_in w hin _).trans (heDat_A (at1 m) c w))

/-- A buffer that is no array of the second region leaves it as it entered. -/
theorem at3_of_ne (c : Dev nD) (r : Ref sig .tc) (hr : ∀ w, Pipeline.arrRef spec1 w ≠ r) : at3 m c r = at2 m c r :=
  bnd3_of_ne m c r hr

/-- An array the second region only reads leaves it as it entered. -/
theorem at3_in (c : Dev nD) (w : Fin cfg1.W) (hin : (cfg1.win w).isOut = false) :
    at3 m c (Pipeline.arrRef spec1 w) = at2 m c (Pipeline.arrRef spec1 w) :=
  (bnd3_arr m c w).trans (((nodeDat (at2 m) c).arrAt_in w hin _).trans (nodeDat_A (at2 m) c w))

/-- The node features, which the first region reads through its second window, enter the second region as launched. -/
theorem at2_feat (c : Dev nD) : at2 m c main_arg0 = m ((c : Thread nD τ).loc main_arg0) :=
  (at2_in m c 1 rfl).trans (at1_launch m c main_arg0 (by decide))

/-- A buffer no host operation writes and the first region does not touch enters the second region as launched. -/
theorem at2_launch (c : Dev nD) (r : Ref sig .tc) (hr : ∀ w, Pipeline.arrRef spec0 w ≠ r) (h : r ∉ hostOps0_W) :
    at2 m c r = m ((c : Thread nD τ).loc r) :=
  (at2_of_ne m c r hr).trans (at1_launch m c r h)

/-! ## The arguments at the last boundary -/

theorem last_arg0 (c : Dev nD) : bnd3 m c (Proc.devRef .tc main_arg0) = m ((c : Thread nD τ).loc main_arg0) := by
  exact (at3_in m c 9 rfl).trans (at2_feat m c)
theorem last_arg1 (c : Dev nD) : bnd3 m c (Proc.devRef .tc main_arg1) = m ((c : Thread nD τ).loc main_arg1) := by
  exact (at3_of_ne m c main_arg1 (by decide)).trans (at2_launch m c main_arg1 (by decide) (by decide))
theorem last_arg2 (c : Dev nD) : bnd3 m c (Proc.devRef .tc main_arg2) = m ((c : Thread nD τ).loc main_arg2) := by
  exact (at3_in m c 1 rfl).trans (at2_launch m c main_arg2 (by decide) (by decide))
theorem last_arg3 (c : Dev nD) : bnd3 m c (Proc.devRef .tc main_arg3) = m ((c : Thread nD τ).loc main_arg3) := by
  exact (at3_of_ne m c main_arg3 (by decide)).trans (at2_launch m c main_arg3 (by decide) (by decide))
theorem last_arg4 (c : Dev nD) : bnd3 m c (Proc.devRef .tc main_arg4) = m ((c : Thread nD τ).loc main_arg4) := by
  exact (at3_in m c 3 rfl).trans (at2_launch m c main_arg4 (by decide) (by decide))
theorem last_arg5 (c : Dev nD) : bnd3 m c (Proc.devRef .tc main_arg5) = m ((c : Thread nD τ).loc main_arg5) := by
  exact (at3_of_ne m c main_arg5 (by decide)).trans (at2_launch m c main_arg5 (by decide) (by decide))
theorem last_arg6 (c : Dev nD) : bnd3 m c (Proc.devRef .tc main_arg6) = m ((c : Thread nD τ).loc main_arg6) := by
  exact (at3_in m c 5 rfl).trans (at2_launch m c main_arg6 (by decide) (by decide))
theorem last_arg7 (c : Dev nD) : bnd3 m c (Proc.devRef .tc main_arg7) = m ((c : Thread nD τ).loc main_arg7) := by
  exact (at3_of_ne m c main_arg7 (by decide)).trans (at2_launch m c main_arg7 (by decide) (by decide))
theorem last_arg8 (c : Dev nD) : bnd3 m c (Proc.devRef .tc main_arg8) = m ((c : Thread nD τ).loc main_arg8) := by
  exact (at3_in m c 11 rfl).trans (at2_launch m c main_arg8 (by decide) (by decide))
theorem last_arg9 (c : Dev nD) : bnd3 m c (Proc.devRef .tc main_arg9) = m ((c : Thread nD τ).loc main_arg9) := by
  exact (at3_of_ne m c main_arg9 (by decide)).trans (at2_launch m c main_arg9 (by decide) (by decide))
theorem last_arg10 (c : Dev nD) : bnd3 m c (Proc.devRef .tc main_arg10) = m ((c : Thread nD τ).loc main_arg10) := by
  exact (at3_in m c 7 rfl).trans (at2_launch m c main_arg10 (by decide) (by decide))
theorem last_arg11 (c : Dev nD) : bnd3 m c (Proc.devRef .tc main_arg11) = m ((c : Thread nD τ).loc main_arg11) := by
  exact (at3_of_ne m c main_arg11 (by decide)).trans (at2_launch m c main_arg11 (by decide) (by decide))
theorem last_arg12 (c : Dev nD) : bnd3 m c (Proc.devRef .tc main_arg12) = m ((c : Thread nD τ).loc main_arg12) := by
  exact (at3_in m c 13 rfl).trans (at2_launch m c main_arg12 (by decide) (by decide))
theorem last_arg13 (c : Dev nD) : bnd3 m c (Proc.devRef .tc main_arg13) = m ((c : Thread nD τ).loc main_arg13) := by
  exact (at3_of_ne m c main_arg13 (by decide)).trans (at2_launch m c main_arg13 (by decide) (by decide))

/-! ## The result buffer at the last boundary -/

theorem last_out (c : Dev nD) : bnd3 m c (Proc.devRef .tc main_v8) = (nodeDat (at2 m) c).arrAt 15 cfg1.N := by
  exact bnd3_arr m c 15

/-! ## What the second region finds -/

theorem entry2_arg0 (c : Dev nD) : at2 m c main_arg0 = m ((c : Thread nD τ).loc main_arg0) := by
  exact at2_feat m c
theorem entry2_arg2 (c : Dev nD) : at2 m c main_arg2 = m ((c : Thread nD τ).loc main_arg2) := by
  exact at2_launch m c main_arg2 (by decide) (by decide)
theorem entry2_arg4 (c : Dev nD) : at2 m c main_arg4 = m ((c : Thread nD τ).loc main_arg4) := by
  exact at2_launch m c main_arg4 (by decide) (by decide)
theorem entry2_arg6 (c : Dev nD) : at2 m c main_arg6 = m ((c : Thread nD τ).loc main_arg6) := by
  exact at2_launch m c main_arg6 (by decide) (by decide)
theorem entry2_arg8 (c : Dev nD) : at2 m c main_arg8 = m ((c : Thread nD τ).loc main_arg8) := by
  exact at2_launch m c main_arg8 (by decide) (by decide)
theorem entry2_arg10 (c : Dev nD) : at2 m c main_arg10 = m ((c : Thread nD τ).loc main_arg10) := by
  exact at2_launch m c main_arg10 (by decide) (by decide)
theorem entry2_arg12 (c : Dev nD) : at2 m c main_arg12 = m ((c : Thread nD τ).loc main_arg12) := by
  exact at2_launch m c main_arg12 (by decide) (by decide)
theorem entry2_v0 (c : Dev nD) : at2 m c main_v0 = Gen.V1 m c main_v0 := by
  exact at2_of_ne m c main_v0 (by decide)
theorem entry2_v1 (c : Dev nD) : at2 m c main_v1 = Gen.V1 m c main_v1 := by
  exact at2_of_ne m c main_v1 (by decide)
theorem entry2_v2 (c : Dev nD) : at2 m c main_v2 = Gen.V1 m c main_v2 := by
  exact at2_of_ne m c main_v2 (by decide)
theorem entry2_v3 (c : Dev nD) : at2 m c main_v3 = Gen.V1 m c main_v3 := by
  exact at2_of_ne m c main_v3 (by decide)
theorem entry2_v4 (c : Dev nD) : at2 m c main_v4 = Gen.V1 m c main_v4 := by
  exact at2_of_ne m c main_v4 (by decide)
theorem entry2_v5 (c : Dev nD) : at2 m c main_v5 = Gen.V1 m c main_v5 := by
  exact at2_of_ne m c main_v5 (by decide)
theorem entry2_v6 (c : Dev nD) : at2 m c main_v6 = Gen.V1 m c main_v6 := by
  exact at2_in m c 0 rfl
theorem entry2_v7 (c : Dev nD) : at2 m c main_v7 = (heDat (at1 m) c).arrAt 2 cfg0.N := by
  exact bnd2_arr m c 2
theorem entry1_arg0 (c : Dev nD) : at1 m c main_arg0 = m ((c : Thread nD τ).loc main_arg0) := by
  exact at1_launch m c main_arg0 (by decide)

end Cert.Kernel.Args

end
-- ==== Proof.KFrameRun.lean ====
/-
  The kernel program's FRAME (any float instance): every weakly fair execution of @main terminates, nothing
  faulting, with every argument array as launched.  Read over relational proof data: the first region exactly, the
  second with its output window forgotten, so that nothing is asked of what the second body computes from the
  clipped inputs' tails.  The last thread state keeps the second region's arrays at whatever the write-backs may
  leave — an input window's array is never written, so the seven staged arguments are read back as entered — and
  the seven arguments that bypass the region at their entry contents.
-/
import proofs.«181957_g30339648979507_cont_9to1_1753_20_alg».proof.Proof.KKernelRun
import proofs.«181957_g30339648979507_cont_9to1_1753_20_alg».proof.Proof.KNodeForget
import proofs.«181957_g30339648979507_cont_9to1_1753_20_alg».proof.Proof.KKernelArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the first pipeline's exact data, the second's with its output forgotten. -/
def rdats : (p : Fin 2) → (c : Dev nD) → RDat τ (Elt F) Unit ℕ (UR sig nD τ) ℕ (Pipeline.pin (pcfgs (F := F)) Gen.adm p) c
  | ⟨0, _⟩ => fun c => (heDat (at1 m) c).toR
  | ⟨1, _⟩ => fun c => (nodeDat (at2 m) c).toRForget forgetOut

theorem bypass_arg1 (c : Dev nD) : at2 m c main_arg1 = m ((c : Thread nD τ).loc main_arg1) :=
  (bnd2_of_ne m c main_arg1 (by decide)).trans ((Gen.V1_of m c main_arg1 (by decide)).trans rfl)
theorem bypass_arg3 (c : Dev nD) : at2 m c main_arg3 = m ((c : Thread nD τ).loc main_arg3) :=
  (bnd2_of_ne m c main_arg3 (by decide)).trans ((Gen.V1_of m c main_arg3 (by decide)).trans rfl)
theorem bypass_arg5 (c : Dev nD) : at2 m c main_arg5 = m ((c : Thread nD τ).loc main_arg5) :=
  (bnd2_of_ne m c main_arg5 (by decide)).trans ((Gen.V1_of m c main_arg5 (by decide)).trans rfl)
theorem bypass_arg7 (c : Dev nD) : at2 m c main_arg7 = m ((c : Thread nD τ).loc main_arg7) :=
  (bnd2_of_ne m c main_arg7 (by decide)).trans ((Gen.V1_of m c main_arg7 (by decide)).trans rfl)
theorem bypass_arg9 (c : Dev nD) : at2 m c main_arg9 = m ((c : Thread nD τ).loc main_arg9) :=
  (bnd2_of_ne m c main_arg9 (by decide)).trans ((Gen.V1_of m c main_arg9 (by decide)).trans rfl)
theorem bypass_arg11 (c : Dev nD) : at2 m c main_arg11 = m ((c : Thread nD τ).loc main_arg11) :=
  (bnd2_of_ne m c main_arg11 (by decide)).trans ((Gen.V1_of m c main_arg11 (by decide)).trans rfl)
theorem bypass_arg13 (c : Dev nD) : at2 m c main_arg13 = m ((c : Thread nD τ).loc main_arg13) :=
  (bnd2_of_ne m c main_arg13 (by decide)).trans ((Gen.V1_of m c main_arg13 (by decide)).trans rfl)

/-- A staged argument's array holds, after every write-back, what the region found: an input window is never written. -/
theorem staged_unchanged (c : Dev nD) (w : Fin cfg1.W) (hin : (cfg1.win w).isOut = false)
    {G : Buf (Elt F) ((cfg1.win w).arr.view.loc (c.tc : Thread nD τ))} (h : (rdats m 1 c).ArrAt w cfg1.N G) :
    G = at2 m c (Pipeline.arrRef spec1 w) := by
  rw [RDat.ArrAt_in (rdats m 1 c) w hin cfg1.N] at h
  exact h

/-- The last thread state: the second region's arrays at what the write-backs may leave, the bypassing buffers as
    the region found them, the generator register. -/
abbrev frameLast (c : Dev nD) : sProp 𝕄 :=
  iprop((rdats m 1 c).arraysAt cfg1.N
    ∗ Pipeline.unscopedRest (Ix := Unit) (Name := ℕ) (U := UR sig nD τ) (Lvl := ℕ) spec1 c (at2 m c) ∗ ∃ r, prngReg c r)

set_option backward.isDefEq.respectTransparency.types false in
def heSegR : Pipeline.RDat.RegionSeg (pcfgs (F := F)) Gen.adm (rdats m) () defs₀ noVariants noLevels lvl 0 where
  win := launch0.win.to₀
  block_pos := launch0.block_pos
  stage_whole := launch0.stage_whole
  K := PEmpty
  osem k := k.elim
  ho := Pipeline.OwnSemFacts.none _
  hbody c := (he_body_obligation (at1 m) c).toR
  hwaits := Pipeline.RDat.hwaits_of_owed_zero _ _ _ _ noLevels lvl 0 fun _ _ => rfl
  pre c := iprop(StableHlo.held (c : Thread nD τ) (Pipeline.ucRefs τ sig) (bnd1 m c) ∗ beside c)
  post c := iprop(StableHlo.held (c : Thread nD τ) (Pipeline.ucRefs τ sig) (bnd2 m c) ∗ beside c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.RDat.arrays_of_unscopedBufs (p := 0) (pcfgs (F := F)) Gen.adm (rdats m) launch0.win launch0.arr_whole c
      ((rdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((heDat (at1 m) c).arrays ((heDat (at1 m) c).arrAt · cfg0.N)
          ∗ Pipeline.unscopedRest (Ix := Unit) (Name := ℕ) (U := UR sig nD τ) (Lvl := ℕ) spec0 c (at1 m c))
        ⊢ (unscopedBufs c (at2 m c) : sProp 𝕄) :=
      Pipeline.unscopedBufs_of_arrays (p := 0) (pcfgs (F := F)) Gen.adm (Ix := Unit) (Name := ℕ) (U := UR sig nD τ) (Lvl := ℕ)
        launch0.win launch0.arr_whole c (pdats m) ((pdats m 0 c).share_full fun _ => rfl)
        (at1 m c) (at2 m c) ((pdats m 0 c).arrAt · cfg0.N) (heFinal m c) (heRest m c)
    rw [Pipeline.unscopedBufs_held] at hjoin
    rw [show (rdats m 0 c).arraysAt (Pipeline.pin (pcfgs (F := F)) Gen.adm 0).N = (heDat (at1 m) c).toR.arraysAt cfg0.N from rfl,
      (heDat (at1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
def nodeSegR : Pipeline.RDat.RegionSeg (pcfgs (F := F)) Gen.adm (rdats m) () defs₀ noVariants noLevels lvl 1 where
  win := launch1.win.to₀
  block_pos := launch1.block_pos
  stage_whole := launch1.stage_whole
  K := PEmpty
  osem k := k.elim
  ho := Pipeline.OwnSemFacts.none _
  hbody c := (node_frame_obligation (at2 m) c).toRForget
  hwaits := Pipeline.RDat.hwaits_of_owed_zero _ _ _ _ noLevels lvl 1 fun _ _ => rfl
  pre c := iprop(StableHlo.held (c : Thread nD τ) (Pipeline.ucRefs τ sig) (bnd2 m c) ∗ beside c)
  post c := iprop(frameLast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [Pipeline.ownSems0_none]
    have hsplit := Pipeline.RDat.arrays_of_unscopedBufs (p := 1) (pcfgs (F := F)) Gen.adm (rdats m) launch1.win launch1.arr_whole c
      ((rdats m 1 c).share_full fun _ => rfl) (at2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = nodeInv (at2 m) c 0 from rfl,
      show (Pipeline.scopedRest (Pipeline.pin (pcfgs (F := F)) Gen.adm 1).spec c : sProp 𝕄) = Pipeline.scopedRest spec1 c from rfl, scopedRest1_eq]
    unfold nodeInv scrHeld idleStaging
    rw [if_pos (show ((0 : Fin (cfg1.N + 1))).val = 0 from rfl)]
    iintro ⟨Hp, -, ⟨H1, H2, H3, H4, H5, Hs0, Hs1⟩⟩
    isplitl [H1 H2 H3 H4 H5]
    · isplitl [H1]; · iexact H1
      isplitl [H2]; · iexact H2
      isplitl [H3]; · iexact H3
      isplitl [H4]; · iexact H4
      iexact H5
    isplitl [Hs0 Hs1]
    · isplitl [Hs0]; · iexact Hs0
      iexact Hs1
    iexact Hp
  hout c := by
    rw [Pipeline.ownSems0_none, show (rdats m 1 c).Φ (Fin.last _) = nodeInv (at2 m) c (Fin.last _) from rfl,
      show (Pipeline.scopedRest (Pipeline.pin (pcfgs (F := F)) Gen.adm 1).spec c : sProp 𝕄) = Pipeline.scopedRest spec1 c from rfl, scopedRest1_eq]
    unfold nodeInv scrHeld idleStaging
    rw [if_neg (show ¬ (Fin.last cfg1.N).val = 0 from by decide)]
    iintro ⟨⟨H1, H2, H3, H4, H5⟩, ⟨Hs0, Hs1⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [Hs0]
    · iexists (attVal (at2 m) c); rw [← owns_whole (c : Thread nD τ) cc1_scratch0 fullShare]; iexact Hs0
    iexists (knVal (at2 m) c); rw [← owns_whole (c : Thread nD τ) cc1_scratch1 fullShare]; iexact Hs1
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

abbrev frameSegs : List (Pipeline.RDat.Seg (pcfgs (F := F)) Gen.adm (rdats m) () defs₀ noVariants noLevels lvl) :=
  [ .host (hostSeg m), .region (heSegR m), .region (nodeSegR m) ]

theorem main_is_frameSegs (c : Dev nD) : main (F := F) c = Pipeline.RDat.Seg.run (frameSegs m) :=
  (main_chain c).trans (by chain_rfl)

set_option backward.isDefEq.respectTransparency.types false in
/-- THE FRAME, at any float instance. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) Gen.adm (rdats m) () cellOf_inj emb₁ defs₀ noVariants noLevels lvl m ρ main (frameSegs m)
    (fun c Q => by rw [main_is_frameSegs m c])
    (by simp only [frameSegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ beside c)) (Tₙ := frameLast m)
    (hch := ⟨fun _ => .rfl, fun _ => .rfl, fun _ => .rfl, fun _ => .rfl⟩)
    (hinit := by
      refine Pipeline.initEach noLevels lvl fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13))
    (hfin := fun c s' => by
      dsimp only [frameLast]
      rw [unscopedRest1_eq]
      iintro ⟨⟨Ha, ⟨H1, H3, H5, H7, H9, H11, H13⟩, -⟩, HSI⟩
      icombine HSI H1 gives %h1
      icombine HSI H3 gives %h3
      icombine HSI H5 gives %h5
      icombine HSI H7 gives %h7
      icombine HSI H9 gives %h9
      icombine HSI H11 gives %h11
      icombine HSI H13 gives %h13
      ihave Hr := (Pipeline.RDat.arrays_read (p := 1) (pcfgs (F := F)) Gen.adm (rdats m) launch1.arr_whole c cfg1.N s') $$ [Ha HSI]
      · isplitl [Ha] <;> iassumption
      icases Hr with ⟨%ha, HSI⟩
      imodintro
      isplitr
      · ipureintro
        exact ⟨(staged_unchanged m c 9 rfl (ha 9)).trans (Args.entry2_arg0 m c),
        (Buf.eq_of_forall_mem_univ h1).trans (bypass_arg1 m c),
        (staged_unchanged m c 1 rfl (ha 1)).trans (Args.entry2_arg2 m c),
        (Buf.eq_of_forall_mem_univ h3).trans (bypass_arg3 m c),
        (staged_unchanged m c 3 rfl (ha 3)).trans (Args.entry2_arg4 m c),
        (Buf.eq_of_forall_mem_univ h5).trans (bypass_arg5 m c),
        (staged_unchanged m c 5 rfl (ha 5)).trans (Args.entry2_arg6 m c),
        (Buf.eq_of_forall_mem_univ h7).trans (bypass_arg7 m c),
        (staged_unchanged m c 11 rfl (ha 11)).trans (Args.entry2_arg8 m c),
        (Buf.eq_of_forall_mem_univ h9).trans (bypass_arg9 m c),
        (staged_unchanged m c 7 rfl (ha 7)).trans (Args.entry2_arg10 m c),
        (Buf.eq_of_forall_mem_univ h11).trans (bypass_arg11 m c),
        (staged_unchanged m c 13 rfl (ha 13)).trans (Args.entry2_arg12 m c),
        (Buf.eq_of_forall_mem_univ h13).trans (bypass_arg13 m c)⟩
      iexact HSI)
    (hQ := fun _ h => h)

end Cert.Kernel.Hand

end
-- ==== Proof.HeBody.lean ====
/-
  The first pallas_call's body on its staging buffers (any float instance).

  The body loads the whole 400 x 10000 block of the transposed incidence matrix and the whole
  10000 x 256 feature matrix, multiplies them into a zero accumulator, and stores the 400 x 256
  product over the whole output buffer.  So after the body the output buffer holds one piece:
  the product payload of the two loaded blocks, laid over the buffer's full rectangle.
-/
import proofs.«181957_g30339648979507_cont_9to1_1753_20_alg».proof.Proof.Gen.KernelIdeal.Launch
import proofs.«181957_g30339648979507_cont_9to1_1753_20_alg».proof.Proof.Gen.KernelIdeal.Skeleton
import proofs.«181957_g30339648979507_cont_9to1_1753_20_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The full rectangle of the incidence block, of the feature matrix, of the product block. -/
abbrev rectInc : Rect S400x10000 := Rect.unit (s := S400x10000) ![0, 0] S400x10000.size inb_S400x10000_S400x10000_0_0
abbrev rectFeat : Rect S10000x256 := Rect.unit (s := S10000x256) ![0, 0] S10000x256.size inb_S10000x256_S10000x256_0_0
abbrev rectProd : Rect S400x256 := Rect.unit (s := S400x256) ![0, 0] S400x256.size inb_S400x256_S400x256_0_0

/-- What the product buffer holds after the body: the one store, the product of the loaded blocks. -/
def heOut (inc : Vec F S400x10000 .f32) (feat : Vec F S10000x256 .f32) : Vec F S400x256 .f32 :=
  k0_pay1 inc feat

/-- Every access of both bodies is at offset zero. -/
theorem offZero : (![0, 0] : Fin 2 → Nat) = fun _ => 0 := funext fun a => by fin_cases a <;> rfl

/-- The one store's rectangle is the whole buffer. -/
theorem heCover (p : Vec F S400x256 .f32) (y : S400x256.Idx) :
    ∃ pc ∈ ([⟨rectProd, p⟩] : List (View.Piece (Elt F) S400x256 .f32)), y ∈ pc.1.set :=
  View.cover_of_tiled [⟨rectProd, p⟩] S400x256.size (by rfl) y

set_option maxHeartbeats 1000000 in
/-- The body on whole staging memrefs: the two inputs at what they hold, the output at anything; it ends
    with the inputs as they were and the output at `heOut` of them. -/
theorem he_body_run (c : Dev nD) (E : Set ℕ) (i : grid0.Coords)
    (a1 : Memref sig .tc .vmem S400x10000 .f32) (h1 : a1.IsWhole)
    (a2 : Memref sig .tc .vmem S10000x256 .f32) (h2 : a2.IsWhole)
    (a3 : Memref sig .tc .vmem S400x256 .f32) (h3 : a3.IsWhole)
    (inc : Vec F S400x10000 .f32) (feat : Vec F S10000x256 .f32) (K : PUnit → sProp 𝕄) :
    iprop(owns (c : Thread nD τ) a1 fullShare inc ∗ owns (c : Thread nD τ) a2 fullShare feat
        ∗ (∃ d, owns (c : Thread nD τ) a3 fullShare d)
        ∗ (iprop(owns (c : Thread nD τ) a1 fullShare inc ∗ owns (c : Thread nD τ) a2 fullShare feat
              ∗ owns (c : Thread nD τ) a3 fullShare (heOut inc feat)) -∗ K ⟨⟩))
      ⊢ wp frame (wpE (defs₀ (F := F)) Variants.none c none) E (cc0__he_kernel i a1 h1 a2 h2 a3 h3) K := by
  simp only [cc0__he_kernel_eq_skeleton]; unfold cc0__he_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (heCover _), View.canon_unit_zero offZero]
  simp only [View.readAt_eq_ld, View.ld_unit_zero (S := S400x10000) offZero, View.ld_unit_zero (S := S10000x256) offZero]
  rfl

end Cert.KernelIdeal.Hand

end
-- ==== Proof.NodeBody.lean ====
/-
  The second pallas_call's body on its staging buffers and its two scratch buffers (any float instance).

  At the first grid point the body first computes the hyperedge attention from the whole hyperedge-feature
  block and the six projection operands, stores its transpose (narrowed) into the first scratch buffer and
  the node-key projection into the second; at every point it then reads both scratch buffers back, together
  with the point's block of node features and of the transposed incidence matrix, and stores one 1024 x 256
  output block over the whole output buffer.  Two runs, by whether the point is the first.
-/
import proofs.«181957_g30339648979507_cont_9to1_1753_20_alg».proof.Proof.HeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The full rectangles of the body's buffers: hyperedge rows x features, a square weight, a bias row,
    a node block, an incidence block, the transposed attention. -/
abbrev rectHE : Rect S2000x256 := Rect.unit (s := S2000x256) ![0, 0] S2000x256.size inb_S2000x256_S2000x256_0_0
abbrev rectW : Rect S256x256 := Rect.unit (s := S256x256) ![0, 0] S256x256.size inb_S256x256_S256x256_0_0
abbrev rectB : Rect S1x256 := Rect.unit (s := S1x256) ![0, 0] S1x256.size inb_S1x256_S1x256_0_0
abbrev rectNode : Rect S1024x256 := Rect.unit (s := S1024x256) ![0, 0] S1024x256.size inb_S1024x256_S1024x256_0_0
abbrev rectIncT : Rect S2000x1024 := Rect.unit (s := S2000x1024) ![0, 0] S2000x1024.size inb_S2000x1024_S2000x1024_0_0
abbrev rectAttT : Rect S256x2000 := Rect.unit (s := S256x2000) ![0, 0] S256x2000.size inb_S256x2000_S256x2000_0_0

/-- The body's one condition: the grid coordinate is zero (the printed scalar chain). -/
abbrev firstPoint (i : grid1.Coords) : Prop :=
  (Scalar.cmpi .ne (Scalar.extui (Scalar.cmpi .eq (BitVec.ofNat 32 (i 0).val) 0#32)) 0#32) = 1#1

/-- It holds at the first point of the grid only. -/
theorem firstPoint_iff : ∀ t : Fin cfg1.N, firstPoint (grid1.coords t) ↔ t.val = 0 :=
  (by decide +kernel : ∀ t : Fin grid1.N, firstPoint (grid1.coords t) ↔ t.val = 0)

/-- The output block a point stores, from the node-feature block, the incidence block, the node-query
    weight and bias, the output weight and bias, and what the two scratch buffers hold. -/
def nodeOut (x10 : Vec F S1024x256 .f32) (x11 : Vec F S2000x1024 .f32) (x12 : Vec F S256x256 .f32) (x13 : Vec F S1x256 .f32)
    (x14 : Vec F S256x256 .f32) (x15 : Vec F S1x256 .f32) (s17 : Vec F S256x2000 .bf16) (s18 : Vec F S2000x256 .f32) : Vec F S1024x256 .f32 :=
  k1_pay1 (k1_pay6 x10 x12 x13 s18 x11 s17 x14) x15

/-- What the first point stores into the first scratch buffer: the transposed hyperedge attention. -/
def scrAtt (x1 : Vec F S2000x256 .f32) (x2 : Vec F S256x256 .f32) (x3 : Vec F S1x256 .f32) (x4 : Vec F S256x256 .f32)
    (x5 : Vec F S1x256 .f32) (x6 : Vec F S256x256 .f32) (x7 : Vec F S1x256 .f32) : Vec F S256x2000 .bf16 :=
  k1_pay4 (k1_pay3 x1 x2 x3 x4 x5 x6 x7)

/-- What the first point stores into the second scratch buffer: the node keys. -/
def scrKn (x1 : Vec F S2000x256 .f32) (x2 : Vec F S256x256 .f32) (x3 : Vec F S1x256 .f32) (x4 : Vec F S256x256 .f32)
    (x5 : Vec F S1x256 .f32) (x6 : Vec F S256x256 .f32) (x7 : Vec F S1x256 .f32) (x8 : Vec F S256x256 .f32) (x9 : Vec F S1x256 .f32) :
    Vec F S2000x256 .f32 :=
  k1_pay5 (k1_pay2 x1 x2 x3 x4 x5 x6 x7) x8 x9

theorem nodeCover (p : Vec F S1024x256 .f32) (y : S1024x256.Idx) :
    ∃ pc ∈ ([⟨rectNode, p⟩] : List (View.Piece (Elt F) S1024x256 .f32)), y ∈ pc.1.set :=
  View.cover_of_tiled [⟨rectNode, p⟩] S1024x256.size (by rfl) y
theorem attCover (p : Vec F S256x2000 .bf16) (y : S256x2000.Idx) :
    ∃ pc ∈ ([⟨rectAttT, p⟩] : List (View.Piece (Elt F) S256x2000 .bf16)), y ∈ pc.1.set :=
  View.cover_of_tiled [⟨rectAttT, p⟩] S256x2000.size (by rfl) y
theorem knCover (p : Vec F S2000x256 .f32) (y : S2000x256.Idx) :
    ∃ pc ∈ ([⟨rectHE, p⟩] : List (View.Piece (Elt F) S2000x256 .f32)), y ∈ pc.1.set :=
  View.cover_of_tiled [⟨rectHE, p⟩] S2000x256.size (by rfl) y

set_option maxHeartbeats 4000000 in
/-- A later point: the scratch buffers are read and left as they are, the output buffer ends at `nodeOut`. -/
theorem node_body_later (c : Dev nD) (E : Set ℕ) (i : grid1.Coords) (hc : ¬ firstPoint i)
    (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S1024x256 .f32) (h10 : a10.IsWhole) (a11 : Memref sig .tc .vmem S2000x1024 .f32) (h11 : a11.IsWhole) (a12 : Memref sig .tc .vmem S256x256 .f32) (h12 : a12.IsWhole) (a13 : Memref sig .tc .vmem S1x256 .f32) (h13 : a13.IsWhole) (a14 : Memref sig .tc .vmem S256x256 .f32) (h14 : a14.IsWhole) (a15 : Memref sig .tc .vmem S1x256 .f32) (h15 : a15.IsWhole) (a16 : Memref sig .tc .vmem S1024x256 .f32) (h16 : a16.IsWhole) (a17 : Memref sig .tc .vmem S256x2000 .bf16) (h17 : a17.IsWhole) (a18 : Memref sig .tc .vmem S2000x256 .f32) (h18 : a18.IsWhole)
    (x1 : Vec F S2000x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1024x256 .f32) (x11 : Vec F S2000x1024 .f32) (x12 : Vec F S256x256 .f32) (x13 : Vec F S1x256 .f32) (x14 : Vec F S256x256 .f32) (x15 : Vec F S1x256 .f32) (s17 : Vec F S256x2000 .bf16) (s18 : Vec F S2000x256 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
        ∗ (∃ d, owns (c : Thread nD τ) a16 fullShare d) ∗ owns (c : Thread nD τ) a17 fullShare s17 ∗ owns (c : Thread nD τ) a18 fullShare s18
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
              ∗ owns (c : Thread nD τ) a16 fullShare (nodeOut x10 x11 x12 x13 x14 x15 s17 s18)
              ∗ owns (c : Thread nD τ) a17 fullShare s17 ∗ owns (c : Thread nD τ) a18 fullShare s18) -∗ K ⟨⟩))
      ⊢ wp frame (wpE (defs₀ (F := F)) Variants.none c none) E (cc1__node_kernel i a1 h1 a2 h2 a3 h3 a4 h4 a5 h5 a6 h6 a7 h7 a8 h8 a9 h9 a10 h10 a11 h11 a12 h12 a13 h13 a14 h14 a15 h15 a16 h16 a17 h17 a18 h18) K := by
  simp only [cc1__node_kernel_eq_skeleton]; unfold cc1__node_kernel_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, Hk⟩
  subst hf1; subst hf2; subst hf3; subst hf4; subst hf5; subst hf6; subst hf7; subst hf8; subst hf9; subst hf10; subst hf11; subst hf12; subst hf13; subst hf14; subst hf15; subst hf17; subst hf18
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    rw [View.read_writes_eq_canon _ _ _ (nodeCover _), View.canon_unit_zero offZero]
    sl_unfold_run_names
    unfold nodeOut
    simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]
  isplitl [H17]
  · iexists f17; isplitr; · ipureintro; rfl
    iexact H17
  iexists f18; isplitr; · ipureintro; rfl
  iexact H18

set_option maxHeartbeats 8000000 in
/-- The first point: whatever the output and the two scratch buffers held, the body leaves the transposed
    attention and the node keys in the scratch buffers and the output buffer at `nodeOut` of those. -/
theorem node_body_first (c : Dev nD) (E : Set ℕ) (i : grid1.Coords) (hc : firstPoint i)
    (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S1024x256 .f32) (h10 : a10.IsWhole) (a11 : Memref sig .tc .vmem S2000x1024 .f32) (h11 : a11.IsWhole) (a12 : Memref sig .tc .vmem S256x256 .f32) (h12 : a12.IsWhole) (a13 : Memref sig .tc .vmem S1x256 .f32) (h13 : a13.IsWhole) (a14 : Memref sig .tc .vmem S256x256 .f32) (h14 : a14.IsWhole) (a15 : Memref sig .tc .vmem S1x256 .f32) (h15 : a15.IsWhole) (a16 : Memref sig .tc .vmem S1024x256 .f32) (h16 : a16.IsWhole) (a17 : Memref sig .tc .vmem S256x2000 .bf16) (h17 : a17.IsWhole) (a18 : Memref sig .tc .vmem S2000x256 .f32) (h18 : a18.IsWhole)
    (x1 : Vec F S2000x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S1024x256 .f32) (x11 : Vec F S2000x1024 .f32) (x12 : Vec F S256x256 .f32) (x13 : Vec F S1x256 .f32) (x14 : Vec F S256x256 .f32) (x15 : Vec F S1x256 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
        ∗ (∃ d, owns (c : Thread nD τ) a16 fullShare d) ∗ (∃ d, owns (c : Thread nD τ) a17 fullShare d) ∗ (∃ d, owns (c : Thread nD τ) a18 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
              ∗ owns (c : Thread nD τ) a16 fullShare (nodeOut x10 x11 x12 x13 x14 x15 (scrAtt x1 x2 x3 x4 x5 x6 x7) (scrKn x1 x2 x3 x4 x5 x6 x7 x8 x9))
              ∗ owns (c : Thread nD τ) a17 fullShare (scrAtt x1 x2 x3 x4 x5 x6 x7)
              ∗ owns (c : Thread nD τ) a18 fullShare (scrKn x1 x2 x3 x4 x5 x6 x7 x8 x9)) -∗ K ⟨⟩))
      ⊢ wp frame (wpE (defs₀ (F := F)) Variants.none c none) E (cc1__node_kernel i a1 h1 a2 h2 a3 h3 a4 h4 a5 h5 a6 h6 a7 h7 a8 h8 a9 h9 a10 h10 a11 h11 a12 h12 a13 h13 a14 h14 a15 h15 a16 h16 a17 h17 a18 h18) K := by
  simp only [cc1__node_kernel_eq_skeleton]; unfold cc1__node_kernel_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf1; subst hf2; subst hf3; subst hf4; subst hf5; subst hf6; subst hf7; subst hf8; subst hf9; subst hf10; subst hf11; subst hf12; subst hf13; subst hf14; subst hf15
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    rw [View.read_writes_eq_canon _ _ _ (nodeCover _), View.canon_unit_zero offZero]
    sl_unfold_run_names
    unfold nodeOut scrAtt scrKn
    simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]
  isplitl [H17]
  · iexists _; isplitr
    swap; · iexact H17
    ipureintro
    sl_unfold_run_names
    rw [View.read_writes_eq_canon _ _ _ (attCover _), View.canon_unit_zero offZero]
    unfold scrAtt
    simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]
  iexists _; isplitr
  swap; · iexact H18
  ipureintro
  sl_unfold_run_names
  rw [View.read_writes_eq_canon _ _ _ (knCover _), View.canon_unit_zero offZero]
  unfold scrKn
  simp only [View.readAt_eq_ld, View.ld_unit_zero (S := S2000x256) offZero, View.ld_unit_zero (S := S256x256) offZero,
    View.ld_unit_zero (S := S1x256) offZero, View.ld_unit_zero (S := S1024x256) offZero, View.ld_unit_zero (S := S2000x1024) offZero,
    View.ld_unit_zero (S := S256x2000) offZero, View.readCov_unit_zero (S := S2000x256) _ offZero, View.readCov_unit_zero (S := S256x2000) _ offZero]

end Cert.KernelIdeal.Hand

end
-- ==== Proof.HeRegion.lean ====
/-
  The first pallas_call's proof data and body obligation (any float instance), at a parameter `V`:
  what the TensorCore's buffers hold when the region is entered.

  Five grid points; point t stages rows 400 t .. 400 t + 399 of the transposed incidence matrix, the whole
  feature matrix (fetched once), and writes back rows 400 t .. 400 t + 399 of the product.  The blocks tile
  their arrays, so an input's staging buffer holds its block whenever the body runs.
-/
import proofs.«181957_g30339648979507_cont_9to1_1753_20_alg».proof.Proof.HeBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def heBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The incidence window's staging buffer holds its block whenever the body runs. -/
theorem he_found_inc {c : Dev nD} (dat : Dat τ (Elt F) Unit ℕ (UR sig nD τ) ℕ cfg0 c) (hA : dat.A 0 = V c (Pipeline.arrRef spec0 0))
    (hafter : ∀ t, dat.after 0 t = heBlk V c 0 t) (t : Fin cfg0.N) (d) : dat.before 0 t d = heBlk V c 0 t :=
  (dat.before_in_eq_fetched 0 rfl (fun _ => rfl) (fun _ _ _ => rfl) (fun t => by rw [hafter]; unfold Dat.blockOf heBlk; rw [hA]; try rfl) t d).trans
    (by unfold Dat.fetched Dat.blockOf heBlk; rw [hA]; try rfl)

/-- The feature window's staging buffer holds the whole feature matrix whenever the body runs (fetched at the
    first point, its block index never moves). -/
theorem he_found_feat {c : Dev nD} (dat : Dat τ (Elt F) Unit ℕ (UR sig nD τ) ℕ cfg0 c) (hA : dat.A 1 = V c (Pipeline.arrRef spec0 1))
    (hafter : ∀ t, dat.after 1 t = heBlk V c 1 t) (t : Fin cfg0.N) (d) : dat.before 1 t d = heBlk V c 1 t :=
  (dat.before_in_eq_fetched 1 rfl (fun _ => rfl) (fun _ _ _ => rfl) (fun t => by rw [hafter]; unfold Dat.blockOf heBlk; rw [hA]; try rfl) t d).trans
    (by unfold Dat.fetched Dat.blockOf heBlk; rw [hA]; try rfl)

/-- The proof data: the arrays as the region finds them; after the body the inputs' buffers at their blocks and
    the product's at the product of the two blocks; the scoped rest and the generator register untouched. -/
def heDat (c : Dev nD) : Dat τ (Elt F) Unit ℕ (UR sig nD τ) ℕ cfg0 c where
  A w := V c (Pipeline.arrRef spec0 w)
  after w t := match w with
    | ⟨0, _⟩ => heBlk V c 0 t
    | ⟨1, _⟩ => heBlk V c 1 t
    | ⟨2, _⟩ => heOut (heBlk V c 0 t) (heBlk V c 1 t)
  Φ _ := Pipeline.ΦA spec0 c
  q _ := fullShare
  owed _ := 0

theorem heDat_A (c : Dev nD) (w : Fin cfg0.W) : (heDat V c).A w = V c (Pipeline.arrRef spec0 w) := by
  dsimp only [heDat]
theorem heDat_after0 (c : Dev nD) (t : Fin cfg0.N) : (heDat V c).after 0 t = heBlk V c 0 t := by dsimp only [heDat]
theorem heDat_after1 (c : Dev nD) (t : Fin cfg0.N) : (heDat V c).after 1 t = heBlk V c 1 t := by dsimp only [heDat]
theorem heDat_after2 (c : Dev nD) (t : Fin cfg0.N) : (heDat V c).after 2 t = heOut (heBlk V c 0 t) (heBlk V c 1 t) := by
  dsimp only [heDat]

theorem heDat_found0 (c : Dev nD) (t : Fin cfg0.N) (d) : (heDat V c).before 0 t d = heBlk V c 0 t :=
  he_found_inc V (heDat V c) (heDat_A V c 0) (heDat_after0 V c) t d
theorem heDat_found1 (c : Dev nD) (t : Fin cfg0.N) (d) : (heDat V c).before 1 t d = heBlk V c 1 t :=
  he_found_feat V (heDat V c) (heDat_A V c 1) (heDat_after1 V c) t d

/-- What the body is called with at point `t`, the windows one by one, -/
def heBodyPre (c : Dev nD) (t : Fin cfg0.N) : sProp 𝕄 :=
  iprop((heDat V c).Φ t.castSucc ∗ (heDat V c).owesAt () t.castSucc
    ∗ (∃ d, owns (c : Thread nD τ) (st0_0 t) fullShare ((heDat V c).before 0 t d))
    ∗ (∃ d, owns (c : Thread nD τ) (st0_1 t) fullShare ((heDat V c).before 1 t d))
    ∗ (∃ d, owns (c : Thread nD τ) (st0_2 t) fullShare ((heDat V c).before 2 t d)))

/-- and what it returns. -/
def heBodyPost (c : Dev nD) (t : Fin cfg0.N) : sProp 𝕄 :=
  iprop((heDat V c).Φ t.succ ∗ (heDat V c).owesAt () t.succ
    ∗ owns (c : Thread nD τ) (st0_0 t) fullShare ((heDat V c).after 0 t)
    ∗ owns (c : Thread nD τ) (st0_1 t) fullShare ((heDat V c).after 1 t)
    ∗ owns (c : Thread nD τ) (st0_2 t) fullShare ((heDat V c).after 2 t))

theorem he_sound_body (c : Dev nD) (t : Fin cfg0.N) :
    heBodyPre V c t ⊢ wp frame (wpE (defs₀ (F := F)) Variants.none c none) Set.univ (bodyAt0 t) (fun _ => heBodyPost V c t) := by
  unfold heBodyPre heBodyPost bodyAt0
  simp only [heDat_found0, heDat_found1]
  rw [show (heDat V c).Φ t.succ = (heDat V c).Φ t.castSucc from rfl,
    show (heDat V c).owesAt () t.succ = (heDat V c).owesAt () t.castSucc from rfl,
    heDat_after0, heDat_after1, heDat_after2]
  iintro ⟨HΦ, Ho, ⟨%d0, H0⟩, ⟨%d1, H1⟩, ⟨%d2, H2⟩⟩
  iapply (he_body_run c Set.univ _ _ _ _ _ _ _ (heBlk V c 0 t) (heBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem he_body_obligation (c : Dev nD) : BodyObligation (heDat (F := F) V c) (defs₀ (F := F)) Variants.none () Set.univ := fun t => by
  rw [bigSep_W0, bigSep_W0]
  exact he_sound_body V c t

end Cert.KernelIdeal.Hand

end
-- ==== Proof.NodeRegion.lean ====
/-
  The second pallas_call's proof data (any float instance), at a parameter `V`: what the TensorCore's buffers hold
  when the region is entered.

  Ten grid points; point t stages rows 1024 t .. of the node features and columns 1024 t .. of the transposed
  incidence matrix (the last block overhangs: only 784 of its 1024 rows / columns lie inside the arrays) and
  writes back rows 1024 t .. of the result, cut the same way; the thirteen other inputs are whole arrays fetched
  once.  The two scratch buffers hold anything before the first point and, from then on, the transposed hyperedge
  attention and the node keys the first point computed from the whole-array inputs.
-/
import proofs.«181957_g30339648979507_cont_9to1_1753_20_alg».proof.Proof.NodeBody
import proofs.«181957_g30339648979507_cont_9to1_1753_20_alg».proof.Proof.HeRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: its part inside the array. -/
def nodeBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## A whole-array input's staging buffer holds the array whenever the body runs -/

theorem node_found0 {c : Dev nD} (dat : Dat τ (Elt F) Unit ℕ (UR sig nD τ) ℕ cfg1 c) (hA : dat.A 0 = V c (Pipeline.arrRef spec1 0))
    (hafter : ∀ t, dat.after 0 t = nodeBlk V c 0 t) (t : Fin cfg1.N) (d) : dat.before 0 t d = nodeBlk V c 0 t :=
  (dat.before_in_eq_fetched 0 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found1 {c : Dev nD} (dat : Dat τ (Elt F) Unit ℕ (UR sig nD τ) ℕ cfg1 c) (hA : dat.A 1 = V c (Pipeline.arrRef spec1 1))
    (hafter : ∀ t, dat.after 1 t = nodeBlk V c 1 t) (t : Fin cfg1.N) (d) : dat.before 1 t d = nodeBlk V c 1 t :=
  (dat.before_in_eq_fetched 1 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found2 {c : Dev nD} (dat : Dat τ (Elt F) Unit ℕ (UR sig nD τ) ℕ cfg1 c) (hA : dat.A 2 = V c (Pipeline.arrRef spec1 2))
    (hafter : ∀ t, dat.after 2 t = nodeBlk V c 2 t) (t : Fin cfg1.N) (d) : dat.before 2 t d = nodeBlk V c 2 t :=
  (dat.before_in_eq_fetched 2 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found3 {c : Dev nD} (dat : Dat τ (Elt F) Unit ℕ (UR sig nD τ) ℕ cfg1 c) (hA : dat.A 3 = V c (Pipeline.arrRef spec1 3))
    (hafter : ∀ t, dat.after 3 t = nodeBlk V c 3 t) (t : Fin cfg1.N) (d) : dat.before 3 t d = nodeBlk V c 3 t :=
  (dat.before_in_eq_fetched 3 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found4 {c : Dev nD} (dat : Dat τ (Elt F) Unit ℕ (UR sig nD τ) ℕ cfg1 c) (hA : dat.A 4 = V c (Pipeline.arrRef spec1 4))
    (hafter : ∀ t, dat.after 4 t = nodeBlk V c 4 t) (t : Fin cfg1.N) (d) : dat.before 4 t d = nodeBlk V c 4 t :=
  (dat.before_in_eq_fetched 4 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found5 {c : Dev nD} (dat : Dat τ (Elt F) Unit ℕ (UR sig nD τ) ℕ cfg1 c) (hA : dat.A 5 = V c (Pipeline.arrRef spec1 5))
    (hafter : ∀ t, dat.after 5 t = nodeBlk V c 5 t) (t : Fin cfg1.N) (d) : dat.before 5 t d = nodeBlk V c 5 t :=
  (dat.before_in_eq_fetched 5 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found6 {c : Dev nD} (dat : Dat τ (Elt F) Unit ℕ (UR sig nD τ) ℕ cfg1 c) (hA : dat.A 6 = V c (Pipeline.arrRef spec1 6))
    (hafter : ∀ t, dat.after 6 t = nodeBlk V c 6 t) (t : Fin cfg1.N) (d) : dat.before 6 t d = nodeBlk V c 6 t :=
  (dat.before_in_eq_fetched 6 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found7 {c : Dev nD} (dat : Dat τ (Elt F) Unit ℕ (UR sig nD τ) ℕ cfg1 c) (hA : dat.A 7 = V c (Pipeline.arrRef spec1 7))
    (hafter : ∀ t, dat.after 7 t = nodeBlk V c 7 t) (t : Fin cfg1.N) (d) : dat.before 7 t d = nodeBlk V c 7 t :=
  (dat.before_in_eq_fetched 7 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found8 {c : Dev nD} (dat : Dat τ (Elt F) Unit ℕ (UR sig nD τ) ℕ cfg1 c) (hA : dat.A 8 = V c (Pipeline.arrRef spec1 8))
    (hafter : ∀ t, dat.after 8 t = nodeBlk V c 8 t) (t : Fin cfg1.N) (d) : dat.before 8 t d = nodeBlk V c 8 t :=
  (dat.before_in_eq_fetched 8 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found11 {c : Dev nD} (dat : Dat τ (Elt F) Unit ℕ (UR sig nD τ) ℕ cfg1 c) (hA : dat.A 11 = V c (Pipeline.arrRef spec1 11))
    (hafter : ∀ t, dat.after 11 t = nodeBlk V c 11 t) (t : Fin cfg1.N) (d) : dat.before 11 t d = nodeBlk V c 11 t :=
  (dat.before_in_eq_fetched 11 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found12 {c : Dev nD} (dat : Dat τ (Elt F) Unit ℕ (UR sig nD τ) ℕ cfg1 c) (hA : dat.A 12 = V c (Pipeline.arrRef spec1 12))
    (hafter : ∀ t, dat.after 12 t = nodeBlk V c 12 t) (t : Fin cfg1.N) (d) : dat.before 12 t d = nodeBlk V c 12 t :=
  (dat.before_in_eq_fetched 12 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found13 {c : Dev nD} (dat : Dat τ (Elt F) Unit ℕ (UR sig nD τ) ℕ cfg1 c) (hA : dat.A 13 = V c (Pipeline.arrRef spec1 13))
    (hafter : ∀ t, dat.after 13 t = nodeBlk V c 13 t) (t : Fin cfg1.N) (d) : dat.before 13 t d = nodeBlk V c 13 t :=
  (dat.before_in_eq_fetched 13 rfl (fun _ => rfl) (fun _ _ _ => rfl) (fun t => by rw [hafter]; unfold Dat.blockOf nodeBlk; rw [hA]; try rfl) t d).trans
    (by unfold Dat.fetched Dat.blockOf nodeBlk; rw [hA]; try rfl)
theorem node_found14 {c : Dev nD} (dat : Dat τ (Elt F) Unit ℕ (UR sig nD τ) ℕ cfg1 c) (hA : dat.A 14 = V c (Pipeline.arrRef spec1 14))
    (hafter : ∀ t, dat.after 14 t = nodeBlk V c 14 t) (t : Fin cfg1.N) (d) : dat.before 14 t d = nodeBlk V c 14 t :=
  (dat.before_in_eq_fetched 14 rfl (fun _ => rfl) (fun _ _ _ => rfl) (fun t => by rw [hafter]; unfold Dat.blockOf nodeBlk; rw [hA]; try rfl) t d).trans
    (by unfold Dat.fetched Dat.blockOf nodeBlk; rw [hA]; try rfl)

/-! ## What the scratch buffers hold from the first point on -/

/-- The transposed hyperedge attention, from the whole-array inputs (read as the first point stages them). -/
def attVal (c : Dev nD) : Vec F S256x2000 .bf16 :=
  scrAtt (nodeBlk V c 0 t1_0) (nodeBlk V c 1 t1_0) (nodeBlk V c 2 t1_0) (nodeBlk V c 3 t1_0) (nodeBlk V c 4 t1_0)
    (nodeBlk V c 5 t1_0) (nodeBlk V c 6 t1_0)

/-- The node keys likewise. -/
def knVal (c : Dev nD) : Vec F S2000x256 .f32 :=
  scrKn (nodeBlk V c 0 t1_0) (nodeBlk V c 1 t1_0) (nodeBlk V c 2 t1_0) (nodeBlk V c 3 t1_0) (nodeBlk V c 4 t1_0)
    (nodeBlk V c 5 t1_0) (nodeBlk V c 6 t1_0) (nodeBlk V c 7 t1_0) (nodeBlk V c 8 t1_0)

/-- The two scratch buffers before point `t`: anything before the first point, then the attention and the keys. -/
def scrHeld (c : Dev nD) (t : Fin (cfg1.N + 1)) : sProp 𝕄 :=
  if t.val = 0 then
    iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f))
  else
    iprop(owns (c : Thread nD τ) (Memref.whole cc1_scratch0) fullShare (attVal V c)
      ∗ owns (c : Thread nD τ) (Memref.whole cc1_scratch1) fullShare (knVal V c))

/-- The first call's five staging buffers, whole at some contents: scoped buffers this region never touches. -/
def idleStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before point `t`. -/
def nodeInv (c : Dev nD) (t : Fin (cfg1.N + 1)) : sProp 𝕄 :=
  iprop(idleStaging (F := F) c ∗ scrHeld V c t ∗ ∃ r, prngReg c r)

/-! ## The proof data -/

/-- The arrays as the region finds them; after the body each whole-array input's buffer at the array, the two
    clipped inputs' at their block (filled out past the array's end with the zero word, which nothing reads), the
    output's at the block computed from those and the scratch values. -/
def nodeDat (c : Dev nD) : Dat τ (Elt F) Unit ℕ (UR sig nD τ) ℕ cfg1 c where
  A w := V c (Pipeline.arrRef spec1 w)
  after w t := match w with
    | ⟨0, _⟩ => nodeBlk V c 0 t
    | ⟨1, _⟩ => nodeBlk V c 1 t
    | ⟨2, _⟩ => nodeBlk V c 2 t
    | ⟨3, _⟩ => nodeBlk V c 3 t
    | ⟨4, _⟩ => nodeBlk V c 4 t
    | ⟨5, _⟩ => nodeBlk V c 5 t
    | ⟨6, _⟩ => nodeBlk V c 6 t
    | ⟨7, _⟩ => nodeBlk V c 7 t
    | ⟨8, _⟩ => nodeBlk V c 8 t
    | ⟨9, _⟩ => (cfg1.win 9).fill (cfg1.grid.coords t) (fun _ => Scalar.ofBits .f32 0#32) (nodeBlk V c 9 t)
    | ⟨10, _⟩ => (cfg1.win 10).fill (cfg1.grid.coords t) (fun _ => Scalar.ofBits .f32 0#32) (nodeBlk V c 10 t)
    | ⟨11, _⟩ => nodeBlk V c 11 t
    | ⟨12, _⟩ => nodeBlk V c 12 t
    | ⟨13, _⟩ => nodeBlk V c 13 t
    | ⟨14, _⟩ => nodeBlk V c 14 t
    | ⟨15, _⟩ => nodeOut ((cfg1.win 9).fill (cfg1.grid.coords t) (fun _ => Scalar.ofBits .f32 0#32) (nodeBlk V c 9 t))
        ((cfg1.win 10).fill (cfg1.grid.coords t) (fun _ => Scalar.ofBits .f32 0#32) (nodeBlk V c 10 t))
        (nodeBlk V c 11 t) (nodeBlk V c 12 t) (nodeBlk V c 13 t) (nodeBlk V c 14 t) (attVal V c) (knVal V c)
    | ⟨_ + 16, h⟩ => absurd h (Nat.not_lt.2 (Nat.le_add_left _ _))
  Φ t := nodeInv V c t
  q _ := fullShare
  owed _ := 0

theorem nodeDat_A (c : Dev nD) (w : Fin cfg1.W) : (nodeDat V c).A w = V c (Pipeline.arrRef spec1 w) := by
  dsimp only [nodeDat]
theorem nodeDat_after0 (c : Dev nD) (t : Fin cfg1.N) : (nodeDat V c).after 0 t = nodeBlk V c 0 t := by dsimp only [nodeDat]
theorem nodeDat_after1 (c : Dev nD) (t : Fin cfg1.N) : (nodeDat V c).after 1 t = nodeBlk V c 1 t := by dsimp only [nodeDat]
theorem nodeDat_after2 (c : Dev nD) (t : Fin cfg1.N) : (nodeDat V c).after 2 t = nodeBlk V c 2 t := by dsimp only [nodeDat]
theorem nodeDat_after3 (c : Dev nD) (t : Fin cfg1.N) : (nodeDat V c).after 3 t = nodeBlk V c 3 t := by dsimp only [nodeDat]
theorem nodeDat_after4 (c : Dev nD) (t : Fin cfg1.N) : (nodeDat V c).after 4 t = nodeBlk V c 4 t := by dsimp only [nodeDat]
theorem nodeDat_after5 (c : Dev nD) (t : Fin cfg1.N) : (nodeDat V c).after 5 t = nodeBlk V c 5 t := by dsimp only [nodeDat]
theorem nodeDat_after6 (c : Dev nD) (t : Fin cfg1.N) : (nodeDat V c).after 6 t = nodeBlk V c 6 t := by dsimp only [nodeDat]
theorem nodeDat_after7 (c : Dev nD) (t : Fin cfg1.N) : (nodeDat V c).after 7 t = nodeBlk V c 7 t := by dsimp only [nodeDat]
theorem nodeDat_after8 (c : Dev nD) (t : Fin cfg1.N) : (nodeDat V c).after 8 t = nodeBlk V c 8 t := by dsimp only [nodeDat]
theorem nodeDat_after11 (c : Dev nD) (t : Fin cfg1.N) : (nodeDat V c).after 11 t = nodeBlk V c 11 t := by dsimp only [nodeDat]
theorem nodeDat_after12 (c : Dev nD) (t : Fin cfg1.N) : (nodeDat V c).after 12 t = nodeBlk V c 12 t := by dsimp only [nodeDat]
theorem nodeDat_after13 (c : Dev nD) (t : Fin cfg1.N) : (nodeDat V c).after 13 t = nodeBlk V c 13 t := by dsimp only [nodeDat]
theorem nodeDat_after14 (c : Dev nD) (t : Fin cfg1.N) : (nodeDat V c).after 14 t = nodeBlk V c 14 t := by dsimp only [nodeDat]
theorem nodeDat_after9 (c : Dev nD) (t : Fin cfg1.N) : (nodeDat V c).after 9 t
    = (cfg1.win 9).fill (cfg1.grid.coords t) (fun _ => Scalar.ofBits .f32 0#32) (nodeBlk V c 9 t) := by dsimp only [nodeDat]
theorem nodeDat_after10 (c : Dev nD) (t : Fin cfg1.N) : (nodeDat V c).after 10 t
    = (cfg1.win 10).fill (cfg1.grid.coords t) (fun _ => Scalar.ofBits .f32 0#32) (nodeBlk V c 10 t) := by dsimp only [nodeDat]
theorem nodeDat_after15 (c : Dev nD) (t : Fin cfg1.N) : (nodeDat V c).after 15 t
    = nodeOut ((cfg1.win 9).fill (cfg1.grid.coords t) (fun _ => Scalar.ofBits .f32 0#32) (nodeBlk V c 9 t))
        ((cfg1.win 10).fill (cfg1.grid.coords t) (fun _ => Scalar.ofBits .f32 0#32) (nodeBlk V c 10 t))
        (nodeBlk V c 11 t) (nodeBlk V c 12 t) (nodeBlk V c 13 t) (nodeBlk V c 14 t) (attVal V c) (knVal V c) := by
  dsimp only [nodeDat]

theorem nodeDat_found0 (c : Dev nD) (t : Fin cfg1.N) (d) : (nodeDat V c).before 0 t d = nodeBlk V c 0 t :=
  node_found0 V (nodeDat V c) (nodeDat_A V c 0) (nodeDat_after0 V c) t d
theorem nodeDat_found1 (c : Dev nD) (t : Fin cfg1.N) (d) : (nodeDat V c).before 1 t d = nodeBlk V c 1 t :=
  node_found1 V (nodeDat V c) (nodeDat_A V c 1) (nodeDat_after1 V c) t d
theorem nodeDat_found2 (c : Dev nD) (t : Fin cfg1.N) (d) : (nodeDat V c).before 2 t d = nodeBlk V c 2 t :=
  node_found2 V (nodeDat V c) (nodeDat_A V c 2) (nodeDat_after2 V c) t d
theorem nodeDat_found3 (c : Dev nD) (t : Fin cfg1.N) (d) : (nodeDat V c).before 3 t d = nodeBlk V c 3 t :=
  node_found3 V (nodeDat V c) (nodeDat_A V c 3) (nodeDat_after3 V c) t d
theorem nodeDat_found4 (c : Dev nD) (t : Fin cfg1.N) (d) : (nodeDat V c).before 4 t d = nodeBlk V c 4 t :=
  node_found4 V (nodeDat V c) (nodeDat_A V c 4) (nodeDat_after4 V c) t d
theorem nodeDat_found5 (c : Dev nD) (t : Fin cfg1.N) (d) : (nodeDat V c).before 5 t d = nodeBlk V c 5 t :=
  node_found5 V (nodeDat V c) (nodeDat_A V c 5) (nodeDat_after5 V c) t d
theorem nodeDat_found6 (c : Dev nD) (t : Fin cfg1.N) (d) : (nodeDat V c).before 6 t d = nodeBlk V c 6 t :=
  node_found6 V (nodeDat V c) (nodeDat_A V c 6) (nodeDat_after6 V c) t d
theorem nodeDat_found7 (c : Dev nD) (t : Fin cfg1.N) (d) : (nodeDat V c).before 7 t d = nodeBlk V c 7 t :=
  node_found7 V (nodeDat V c) (nodeDat_A V c 7) (nodeDat_after7 V c) t d
theorem nodeDat_found8 (c : Dev nD) (t : Fin cfg1.N) (d) : (nodeDat V c).before 8 t d = nodeBlk V c 8 t :=
  node_found8 V (nodeDat V c) (nodeDat_A V c 8) (nodeDat_after8 V c) t d
theorem nodeDat_found11 (c : Dev nD) (t : Fin cfg1.N) (d) : (nodeDat V c).before 11 t d = nodeBlk V c 11 t :=
  node_found11 V (nodeDat V c) (nodeDat_A V c 11) (nodeDat_after11 V c) t d
theorem nodeDat_found12 (c : Dev nD) (t : Fin cfg1.N) (d) : (nodeDat V c).before 12 t d = nodeBlk V c 12 t :=
  node_found12 V (nodeDat V c) (nodeDat_A V c 12) (nodeDat_after12 V c) t d
theorem nodeDat_found13 (c : Dev nD) (t : Fin cfg1.N) (d) : (nodeDat V c).before 13 t d = nodeBlk V c 13 t :=
  node_found13 V (nodeDat V c) (nodeDat_A V c 13) (nodeDat_after13 V c) t d
theorem nodeDat_found14 (c : Dev nD) (t : Fin cfg1.N) (d) : (nodeDat V c).before 14 t d = nodeBlk V c 14 t :=
  node_found14 V (nodeDat V c) (nodeDat_A V c 14) (nodeDat_after14 V c) t d

/-- A clipped input's buffer just fetched: its block on the part inside the array, whatever was there elsewhere. -/
theorem nodeDat_found9 (c : Dev nD) (t : Fin cfg1.N) (d) :
    (nodeDat V c).before 9 t d = (cfg1.win 9).fill (cfg1.grid.coords t) d (nodeBlk V c 9 t) := by
  unfold Dat.before; rw [if_pos (fetch1_9 t)]; rfl
theorem nodeDat_found10 (c : Dev nD) (t : Fin cfg1.N) (d) :
    (nodeDat V c).before 10 t d = (cfg1.win 10).fill (cfg1.grid.coords t) d (nodeBlk V c 10 t) := by
  unfold Dat.before; rw [if_pos (fetch1_10 t)]; rfl

end Cert.KernelIdeal.Hand

end
-- ==== Proof.NodeObligation.lean ====
/-
  The second pallas_call's body obligation (any float instance), at a parameter `V`.

  At every point the body finds each whole-array input's buffer at the array and each clipped input's at its
  block filled out with whatever the tail held; it leaves the inputs as found, the scratch buffers at the attention
  and the node keys, and the output buffer at the block computed from what it found.  The loop asks of a clipped
  window only the part inside the array; for the output that part must not depend on the clipped inputs' tails
  (`TailFree`: a fact about the arithmetic, supplied where the arithmetic is known).
-/
import proofs.«181957_g30339648979507_cont_9to1_1753_20_alg».proof.Proof.NodeRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of the output block inside the array does not depend on what the clipped inputs' buffers hold past
    the arrays' ends. -/
def TailFree (c : Dev nD) : Prop :=
  ∀ (t : Fin cfg1.N) (d9 : (cfg1.win 9).block.Idx → Elt F (cfg1.win 9).elt) (d10 : (cfg1.win 10).block.Idx → Elt F (cfg1.win 10).elt),
    (cfg1.win 15).cut (cfg1.grid.coords t)
        (nodeOut ((cfg1.win 9).fill (cfg1.grid.coords t) d9 (nodeBlk V c 9 t)) ((cfg1.win 10).fill (cfg1.grid.coords t) d10 (nodeBlk V c 10 t))
          (nodeBlk V c 11 t) (nodeBlk V c 12 t) (nodeBlk V c 13 t) (nodeBlk V c 14 t) (attVal V c) (knVal V c))
      = (cfg1.win 15).cut (cfg1.grid.coords t) ((nodeDat V c).after 15 t)

/-- What the body is called with at point `t`, the windows one by one, -/
def nodeBodyPre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d))
    ∗ (∃ d, owns (c : Thread nD τ) (st1_8 t) fullShare ((nodeDat V c).before 8 t d))
    ∗ (∃ d, owns (c : Thread nD τ) (st1_9 t) fullShare ((nodeDat V c).before 9 t d))
    ∗ (∃ d, owns (c : Thread nD τ) (st1_10 t) fullShare ((nodeDat V c).before 10 t d))
    ∗ (∃ d, owns (c : Thread nD τ) (st1_11 t) fullShare ((nodeDat V c).before 11 t d))
    ∗ (∃ d, owns (c : Thread nD τ) (st1_12 t) fullShare ((nodeDat V c).before 12 t d))
    ∗ (∃ d, owns (c : Thread nD τ) (st1_13 t) fullShare ((nodeDat V c).before 13 t d))
    ∗ (∃ d, owns (c : Thread nD τ) (st1_14 t) fullShare ((nodeDat V c).before 14 t d))
    ∗ (∃ d, owns (c : Thread nD τ) (st1_15 t) fullShare ((nodeDat V c).before 15 t d)))

/-- and what it returns (a clipped window's buffer stated on the part inside the array). -/
def nodeBodyPost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t)
    ∗ owns (c : Thread nD τ) (st1_8 t) fullShare ((nodeDat V c).after 8 t)
    ∗ (∃ d, owns (c : Thread nD τ) (st1_9 t) fullShare ((cfg1.win 9).fill (cfg1.grid.coords t) d ((cfg1.win 9).cut (cfg1.grid.coords t) ((nodeDat V c).after 9 t))))
    ∗ (∃ d, owns (c : Thread nD τ) (st1_10 t) fullShare ((cfg1.win 10).fill (cfg1.grid.coords t) d ((cfg1.win 10).cut (cfg1.grid.coords t) ((nodeDat V c).after 10 t))))
    ∗ owns (c : Thread nD τ) (st1_11 t) fullShare ((nodeDat V c).after 11 t)
    ∗ owns (c : Thread nD τ) (st1_12 t) fullShare ((nodeDat V c).after 12 t)
    ∗ owns (c : Thread nD τ) (st1_13 t) fullShare ((nodeDat V c).after 13 t)
    ∗ owns (c : Thread nD τ) (st1_14 t) fullShare ((nodeDat V c).after 14 t)
    ∗ (∃ d, owns (c : Thread nD τ) (st1_15 t) fullShare ((cfg1.win 15).fill (cfg1.grid.coords t) d ((cfg1.win 15).cut (cfg1.grid.coords t) ((nodeDat V c).after 15 t)))))

set_option maxHeartbeats 4000000 in
theorem node_sound_body (c : Dev nD) (hfree : TailFree V c) (t : Fin cfg1.N) :
    nodeBodyPre V c t ⊢ wp frame (wpE (defs₀ (F := F)) Variants.none c none) Set.univ (bodyAt1 t) (fun _ => nodeBodyPost V c t) := by
  unfold nodeBodyPre nodeBodyPost bodyAt1
  simp only [nodeDat_found0, nodeDat_found1, nodeDat_found2, nodeDat_found3, nodeDat_found4, nodeDat_found5, nodeDat_found6, nodeDat_found7, nodeDat_found8, nodeDat_found11, nodeDat_found12, nodeDat_found13, nodeDat_found14, nodeDat_found9, nodeDat_found10]
  rw [show (nodeDat V c).owesAt () t.succ = (nodeDat V c).owesAt () t.castSucc from rfl]
  rw [nodeDat_after0, nodeDat_after1, nodeDat_after2, nodeDat_after3, nodeDat_after4, nodeDat_after5, nodeDat_after6, nodeDat_after7, nodeDat_after8, nodeDat_after11, nodeDat_after12, nodeDat_after13, nodeDat_after14]
  rw [show (nodeDat V c).Φ t.castSucc = nodeInv V c t.castSucc from rfl, show (nodeDat V c).Φ t.succ = nodeInv V c t.succ from rfl]
  unfold nodeInv scrHeld
  rw [if_neg (show ¬ (t.succ).val = 0 from Nat.succ_ne_zero _)]
  by_cases h0 : t.val = 0
  · -- the first point: the scratch buffers hold anything and are filled here
    have hc : firstPoint (grid1.coords t) := (firstPoint_iff t).mpr h0
    obtain rfl : t = t1_0 := Fin.ext h0
    rw [if_pos (show (Fin.castSucc t1_0).val = 0 from rfl)]
    iintro ⟨⟨Hidle, ⟨⟨%s0, Hs0⟩, ⟨%s1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_first c Set.univ (grid1.coords t1_0) hc _ _ _ _ _ _ _ _ _ _ _ _ _ _ _ _ _ _ _ _ _ _ _ _ _ _ _ _ _ _ _ _ _ _ _ _ (nodeBlk V c 0 t1_0) (nodeBlk V c 1 t1_0) (nodeBlk V c 2 t1_0) (nodeBlk V c 3 t1_0) (nodeBlk V c 4 t1_0) (nodeBlk V c 5 t1_0) (nodeBlk V c 6 t1_0) (nodeBlk V c 7 t1_0) (nodeBlk V c 8 t1_0) ((cfg1.win 9).fill (cfg1.grid.coords t1_0) d9 (nodeBlk V c 9 t1_0)) ((cfg1.win 10).fill (cfg1.grid.coords t1_0) d10 (nodeBlk V c 10 t1_0)) (nodeBlk V c 11 t1_0) (nodeBlk V c 12 t1_0) (nodeBlk V c 13 t1_0) (nodeBlk V c 14 t1_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexists s0; rw [owns_whole]; iexact Hs0
    isplitl [Hs1]; · iexists s1; rw [owns_whole]; iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _
    rw [← hfree t1_0 d9 d10, (cfg1.win 15).fill_cut]
    iexact H15
  · -- a later point: the scratch buffers hold the attention and the keys, and keep them
    have hc : ¬ firstPoint (grid1.coords t) := fun h => h0 ((firstPoint_iff t).mp h)
    rw [if_neg (show ¬ (Fin.castSucc t).val = 0 from h0)]
    iintro ⟨⟨Hidle, ⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_later c Set.univ (grid1.coords t) hc _ _ _ _ _ _ _ _ _ _ _ _ _ _ _ _ _ _ _ _ _ _ _ _ _ _ _ _ _ _ _ _ _ _ _ _ (nodeBlk V c 0 t) (nodeBlk V c 1 t) (nodeBlk V c 2 t) (nodeBlk V c 3 t) (nodeBlk V c 4 t) (nodeBlk V c 5 t) (nodeBlk V c 6 t) (nodeBlk V c 7 t) (nodeBlk V c 8 t) ((cfg1.win 9).fill (cfg1.grid.coords t) d9 (nodeBlk V c 9 t)) ((cfg1.win 10).fill (cfg1.grid.coords t) d10 (nodeBlk V c 10 t)) (nodeBlk V c 11 t) (nodeBlk V c 12 t) (nodeBlk V c 13 t) (nodeBlk V c 14 t) (attVal V c) (knVal V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexact Hs0
    isplitl [Hs1]; · iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _
    rw [← hfree t d9 d10, (cfg1.win 15).fill_cut]
    iexact H15

/-- The body obligation of the second pipeline, at every point, in the form the loop uses. -/
theorem node_body_obligation (c : Dev nD) (hfree : TailFree V c) :
    BodyObligationLoose (nodeDat (F := F) V c) (defs₀ (F := F)) Variants.none () Set.univ := fun t => by
  rw [bigSep_W1, bigSep_W1]
  exact node_sound_body V c hfree t

end Cert.KernelIdeal.Hand

end
-- ==== Proof.KernelRun.lean ====
/-
  The kernel program's run (any float instance): @main is seven host operations (six bias reshapes and the
  transpose of the incidence matrix), the first pallas_call, the second pallas_call.

  The buffers' contents at the four boundaries are a fold from the launch memory: the host operations' results,
  then the first call's arrays at what its write-backs leave, then the second call's.  Each region is entered
  from "every unscoped buffer at the boundary's contents" and left at the next boundary's; so every final
  state has every unscoped buffer at the last boundary's contents.  The second region's part inside the array
  of its output block must not depend on the clipped inputs' tails: a hypothesis here.
-/
import proofs.«181957_g30339648979507_cont_9to1_1753_20_alg».proof.Proof.NodeObligation
import proofs.«181957_g30339648979507_cont_9to1_1753_20_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch, and after the host operations (the first region's entry). -/
abbrev bnd0 : Dev nD → Valuation τ sig (Elt F) := fun c => Gen.V0 m c
abbrev bnd1 : Dev nD → Valuation τ sig (Elt F) := fun c => Gen.V1 m c
abbrev at1 : (c : Dev nD) → (b : Ref sig .tc) → Buf (Elt F) ((c : Thread nD τ).loc b) := fun c b => bnd1 m c b

/-- At the first region's exit: its arrays at what the pipeline leaves, every other buffer as entered. -/
def bnd2 (c : Dev nD) : Valuation τ sig (Elt F) :=
  Pipeline.withArrays spec0 c (bnd1 m c) fun w => (heDat (at1 m) c).arrAt w cfg0.N
theorem bnd2_arr (c : Dev nD) (w : Fin cfg0.W) :
    bnd2 m c (Proc.devRef .tc (Pipeline.arrRef spec0 w)) = (heDat (at1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev at2 : (c : Dev nD) → (b : Ref sig .tc) → Buf (Elt F) ((c : Thread nD τ).loc b) := fun c b => bnd2 m c b
theorem heFinal (c : Dev nD) (w : Fin cfg0.W) : (heDat (at1 m) c).arrAt w cfg0.N = at2 m c (Pipeline.arrRef spec0 w) :=
  (bnd2_arr m c w).symm
theorem heRest (c : Dev nD) : ∀ b, b ∉ Finset.univ.image (Pipeline.arrRef spec0) → at2 m c b = at1 m c b :=
  fun b hb => bnd2_of_ne m c b fun w e => hb (Finset.mem_image.mpr ⟨w, Finset.mem_univ _, e⟩)

/-- At the second region's exit, likewise: the last boundary. -/
def bnd3 (c : Dev nD) : Valuation τ sig (Elt F) :=
  Pipeline.withArrays spec1 c (bnd2 m c) fun w => (nodeDat (at2 m) c).arrAt w cfg1.N
theorem bnd3_arr (c : Dev nD) (w : Fin cfg1.W) :
    bnd3 m c (Proc.devRef .tc (Pipeline.arrRef spec1 w)) = (nodeDat (at2 m) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m c (Proc.devRef .tc b) = bnd2 m c (Proc.devRef .tc b) := by
  unfold bnd3; exact Pipeline.withArrays_of_ne spec1 c _ _ b hb
abbrev at3 : (c : Dev nD) → (b : Ref sig .tc) → Buf (Elt F) ((c : Thread nD τ).loc b) := fun c b => bnd3 m c b
theorem nodeFinal (c : Dev nD) (w : Fin cfg1.W) : (nodeDat (at2 m) c).arrAt w cfg1.N = at3 m c (Pipeline.arrRef spec1 w) :=
  (bnd3_arr m c w).symm
theorem nodeRest (c : Dev nD) : ∀ b, b ∉ Finset.univ.image (Pipeline.arrRef spec1) → at3 m c b = at2 m c b :=
  fun b hb => bnd3_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => heDat (at1 m) c
  | ⟨1, _⟩ => fun c => nodeDat (at2 m) c
abbrev noVariants : Variants := Variants.none
/-- No core owes another anything: no level is assigned. -/
abbrev noLevels : GSem nD τ sig → Finset Unit := fun _ => ∅
abbrev lvl : GSem nD τ sig → Unit → ℕ := fun _ _ => 0
/-- What rides beside the buffers through every segment: the generator register at some state, nothing owed. -/
abbrev beside (c : Dev nD) : sProp 𝕄 := iprop((∃ r, prngReg c r) ∗ ∃ W, owes (c : Thread nD τ) (0 : CellTallies nD τ sig Unit) W)
/-- The host operations as a segment over the unscoped references. -/
abbrev hostSeg : Pipeline.HostSeg (Name := ℕ) (U := UR sig nD τ) (pcfgs (F := F)) defs₀ noVariants noLevels lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (bnd0 m) beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastState (c : Dev nD) : sProp 𝕄 := iprop(StableHlo.held (c : Thread nD τ) (Pipeline.ucRefs τ sig) (bnd3 m c) ∗ ∃ r, prngReg c r)

/-! ## The regions as segments -/

set_option backward.isDefEq.respectTransparency.types false in
/-- The first region: entered from every unscoped buffer at the host operations' results, left with the product
    array at what the five write-backs leave. -/
def heSeg : Pipeline.RegionSeg (pcfgs (F := F)) Gen.adm (pdats m) () defs₀ noVariants noLevels lvl 0 where
  win := launch0.win.to₀
  block_pos := launch0.block_pos
  stage_whole := launch0.stage_whole
  K := PEmpty
  osem k := k.elim
  ho := Pipeline.OwnSemFacts.none _
  hbody c := (he_body_obligation (at1 m) c).loose
  hwaits := Pipeline.hwaits_of_owed_zero _ _ _ _ noLevels lvl 0 fun _ _ => rfl
  pre c := iprop(StableHlo.held (c : Thread nD τ) (Pipeline.ucRefs τ sig) (bnd1 m c) ∗ beside c)
  post c := iprop(StableHlo.held (c : Thread nD τ) (Pipeline.ucRefs τ sig) (bnd2 m c) ∗ beside c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (at1 m c) (at2 m c) ((pdats m 0 c).arrAt · cfg0.N) (heFinal m c) (heRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the first region's exit contents, left at the last boundary.  The two scratch
    buffers enter its invariant at anything (they are scoped buffers no window stages) and leave it the same way. -/
def nodeSeg (hfree : ∀ c, TailFree (at2 m) c) :
    Pipeline.RegionSeg (pcfgs (F := F)) Gen.adm (pdats m) () defs₀ noVariants noLevels lvl 1 where
  win := launch1.win.to₀
  block_pos := launch1.block_pos
  stage_whole := launch1.stage_whole
  K := PEmpty
  osem k := k.elim
  ho := Pipeline.OwnSemFacts.none _
  hbody c := node_body_obligation (at2 m) c (hfree c)
  hwaits := Pipeline.hwaits_of_owed_zero _ _ _ _ noLevels lvl 1 fun _ _ => rfl
  pre c := iprop(StableHlo.held (c : Thread nD τ) (Pipeline.ucRefs τ sig) (bnd2 m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (at2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = nodeInv (at2 m) c 0 from rfl,
      show (Pipeline.scopedRest (Pipeline.pin (pcfgs (F := F)) Gen.adm 1).spec c : sProp 𝕄) = Pipeline.scopedRest spec1 c from rfl, scopedRest1_eq]
    unfold nodeInv scrHeld idleStaging
    rw [if_pos (show ((0 : Fin (cfg1.N + 1))).val = 0 from rfl)]
    iintro ⟨Hp, -, ⟨H1, H2, H3, H4, H5, Hs0, Hs1⟩⟩
    isplitl [H1 H2 H3 H4 H5]
    · isplitl [H1]; · iexact H1
      isplitl [H2]; · iexact H2
      isplitl [H3]; · iexact H3
      isplitl [H4]; · iexact H4
      iexact H5
    isplitl [Hs0 Hs1]
    · isplitl [Hs0]; · iexact Hs0
      iexact Hs1
    iexact Hp
  hout c := by
    rw [Pipeline.ownSems0_none, show (pdats m 1 c).Φ (Fin.last _) = nodeInv (at2 m) c (Fin.last _) from rfl,
      show (Pipeline.scopedRest (Pipeline.pin (pcfgs (F := F)) Gen.adm 1).spec c : sProp 𝕄) = Pipeline.scopedRest spec1 c from rfl, scopedRest1_eq]
    unfold nodeInv scrHeld idleStaging
    rw [if_neg (show ¬ (Fin.last cfg1.N).val = 0 from by decide)]
    iintro ⟨⟨H1, H2, H3, H4, H5⟩, ⟨Hs0, Hs1⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [Hs0]
    · iexists (attVal (at2 m) c); rw [← owns_whole (c : Thread nD τ) cc1_scratch0 fullShare]; iexact Hs0
    iexists (knVal (at2 m) c); rw [← owns_whole (c : Thread nD τ) cc1_scratch1 fullShare]; iexact Hs1
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (at2 m c) (at3 m c) ((pdats m 1 c).arrAt · cfg1.N) (nodeFinal m c) (nodeRest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs (hfree : ∀ c, TailFree (at2 m) c) :
    List (Pipeline.Seg (pcfgs (F := F)) Gen.adm (pdats m) () defs₀ noVariants noLevels lvl) :=
  [ .host (hostSeg m), .region (heSeg m), .region (nodeSeg m hfree) ]

theorem main_is_segs (hfree : ∀ c, TailFree (at2 m) c) (c : Dev nD) : main (F := F) c = Pipeline.Seg.run (mainSegs m hfree) :=
  (main_chain c).trans (by chain_rfl)

set_option backward.isDefEq.respectTransparency.types false in
/-- From any memory with zero counters every weakly fair execution of @main terminates, nothing faulting, and
    every final state has every unscoped buffer at the last boundary's contents. -/
theorem run_all (hfree : ∀ c, TailFree (at2 m) c) :
    θ_run defs (onTc (τ := τ) (main (F := F))) ⟨m, fun _ => 0, ρ⟩ (fun r => ∀ c : Dev nD,
      ∀ b ∈ Pipeline.ucRefs τ sig, r.2.mem (((c : Thread nD τ)).1, b) = bnd3 m c b) :=
  Pipeline.θ_run_regions_kit (pcfgs (F := F)) Gen.adm (pdats m) () cellOf_inj emb₁ defs₀ noVariants noLevels lvl m ρ main (mainSegs m hfree)
    (fun c Q => by rw [main_is_segs m hfree c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ beside c)) (Tₙ := lastState m)
    (hch := ⟨fun _ => .rfl, fun _ => .rfl, fun _ => .rfl, fun _ => .rfl⟩)
    (hinit := by
      refine Pipeline.initEach noLevels lvl fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd3 m c b)
    (hfin := fun c s' => by
      iintro ⟨⟨Hh, -⟩, HSI⟩
      unfold StableHlo.held
      imodintro
      iapply (pointsTo_read_all (Pipeline.ucRefs τ sig) (fun b => (((c : Thread nD τ)).1, b)) (bnd3 m c) s')
      isplitl [Hh] <;> iassumption)
    (hQ := fun s h => h)

end Cert.KernelIdeal.Hand

end
-- ==== Proof.NodeForget.lean ====
/-
  The second pallas_call's body obligation read for a FRAME only (any float instance): the output window is
  forgotten — handed to the body at anything and taken back at anything — so nothing is asked of what the body
  computes from the clipped inputs' tails.  The inputs are found and left exactly as in the exact obligation, the
  scratch buffers filled at the first point and kept afterwards.
-/
import proofs.«181957_g30339648979507_cont_9to1_1753_20_alg».proof.Proof.NodeRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows a frame-only reading forgets: the output window. -/
abbrev forgetOut : Fin cfg1.W → Bool := fun w => w.val == 15

/-- What the body is called with at point `t`, the windows one by one, -/
def nodeFramePre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d))
    ∗ (∃ d, owns (c : Thread nD τ) (st1_8 t) fullShare ((nodeDat V c).before 8 t d))
    ∗ (∃ d, owns (c : Thread nD τ) (st1_9 t) fullShare ((nodeDat V c).before 9 t d))
    ∗ (∃ d, owns (c : Thread nD τ) (st1_10 t) fullShare ((nodeDat V c).before 10 t d))
    ∗ (∃ d, owns (c : Thread nD τ) (st1_11 t) fullShare ((nodeDat V c).before 11 t d))
    ∗ (∃ d, owns (c : Thread nD τ) (st1_12 t) fullShare ((nodeDat V c).before 12 t d))
    ∗ (∃ d, owns (c : Thread nD τ) (st1_13 t) fullShare ((nodeDat V c).before 13 t d))
    ∗ (∃ d, owns (c : Thread nD τ) (st1_14 t) fullShare ((nodeDat V c).before 14 t d))
    ∗ (∃ X, owns (c : Thread nD τ) (st1_15 t) fullShare X))

/-- and what it returns (a clipped window's buffer stated on the part inside the array). -/
def nodeFramePost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t)
    ∗ owns (c : Thread nD τ) (st1_8 t) fullShare ((nodeDat V c).after 8 t)
    ∗ (∃ d, owns (c : Thread nD τ) (st1_9 t) fullShare ((cfg1.win 9).fill (cfg1.grid.coords t) d ((cfg1.win 9).cut (cfg1.grid.coords t) ((nodeDat V c).after 9 t))))
    ∗ (∃ d, owns (c : Thread nD τ) (st1_10 t) fullShare ((cfg1.win 10).fill (cfg1.grid.coords t) d ((cfg1.win 10).cut (cfg1.grid.coords t) ((nodeDat V c).after 10 t))))
    ∗ owns (c : Thread nD τ) (st1_11 t) fullShare ((nodeDat V c).after 11 t)
    ∗ owns (c : Thread nD τ) (st1_12 t) fullShare ((nodeDat V c).after 12 t)
    ∗ owns (c : Thread nD τ) (st1_13 t) fullShare ((nodeDat V c).after 13 t)
    ∗ owns (c : Thread nD τ) (st1_14 t) fullShare ((nodeDat V c).after 14 t)
    ∗ (∃ X, owns (c : Thread nD τ) (st1_15 t) fullShare X))

set_option maxHeartbeats 4000000 in
theorem node_frame_body (c : Dev nD) (t : Fin cfg1.N) :
    nodeFramePre V c t ⊢ wp frame (wpE (defs₀ (F := F)) Variants.none c none) Set.univ (bodyAt1 t) (fun _ => nodeFramePost V c t) := by
  unfold nodeFramePre nodeFramePost bodyAt1
  simp only [nodeDat_found0, nodeDat_found1, nodeDat_found2, nodeDat_found3, nodeDat_found4, nodeDat_found5, nodeDat_found6, nodeDat_found7, nodeDat_found8, nodeDat_found11, nodeDat_found12, nodeDat_found13, nodeDat_found14, nodeDat_found9, nodeDat_found10]
  rw [show (nodeDat V c).owesAt () t.succ = (nodeDat V c).owesAt () t.castSucc from rfl]
  rw [nodeDat_after0, nodeDat_after1, nodeDat_after2, nodeDat_after3, nodeDat_after4, nodeDat_after5, nodeDat_after6, nodeDat_after7, nodeDat_after8, nodeDat_after11, nodeDat_after12, nodeDat_after13, nodeDat_after14]
  rw [show (nodeDat V c).Φ t.castSucc = nodeInv V c t.castSucc from rfl, show (nodeDat V c).Φ t.succ = nodeInv V c t.succ from rfl]
  unfold nodeInv scrHeld
  rw [if_neg (show ¬ (t.succ).val = 0 from Nat.succ_ne_zero _)]
  by_cases h0 : t.val = 0
  · -- the first point: the scratch buffers hold anything and are filled here
    have hc : firstPoint (grid1.coords t) := (firstPoint_iff t).mpr h0
    obtain rfl : t = t1_0 := Fin.ext h0
    rw [if_pos (show (Fin.castSucc t1_0).val = 0 from rfl)]
    iintro ⟨⟨Hidle, ⟨⟨%s0, Hs0⟩, ⟨%s1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_first c Set.univ (grid1.coords t1_0) hc _ _ _ _ _ _ _ _ _ _ _ _ _ _ _ _ _ _ _ _ _ _ _ _ _ _ _ _ _ _ _ _ _ _ _ _ (nodeBlk V c 0 t1_0) (nodeBlk V c 1 t1_0) (nodeBlk V c 2 t1_0) (nodeBlk V c 3 t1_0) (nodeBlk V c 4 t1_0) (nodeBlk V c 5 t1_0) (nodeBlk V c 6 t1_0) (nodeBlk V c 7 t1_0) (nodeBlk V c 8 t1_0) ((cfg1.win 9).fill (cfg1.grid.coords t1_0) d9 (nodeBlk V c 9 t1_0)) ((cfg1.win 10).fill (cfg1.grid.coords t1_0) d10 (nodeBlk V c 10 t1_0)) (nodeBlk V c 11 t1_0) (nodeBlk V c 12 t1_0) (nodeBlk V c 13 t1_0) (nodeBlk V c 14 t1_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexists s0; rw [owns_whole]; iexact Hs0
    isplitl [Hs1]; · iexists s1; rw [owns_whole]; iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _; iexact H15
  · -- a later point: the scratch buffers hold the attention and the keys, and keep them
    have hc : ¬ firstPoint (grid1.coords t) := fun h => h0 ((firstPoint_iff t).mp h)
    rw [if_neg (show ¬ (Fin.castSucc t).val = 0 from h0)]
    iintro ⟨⟨Hidle, ⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (node_body_later c Set.univ (grid1.coords t) hc _ _ _ _ _ _ _ _ _ _ _ _ _ _ _ _ _ _ _ _ _ _ _ _ _ _ _ _ _ _ _ _ _ _ _ _ (nodeBlk V c 0 t) (nodeBlk V c 1 t) (nodeBlk V c 2 t) (nodeBlk V c 3 t) (nodeBlk V c 4 t) (nodeBlk V c 5 t) (nodeBlk V c 6 t) (nodeBlk V c 7 t) (nodeBlk V c 8 t) ((cfg1.win 9).fill (cfg1.grid.coords t) d9 (nodeBlk V c 9 t)) ((cfg1.win 10).fill (cfg1.grid.coords t) d10 (nodeBlk V c 10 t)) (nodeBlk V c 11 t) (nodeBlk V c 12 t) (nodeBlk V c 13 t) (nodeBlk V c 14 t) (attVal V c) (knVal V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [Hs0]; · iexact Hs0
    isplitl [Hs1]; · iexact Hs1
    iintro ⟨H0, H1, H2, H3, H4, H5, H6, H7, H8, H9, H10, H11, H12, H13, H14, H15, Hs0, Hs1⟩
    isplitl [Hidle Hs0 Hs1 Hp]
    · isplitl [Hidle]; · iexact Hidle
      isplitl [Hs0 Hs1]
      · isplitl [Hs0]; · iexact Hs0
        iexact Hs1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; rw [nodeDat_after9, (cfg1.win 9).cut_fill]; iexact H9
    isplitl [H10]
    · iexists d10; rw [nodeDat_after10, (cfg1.win 10).cut_fill]; iexact H10
    isplitl [H11]; · iexact H11
    isplitl [H12]; · iexact H12
    isplitl [H13]; · iexact H13
    isplitl [H14]; · iexact H14
    iexists _; iexact H15

/-- The body obligation of the second pipeline with its output window forgotten, at every point. -/
theorem node_frame_obligation (c : Dev nD) :
    BodyObligationLoose (nodeDat (F := F) V c) (defs₀ (F := F)) Variants.none () Set.univ forgetOut := fun t => by
  rw [bigSep_W1, bigSep_W1]
  exact node_frame_body V c t

end Cert.KernelIdeal.Hand

end
-- ==== Proof.KernelArgs.lean ====
/-
  The kernel program's argument arrays at the last boundary are the launch memory's (any float instance): no host
  operation writes an argument, the first region only reads the node features, the second only reads the seven
  arguments it stages.  And what the second region finds at its entry, buffer by buffer: the arguments as launched,
  the reshaped biases and the transposed incidence matrix as the host operations left them.
-/
import proofs.«181957_g30339648979507_cont_9to1_1753_20_alg».proof.Proof.KernelRun

set_option maxRecDepth 16384

noncomputable section

namespace Cert.KernelIdeal.Args

open Cert.KernelIdeal Cert.KernelIdeal.Gen Cert.KernelIdeal.Hand
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-! ## One step back at a time -/

/-- After the host operations a buffer none of them writes holds what the launch memory does. -/
theorem at1_launch (c : Dev nD) (r : Ref sig .tc) (h : r ∉ hostOps0_W) : at1 m c r = m ((c : Thread nD τ).loc r) :=
  (V1_of m c r h).trans rfl

/-- A buffer that is no array of the first region leaves it as it entered. -/
theorem at2_of_ne (c : Dev nD) (r : Ref sig .tc) (hr : ∀ w, Pipeline.arrRef spec0 w ≠ r) : at2 m c r = at1 m c r :=
  bnd2_of_ne m c r hr

/-- An array the first region only reads leaves it as it entered. -/
theorem at2_in (c : Dev nD) (w : Fin cfg0.W) (hin : (cfg0.win w).isOut = false) :
    at2 m c (Pipeline.arrRef spec0 w) = at1 m c (Pipeline.arrRef spec0 w) :=
  (bnd2_arr m c w).trans (((heDat (at1 m) c).arrAt_in w hin _).trans (heDat_A (at1 m) c w))

/-- A buffer that is no array of the second region leaves it as it entered. -/
theorem at3_of_ne (c : Dev nD) (r : Ref sig .tc) (hr : ∀ w, Pipeline.arrRef spec1 w ≠ r) : at3 m c r = at2 m c r :=
  bnd3_of_ne m c r hr

/-- An array the second region only reads leaves it as it entered. -/
theorem at3_in (c : Dev nD) (w : Fin cfg1.W) (hin : (cfg1.win w).isOut = false) :
    at3 m c (Pipeline.arrRef spec1 w) = at2 m c (Pipeline.arrRef spec1 w) :=
  (bnd3_arr m c w).trans (((nodeDat (at2 m) c).arrAt_in w hin _).trans (nodeDat_A (at2 m) c w))

/-- The node features, which the first region reads through its second window, enter the second region as launched. -/
theorem at2_feat (c : Dev nD) : at2 m c main_arg0 = m ((c : Thread nD τ).loc main_arg0) :=
  (at2_in m c 1 rfl).trans (at1_launch m c main_arg0 (by decide))

/-- A buffer no host operation writes and the first region does not touch enters the second region as launched. -/
theorem at2_launch (c : Dev nD) (r : Ref sig .tc) (hr : ∀ w, Pipeline.arrRef spec0 w ≠ r) (h : r ∉ hostOps0_W) :
    at2 m c r = m ((c : Thread nD τ).loc r) :=
  (at2_of_ne m c r hr).trans (at1_launch m c r h)

/-! ## The arguments at the last boundary -/

theorem last_arg0 (c : Dev nD) : bnd3 m c (Proc.devRef .tc main_arg0) = m ((c : Thread nD τ).loc main_arg0) := by
  exact (at3_in m c 9 rfl).trans (at2_feat m c)
theorem last_arg1 (c : Dev nD) : bnd3 m c (Proc.devRef .tc main_arg1) = m ((c : Thread nD τ).loc main_arg1) := by
  exact (at3_of_ne m c main_arg1 (by decide)).trans (at2_launch m c main_arg1 (by decide) (by decide))
theorem last_arg2 (c : Dev nD) : bnd3 m c (Proc.devRef .tc main_arg2) = m ((c : Thread nD τ).loc main_arg2) := by
  exact (at3_in m c 1 rfl).trans (at2_launch m c main_arg2 (by decide) (by decide))
theorem last_arg3 (c : Dev nD) : bnd3 m c (Proc.devRef .tc main_arg3) = m ((c : Thread nD τ).loc main_arg3) := by
  exact (at3_of_ne m c main_arg3 (by decide)).trans (at2_launch m c main_arg3 (by decide) (by decide))
theorem last_arg4 (c : Dev nD) : bnd3 m c (Proc.devRef .tc main_arg4) = m ((c : Thread nD τ).loc main_arg4) := by
  exact (at3_in m c 3 rfl).trans (at2_launch m c main_arg4 (by decide) (by decide))
theorem last_arg5 (c : Dev nD) : bnd3 m c (Proc.devRef .tc main_arg5) = m ((c : Thread nD τ).loc main_arg5) := by
  exact (at3_of_ne m c main_arg5 (by decide)).trans (at2_launch m c main_arg5 (by decide) (by decide))
theorem last_arg6 (c : Dev nD) : bnd3 m c (Proc.devRef .tc main_arg6) = m ((c : Thread nD τ).loc main_arg6) := by
  exact (at3_in m c 5 rfl).trans (at2_launch m c main_arg6 (by decide) (by decide))
theorem last_arg7 (c : Dev nD) : bnd3 m c (Proc.devRef .tc main_arg7) = m ((c : Thread nD τ).loc main_arg7) := by
  exact (at3_of_ne m c main_arg7 (by decide)).trans (at2_launch m c main_arg7 (by decide) (by decide))
theorem last_arg8 (c : Dev nD) : bnd3 m c (Proc.devRef .tc main_arg8) = m ((c : Thread nD τ).loc main_arg8) := by
  exact (at3_in m c 11 rfl).trans (at2_launch m c main_arg8 (by decide) (by decide))
theorem last_arg9 (c : Dev nD) : bnd3 m c (Proc.devRef .tc main_arg9) = m ((c : Thread nD τ).loc main_arg9) := by
  exact (at3_of_ne m c main_arg9 (by decide)).trans (at2_launch m c main_arg9 (by decide) (by decide))
theorem last_arg10 (c : Dev nD) : bnd3 m c (Proc.devRef .tc main_arg10) = m ((c : Thread nD τ).loc main_arg10) := by
  exact (at3_in m c 7 rfl).trans (at2_launch m c main_arg10 (by decide) (by decide))
theorem last_arg11 (c : Dev nD) : bnd3 m c (Proc.devRef .tc main_arg11) = m ((c : Thread nD τ).loc main_arg11) := by
  exact (at3_of_ne m c main_arg11 (by decide)).trans (at2_launch m c main_arg11 (by decide) (by decide))
theorem last_arg12 (c : Dev nD) : bnd3 m c (Proc.devRef .tc main_arg12) = m ((c : Thread nD τ).loc main_arg12) := by
  exact (at3_in m c 13 rfl).trans (at2_launch m c main_arg12 (by decide) (by decide))
theorem last_arg13 (c : Dev nD) : bnd3 m c (Proc.devRef .tc main_arg13) = m ((c : Thread nD τ).loc main_arg13) := by
  exact (at3_of_ne m c main_arg13 (by decide)).trans (at2_launch m c main_arg13 (by decide) (by decide))

/-! ## The result buffer at the last boundary -/

theorem last_out (c : Dev nD) : bnd3 m c (Proc.devRef .tc main_v8) = (nodeDat (at2 m) c).arrAt 15 cfg1.N := by
  exact bnd3_arr m c 15

/-! ## What the second region finds -/

theorem entry2_arg0 (c : Dev nD) : at2 m c main_arg0 = m ((c : Thread nD τ).loc main_arg0) := by
  exact at2_feat m c
theorem entry2_arg2 (c : Dev nD) : at2 m c main_arg2 = m ((c : Thread nD τ).loc main_arg2) := by
  exact at2_launch m c main_arg2 (by decide) (by decide)
theorem entry2_arg4 (c : Dev nD) : at2 m c main_arg4 = m ((c : Thread nD τ).loc main_arg4) := by
  exact at2_launch m c main_arg4 (by decide) (by decide)
theorem entry2_arg6 (c : Dev nD) : at2 m c main_arg6 = m ((c : Thread nD τ).loc main_arg6) := by
  exact at2_launch m c main_arg6 (by decide) (by decide)
theorem entry2_arg8 (c : Dev nD) : at2 m c main_arg8 = m ((c : Thread nD τ).loc main_arg8) := by
  exact at2_launch m c main_arg8 (by decide) (by decide)
theorem entry2_arg10 (c : Dev nD) : at2 m c main_arg10 = m ((c : Thread nD τ).loc main_arg10) := by
  exact at2_launch m c main_arg10 (by decide) (by decide)
theorem entry2_arg12 (c : Dev nD) : at2 m c main_arg12 = m ((c : Thread nD τ).loc main_arg12) := by
  exact at2_launch m c main_arg12 (by decide) (by decide)
theorem entry2_v0 (c : Dev nD) : at2 m c main_v0 = Gen.V1 m c main_v0 := by
  exact at2_of_ne m c main_v0 (by decide)
theorem entry2_v1 (c : Dev nD) : at2 m c main_v1 = Gen.V1 m c main_v1 := by
  exact at2_of_ne m c main_v1 (by decide)
theorem entry2_v2 (c : Dev nD) : at2 m c main_v2 = Gen.V1 m c main_v2 := by
  exact at2_of_ne m c main_v2 (by decide)
theorem entry2_v3 (c : Dev nD) : at2 m c main_v3 = Gen.V1 m c main_v3 := by
  exact at2_of_ne m c main_v3 (by decide)
theorem entry2_v4 (c : Dev nD) : at2 m c main_v4 = Gen.V1 m c main_v4 := by
  exact at2_of_ne m c main_v4 (by decide)
theorem entry2_v5 (c : Dev nD) : at2 m c main_v5 = Gen.V1 m c main_v5 := by
  exact at2_of_ne m c main_v5 (by decide)
theorem entry2_v6 (c : Dev nD) : at2 m c main_v6 = Gen.V1 m c main_v6 := by
  exact at2_in m c 0 rfl
theorem entry2_v7 (c : Dev nD) : at2 m c main_v7 = (heDat (at1 m) c).arrAt 2 cfg0.N := by
  exact bnd2_arr m c 2
theorem entry1_arg0 (c : Dev nD) : at1 m c main_arg0 = m ((c : Thread nD τ).loc main_arg0) := by
  exact at1_launch m c main_arg0 (by decide)

end Cert.KernelIdeal.Args

end
-- ==== Proof.FrameRun.lean ====
/-
  The kernel program's FRAME (any float instance): every weakly fair execution of @main terminates, nothing
  faulting, with every argument array as launched.  Read over relational proof data: the first region exactly, the
  second with its output window forgotten, so that nothing is asked of what the second body computes from the
  clipped inputs' tails.  The last thread state keeps the second region's arrays at whatever the write-backs may
  leave — an input window's array is never written, so the seven staged arguments are read back as entered — and
  the seven arguments that bypass the region at their entry contents.
-/
import proofs.«181957_g30339648979507_cont_9to1_1753_20_alg».proof.Proof.KernelRun
import proofs.«181957_g30339648979507_cont_9to1_1753_20_alg».proof.Proof.NodeForget
import proofs.«181957_g30339648979507_cont_9to1_1753_20_alg».proof.Proof.KernelArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the first pipeline's exact data, the second's with its output forgotten. -/
def rdats : (p : Fin 2) → (c : Dev nD) → RDat τ (Elt F) Unit ℕ (UR sig nD τ) ℕ (Pipeline.pin (pcfgs (F := F)) Gen.adm p) c
  | ⟨0, _⟩ => fun c => (heDat (at1 m) c).toR
  | ⟨1, _⟩ => fun c => (nodeDat (at2 m) c).toRForget forgetOut

theorem bypass_arg1 (c : Dev nD) : at2 m c main_arg1 = m ((c : Thread nD τ).loc main_arg1) :=
  (bnd2_of_ne m c main_arg1 (by decide)).trans ((Gen.V1_of m c main_arg1 (by decide)).trans rfl)
theorem bypass_arg3 (c : Dev nD) : at2 m c main_arg3 = m ((c : Thread nD τ).loc main_arg3) :=
  (bnd2_of_ne m c main_arg3 (by decide)).trans ((Gen.V1_of m c main_arg3 (by decide)).trans rfl)
theorem bypass_arg5 (c : Dev nD) : at2 m c main_arg5 = m ((c : Thread nD τ).loc main_arg5) :=
  (bnd2_of_ne m c main_arg5 (by decide)).trans ((Gen.V1_of m c main_arg5 (by decide)).trans rfl)
theorem bypass_arg7 (c : Dev nD) : at2 m c main_arg7 = m ((c : Thread nD τ).loc main_arg7) :=
  (bnd2_of_ne m c main_arg7 (by decide)).trans ((Gen.V1_of m c main_arg7 (by decide)).trans rfl)
theorem bypass_arg9 (c : Dev nD) : at2 m c main_arg9 = m ((c : Thread nD τ).loc main_arg9) :=
  (bnd2_of_ne m c main_arg9 (by decide)).trans ((Gen.V1_of m c main_arg9 (by decide)).trans rfl)
theorem bypass_arg11 (c : Dev nD) : at2 m c main_arg11 = m ((c : Thread nD τ).loc main_arg11) :=
  (bnd2_of_ne m c main_arg11 (by decide)).trans ((Gen.V1_of m c main_arg11 (by decide)).trans rfl)
theorem bypass_arg13 (c : Dev nD) : at2 m c main_arg13 = m ((c : Thread nD τ).loc main_arg13) :=
  (bnd2_of_ne m c main_arg13 (by decide)).trans ((Gen.V1_of m c main_arg13 (by decide)).trans rfl)

/-- A staged argument's array holds, after every write-back, what the region found: an input window is never written. -/
theorem staged_unchanged (c : Dev nD) (w : Fin cfg1.W) (hin : (cfg1.win w).isOut = false)
    {G : Buf (Elt F) ((cfg1.win w).arr.view.loc (c.tc : Thread nD τ))} (h : (rdats m 1 c).ArrAt w cfg1.N G) :
    G = at2 m c (Pipeline.arrRef spec1 w) := by
  rw [RDat.ArrAt_in (rdats m 1 c) w hin cfg1.N] at h
  exact h

/-- The last thread state: the second region's arrays at what the write-backs may leave, the bypassing buffers as
    the region found them, the generator register. -/
abbrev frameLast (c : Dev nD) : sProp 𝕄 :=
  iprop((rdats m 1 c).arraysAt cfg1.N
    ∗ Pipeline.unscopedRest (Ix := Unit) (Name := ℕ) (U := UR sig nD τ) (Lvl := ℕ) spec1 c (at2 m c) ∗ ∃ r, prngReg c r)

set_option backward.isDefEq.respectTransparency.types false in
def heSegR : Pipeline.RDat.RegionSeg (pcfgs (F := F)) Gen.adm (rdats m) () defs₀ noVariants noLevels lvl 0 where
  win := launch0.win.to₀
  block_pos := launch0.block_pos
  stage_whole := launch0.stage_whole
  K := PEmpty
  osem k := k.elim
  ho := Pipeline.OwnSemFacts.none _
  hbody c := (he_body_obligation (at1 m) c).toR
  hwaits := Pipeline.RDat.hwaits_of_owed_zero _ _ _ _ noLevels lvl 0 fun _ _ => rfl
  pre c := iprop(StableHlo.held (c : Thread nD τ) (Pipeline.ucRefs τ sig) (bnd1 m c) ∗ beside c)
  post c := iprop(StableHlo.held (c : Thread nD τ) (Pipeline.ucRefs τ sig) (bnd2 m c) ∗ beside c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.RDat.arrays_of_unscopedBufs (p := 0) (pcfgs (F := F)) Gen.adm (rdats m) launch0.win launch0.arr_whole c
      ((rdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((heDat (at1 m) c).arrays ((heDat (at1 m) c).arrAt · cfg0.N)
          ∗ Pipeline.unscopedRest (Ix := Unit) (Name := ℕ) (U := UR sig nD τ) (Lvl := ℕ) spec0 c (at1 m c))
        ⊢ (unscopedBufs c (at2 m c) : sProp 𝕄) :=
      Pipeline.unscopedBufs_of_arrays (p := 0) (pcfgs (F := F)) Gen.adm (Ix := Unit) (Name := ℕ) (U := UR sig nD τ) (Lvl := ℕ)
        launch0.win launch0.arr_whole c (pdats m) ((pdats m 0 c).share_full fun _ => rfl)
        (at1 m c) (at2 m c) ((pdats m 0 c).arrAt · cfg0.N) (heFinal m c) (heRest m c)
    rw [Pipeline.unscopedBufs_held] at hjoin
    rw [show (rdats m 0 c).arraysAt (Pipeline.pin (pcfgs (F := F)) Gen.adm 0).N = (heDat (at1 m) c).toR.arraysAt cfg0.N from rfl,
      (heDat (at1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
def nodeSegR : Pipeline.RDat.RegionSeg (pcfgs (F := F)) Gen.adm (rdats m) () defs₀ noVariants noLevels lvl 1 where
  win := launch1.win.to₀
  block_pos := launch1.block_pos
  stage_whole := launch1.stage_whole
  K := PEmpty
  osem k := k.elim
  ho := Pipeline.OwnSemFacts.none _
  hbody c := (node_frame_obligation (at2 m) c).toRForget
  hwaits := Pipeline.RDat.hwaits_of_owed_zero _ _ _ _ noLevels lvl 1 fun _ _ => rfl
  pre c := iprop(StableHlo.held (c : Thread nD τ) (Pipeline.ucRefs τ sig) (bnd2 m c) ∗ beside c)
  post c := iprop(frameLast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [Pipeline.ownSems0_none]
    have hsplit := Pipeline.RDat.arrays_of_unscopedBufs (p := 1) (pcfgs (F := F)) Gen.adm (rdats m) launch1.win launch1.arr_whole c
      ((rdats m 1 c).share_full fun _ => rfl) (at2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = nodeInv (at2 m) c 0 from rfl,
      show (Pipeline.scopedRest (Pipeline.pin (pcfgs (F := F)) Gen.adm 1).spec c : sProp 𝕄) = Pipeline.scopedRest spec1 c from rfl, scopedRest1_eq]
    unfold nodeInv scrHeld idleStaging
    rw [if_pos (show ((0 : Fin (cfg1.N + 1))).val = 0 from rfl)]
    iintro ⟨Hp, -, ⟨H1, H2, H3, H4, H5, Hs0, Hs1⟩⟩
    isplitl [H1 H2 H3 H4 H5]
    · isplitl [H1]; · iexact H1
      isplitl [H2]; · iexact H2
      isplitl [H3]; · iexact H3
      isplitl [H4]; · iexact H4
      iexact H5
    isplitl [Hs0 Hs1]
    · isplitl [Hs0]; · iexact Hs0
      iexact Hs1
    iexact Hp
  hout c := by
    rw [Pipeline.ownSems0_none, show (rdats m 1 c).Φ (Fin.last _) = nodeInv (at2 m) c (Fin.last _) from rfl,
      show (Pipeline.scopedRest (Pipeline.pin (pcfgs (F := F)) Gen.adm 1).spec c : sProp 𝕄) = Pipeline.scopedRest spec1 c from rfl, scopedRest1_eq]
    unfold nodeInv scrHeld idleStaging
    rw [if_neg (show ¬ (Fin.last cfg1.N).val = 0 from by decide)]
    iintro ⟨⟨H1, H2, H3, H4, H5⟩, ⟨Hs0, Hs1⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [Hs0]
    · iexists (attVal (at2 m) c); rw [← owns_whole (c : Thread nD τ) cc1_scratch0 fullShare]; iexact Hs0
    iexists (knVal (at2 m) c); rw [← owns_whole (c : Thread nD τ) cc1_scratch1 fullShare]; iexact Hs1
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

abbrev frameSegs : List (Pipeline.RDat.Seg (pcfgs (F := F)) Gen.adm (rdats m) () defs₀ noVariants noLevels lvl) :=
  [ .host (hostSeg m), .region (heSegR m), .region (nodeSegR m) ]

theorem main_is_frameSegs (c : Dev nD) : main (F := F) c = Pipeline.RDat.Seg.run (frameSegs m) :=
  (main_chain c).trans (by chain_rfl)

set_option backward.isDefEq.respectTransparency.types false in
/-- THE FRAME, at any float instance. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) Gen.adm (rdats m) () cellOf_inj emb₁ defs₀ noVariants noLevels lvl m ρ main (frameSegs m)
    (fun c Q => by rw [main_is_frameSegs m c])
    (by simp only [frameSegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ beside c)) (Tₙ := frameLast m)
    (hch := ⟨fun _ => .rfl, fun _ => .rfl, fun _ => .rfl, fun _ => .rfl⟩)
    (hinit := by
      refine Pipeline.initEach noLevels lvl fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13))
    (hfin := fun c s' => by
      dsimp only [frameLast]
      rw [unscopedRest1_eq]
      iintro ⟨⟨Ha, ⟨H1, H3, H5, H7, H9, H11, H13⟩, -⟩, HSI⟩
      icombine HSI H1 gives %h1
      icombine HSI H3 gives %h3
      icombine HSI H5 gives %h5
      icombine HSI H7 gives %h7
      icombine HSI H9 gives %h9
      icombine HSI H11 gives %h11
      icombine HSI H13 gives %h13
      ihave Hr := (Pipeline.RDat.arrays_read (p := 1) (pcfgs (F := F)) Gen.adm (rdats m) launch1.arr_whole c cfg1.N s') $$ [Ha HSI]
      · isplitl [Ha] <;> iassumption
      icases Hr with ⟨%ha, HSI⟩
      imodintro
      isplitr
      · ipureintro
        exact ⟨(staged_unchanged m c 9 rfl (ha 9)).trans (Args.entry2_arg0 m c),
        (Buf.eq_of_forall_mem_univ h1).trans (bypass_arg1 m c),
        (staged_unchanged m c 1 rfl (ha 1)).trans (Args.entry2_arg2 m c),
        (Buf.eq_of_forall_mem_univ h3).trans (bypass_arg3 m c),
        (staged_unchanged m c 3 rfl (ha 3)).trans (Args.entry2_arg4 m c),
        (Buf.eq_of_forall_mem_univ h5).trans (bypass_arg5 m c),
        (staged_unchanged m c 5 rfl (ha 5)).trans (Args.entry2_arg6 m c),
        (Buf.eq_of_forall_mem_univ h7).trans (bypass_arg7 m c),
        (staged_unchanged m c 11 rfl (ha 11)).trans (Args.entry2_arg8 m c),
        (Buf.eq_of_forall_mem_univ h9).trans (bypass_arg9 m c),
        (staged_unchanged m c 7 rfl (ha 7)).trans (Args.entry2_arg10 m c),
        (Buf.eq_of_forall_mem_univ h11).trans (bypass_arg11 m c),
        (staged_unchanged m c 13 rfl (ha 13)).trans (Args.entry2_arg12 m c),
        (Buf.eq_of_forall_mem_univ h13).trans (bypass_arg13 m c)⟩
      iexact HSI)
    (hQ := fun _ h => h)

end Cert.KernelIdeal.Hand

end
-- ==== Proof.Spec.lean ====
/-
  What the kernel and its reference both compute, over the extended reals, on matrices indexed by finite types.

  X : 10000 x 256 node features, H : 10000 x 2000 incidence weights, six 256 x 256 weights with their biases.
    hyperedge features     he[e,f]   = sum_n H[n,e] X[n,f]
    projections            proj A W b [r,j] = sum_t A[r,t] W[t,j] + b[j]
    hyperedge attention    att[e,h]  = sum_j softmax_j( (q[e,.] . k[j,.]) / 16 ) v[j,h]      (q, k, v projections of he)
    node keys              kn = proj att Wnk bnk
    one node's output row  out[n,.]  from the node's features x = X[n,.] and incidence row H[n,.] only:
        qn = x Wnq + bnq;  w = softmax_e( (kn[e,.] . qn) / 16 );  agg[h] = sum_e att[e,h] (H[n,e] w[e]);  out = agg Wt + bt
  The softmax subtracts the maximum (a fold of max from the bottom element) before the exponential, and divides
  by the plain sum of the exponentials.  Products are written in the order the kernel multiplies them.
-/
import Idealize.ShloMosaic.PureOps.Ideal
import Idealize.ShloMosaic.Lib.ValueIdx

noncomputable section

namespace Cert.Spec

open Idealize.ShloMosaic

/-- A rank-two array read by row and column; a one-row array read by column; a vector read by position. -/
def mat {a b : Nat} (x : (⟨2, ![a, b]⟩ : Shape).Idx → EReal) : Fin a → Fin b → EReal := fun i j => x (ValueIdx.ix2 i j)
def row {b : Nat} (x : (⟨2, ![1, b]⟩ : Shape).Idx → EReal) : Fin b → EReal := fun j => x (ValueIdx.ix2 (0 : Fin 1) j)
def vec {b : Nat} (x : (⟨1, ![b]⟩ : Shape).Idx → EReal) : Fin b → EReal := fun j => x (ValueIdx.ix1 j)

/-- One over the square root of 256. -/
def sixteenth : EReal := ((1 / 16 : ℝ) : EReal)

/-- The softmax of a finite family of scores. -/
def softmax {n : Nat} (s : Fin n → EReal) (j : Fin n) : EReal :=
  Ideal.div (Ideal.exp (s j - Finset.univ.fold max ⊥ s)) (∑ k : Fin n, Ideal.exp (s k - Finset.univ.fold max ⊥ s))

/-- A linear layer: rows of `A` times `W`, plus the bias. -/
def proj {R : Type} (A : R → Fin 256 → EReal) (W : Fin 256 → Fin 256 → EReal) (b : Fin 256 → EReal) (r : R) (j : Fin 256) : EReal :=
  (∑ t : Fin 256, A r t * W t j) + b j

/-- Hyperedge features from the transposed incidence matrix and the node features. -/
def hedge (HT : Fin 2000 → Fin 10000 → EReal) (X : Fin 10000 → Fin 256 → EReal) (e : Fin 2000) (f : Fin 256) : EReal :=
  ∑ n : Fin 10000, HT e n * X n f

/-- Attention among the hyperedges. -/
def eatt (he : Fin 2000 → Fin 256 → EReal) (Wq : Fin 256 → Fin 256 → EReal) (bq : Fin 256 → EReal)
    (Wk : Fin 256 → Fin 256 → EReal) (bk : Fin 256 → EReal) (Wv : Fin 256 → Fin 256 → EReal) (bv : Fin 256 → EReal)
    (e : Fin 2000) (h : Fin 256) : EReal :=
  ∑ j : Fin 2000, softmax (fun j' => (∑ t : Fin 256, proj he Wq bq e t * proj he Wk bk j' t) * sixteenth) j * proj he Wv bv j h

/-- One node's output row, from its feature row `x`, its incidence row `inc`, the node keys and the attention. -/
def nodeRow (x : Fin 256 → EReal) (inc : Fin 2000 → EReal) (kn att : Fin 2000 → Fin 256 → EReal)
    (Wnq : Fin 256 → Fin 256 → EReal) (bnq : Fin 256 → EReal) (Wt : Fin 256 → Fin 256 → EReal) (bt : Fin 256 → EReal)
    (j : Fin 256) : EReal :=
  (∑ h : Fin 256,
      (∑ e : Fin 2000, att e h *
        (inc e * softmax (fun e' => (∑ t : Fin 256, kn e' t * ((∑ u : Fin 256, x u * Wnq u t) + bnq t)) * sixteenth) e))
      * Wt h j) + bt j

/-- The whole result, node by node. -/
def out (X : Fin 10000 → Fin 256 → EReal) (H : Fin 10000 → Fin 2000 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (Wnq : Fin 256 → Fin 256 → EReal) (bnq : Fin 256 → EReal)
    (Wnk : Fin 256 → Fin 256 → EReal) (bnk : Fin 256 → EReal) (Wt : Fin 256 → Fin 256 → EReal) (bt : Fin 256 → EReal)
    (n : Fin 10000) (j : Fin 256) : EReal :=
  nodeRow (X n) (H n)
    (proj (eatt (hedge (fun e n' => H n' e) X) Wq bq Wk bk Wv bv) Wnk bnk)
    (eatt (hedge (fun e n' => H n' e) X) Wq bq Wk bk Wv bv) Wnq bnq Wt bt j

end Cert.Spec

end
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.KernelMathA.lean ====
/-
  The first call's product and the first grid point's payloads of the second call, read at an index at the exact
  instance, as the specification's functions of what the body loaded.
-/
import proofs.«181957_g30339648979507_cont_9to1_1753_20_alg».proof.Proof.Gen.KernelIdeal.Skeleton
import proofs.«181957_g30339648979507_cont_9to1_1753_20_alg».proof.Proof.Spec
import proofs.«181957_g30339648979507_cont_9to1_1753_20_alg».proof.Proof.LibContract
import proofs.«181957_g30339648979507_cont_9to1_1753_20_alg».proof.Proof.LibDense
import proofs.«181957_g30339648979507_cont_9to1_1753_20_alg».proof.Proof.LibKeepdims
import proofs.«181957_g30339648979507_cont_9to1_1753_20_alg».proof.Proof.LibExtReal
import Idealize.ShloMosaic.PureOps.Ideal.Laws
import Idealize.ShloMosaic.Lib.Pipeline.Value
import Idealize.ShloMosaic.Lib.ValueLayout

noncomputable section

namespace Cert.KernelIdeal.MathA

open Cert.KernelIdeal Cert.KernelIdeal.Gen Cert.Spec
open Idealize.ShloMosaic Idealize.ShloMosaic.ValueIdx

/-- A [400, 10000] by [10000, 256] product into the zero accumulator, at (a, b): the textbook entry. -/
theorem prod_400_apply (l : FVec Ideal S400x10000 .f32) (r : FVec Ideal S10000x256 .f32) (a : Fin 400) (b : Fin 256) :
    FloatOps.matmul dot_S400x10000_S10000x256_S400x256_1_0_0_1_n_n none l r (constant S400x256 .f32 0x00000000#32) (ix2 a b)
      = ∑ k : Fin 10000, l (ix2 a k) * r (ix2 k b) :=
  LibDense.matmul_zero_plain dot_S400x10000_S10000x256_S400x256_1_0_0_1_n_n none rfl rfl
    (fun j q => by
      unfold DotDims.lhsIdx
      rw [dif_neg (show ¬(0 : Fin S400x10000.rank) ∈ dot_S400x10000_S10000x256_S400x256_1_0_0_1_n_n.lhsBatch by decide),
        dif_pos (show (0 : Fin S400x10000.rank) ∈ dot_S400x10000_S10000x256_S400x256_1_0_0_1_n_n.lhsNonContracting by decide)]
      rfl)
    (fun j q => dot_S400x10000_S10000x256_S400x256_1_0_0_1_n_n.lhsIdx_val_of_single rfl j q)
    (fun j q => dot_S400x10000_S10000x256_S400x256_1_0_0_1_n_n.rhsIdx_val_of_single rfl j q)
    (fun j q => by
      unfold DotDims.rhsIdx
      rw [dif_neg (show ¬(1 : Fin S10000x256.rank) ∈ dot_S400x10000_S10000x256_S400x256_1_0_0_1_n_n.rhsBatch by decide),
        dif_pos (show (1 : Fin S10000x256.rank) ∈ dot_S400x10000_S10000x256_S400x256_1_0_0_1_n_n.rhsNonContracting by decide)]
      rfl)
    l r a b

/-- A [2000, 256] by [256, 256] product into the zero accumulator, at (a, b): the textbook entry. -/
theorem prod_256_apply (l : FVec Ideal S2000x256 .f32) (r : FVec Ideal S256x256 .f32) (a : Fin 2000) (b : Fin 256) :
    FloatOps.matmul dot_S2000x256_S256x256_S2000x256_1_0_0_1_n_n none l r (constant S2000x256 .f32 0x00000000#32) (ix2 a b)
      = ∑ k : Fin 256, l (ix2 a k) * r (ix2 k b) :=
  LibDense.matmul_zero_plain dot_S2000x256_S256x256_S2000x256_1_0_0_1_n_n none rfl rfl
    (fun j q => by
      unfold DotDims.lhsIdx
      rw [dif_neg (show ¬(0 : Fin S2000x256.rank) ∈ dot_S2000x256_S256x256_S2000x256_1_0_0_1_n_n.lhsBatch by decide),
        dif_pos (show (0 : Fin S2000x256.rank) ∈ dot_S2000x256_S256x256_S2000x256_1_0_0_1_n_n.lhsNonContracting by decide)]
      rfl)
    (fun j q => dot_S2000x256_S256x256_S2000x256_1_0_0_1_n_n.lhsIdx_val_of_single rfl j q)
    (fun j q => dot_S2000x256_S256x256_S2000x256_1_0_0_1_n_n.rhsIdx_val_of_single rfl j q)
    (fun j q => by
      unfold DotDims.rhsIdx
      rw [dif_neg (show ¬(1 : Fin S256x256.rank) ∈ dot_S2000x256_S256x256_S2000x256_1_0_0_1_n_n.rhsBatch by decide),
        dif_pos (show (1 : Fin S256x256.rank) ∈ dot_S2000x256_S256x256_S2000x256_1_0_0_1_n_n.rhsNonContracting by decide)]
      rfl)
    l r a b

/-- A [2000, 2000] by [2000, 256] product into the zero accumulator, at (a, b): the textbook entry. -/
theorem prod_2000_apply (l : FVec Ideal S2000x2000 .f32) (r : FVec Ideal S2000x256 .f32) (a : Fin 2000) (b : Fin 256) :
    FloatOps.matmul dot_S2000x2000_S2000x256_S2000x256_1_0_0_1_n_n none l r (constant S2000x256 .f32 0x00000000#32) (ix2 a b)
      = ∑ k : Fin 2000, l (ix2 a k) * r (ix2 k b) :=
  LibDense.matmul_zero_plain dot_S2000x2000_S2000x256_S2000x256_1_0_0_1_n_n none rfl rfl
    (fun j q => by
      unfold DotDims.lhsIdx
      rw [dif_neg (show ¬(0 : Fin S2000x2000.rank) ∈ dot_S2000x2000_S2000x256_S2000x256_1_0_0_1_n_n.lhsBatch by decide),
        dif_pos (show (0 : Fin S2000x2000.rank) ∈ dot_S2000x2000_S2000x256_S2000x256_1_0_0_1_n_n.lhsNonContracting by decide)]
      rfl)
    (fun j q => dot_S2000x2000_S2000x256_S2000x256_1_0_0_1_n_n.lhsIdx_val_of_single rfl j q)
    (fun j q => dot_S2000x2000_S2000x256_S2000x256_1_0_0_1_n_n.rhsIdx_val_of_single rfl j q)
    (fun j q => by
      unfold DotDims.rhsIdx
      rw [dif_neg (show ¬(1 : Fin S2000x256.rank) ∈ dot_S2000x2000_S2000x256_S2000x256_1_0_0_1_n_n.rhsBatch by decide),
        dif_pos (show (1 : Fin S2000x256.rank) ∈ dot_S2000x2000_S2000x256_S2000x256_1_0_0_1_n_n.rhsNonContracting by decide)]
      rfl)
    l r a b

/-- A linear layer at (r, c): the row of `x` against the column of `w`, plus the bias row's entry. -/
theorem lin_apply (x : FVec Ideal S2000x256 .f32) (w : FVec Ideal S256x256 .f32) (b : FVec Ideal S1x256 .f32)
    (r : Fin 2000) (c : Fin 256) :
    addf (matmul dot_S2000x256_S256x256_S2000x256_1_0_0_1_n_n none x w (constant S2000x256 .f32 0x00000000#32))
      (broadcastTo S2000x256 b broadcasts_S1x256_S2000x256) (ix2 r c)
      = proj (mat x) (mat w) (row b) r c := by
  rw [addf_apply, broadcastTo_1b_ab_apply]
  refine congrArg (· + b (ix2 (0 : Fin 1) c)) ?_
  exact prod_256_apply x w r c

/-! ### The score product: both operands contracted over their columns -/

theorem score_lhs0 (i : S2000x2000.Idx) (q : dot_S2000x256_S2000x256_S2000x2000_1_1_0_0_n_n.contr.Idx) :
    (dot_S2000x256_S2000x256_S2000x2000_1_1_0_0_n_n.lhsIdx i q 0).val = (i 0).val := by
  unfold DotDims.lhsIdx
  rw [dif_neg (show ¬(0 : Fin S2000x256.rank) ∈ dot_S2000x256_S2000x256_S2000x2000_1_1_0_0_n_n.lhsBatch by decide),
    dif_pos (show (0 : Fin S2000x256.rank) ∈ dot_S2000x256_S2000x256_S2000x2000_1_1_0_0_n_n.lhsNonContracting by decide)]
  rfl
theorem score_lhs1 (i : S2000x2000.Idx) (q : dot_S2000x256_S2000x256_S2000x2000_1_1_0_0_n_n.contr.Idx) :
    (dot_S2000x256_S2000x256_S2000x2000_1_1_0_0_n_n.lhsIdx i q 1).val = (q ⟨0, by decide⟩).val :=
  dot_S2000x256_S2000x256_S2000x2000_1_1_0_0_n_n.lhsIdx_val_of_single rfl i q
theorem score_rhs0 (i : S2000x2000.Idx) (q : dot_S2000x256_S2000x256_S2000x2000_1_1_0_0_n_n.contr.Idx) :
    (dot_S2000x256_S2000x256_S2000x2000_1_1_0_0_n_n.rhsIdx i q 0).val = (i 1).val := by
  unfold DotDims.rhsIdx
  rw [dif_neg (show ¬(0 : Fin S2000x256.rank) ∈ dot_S2000x256_S2000x256_S2000x2000_1_1_0_0_n_n.rhsBatch by decide),
    dif_pos (show (0 : Fin S2000x256.rank) ∈ dot_S2000x256_S2000x256_S2000x2000_1_1_0_0_n_n.rhsNonContracting by decide)]
  rfl
theorem score_rhs1 (i : S2000x2000.Idx) (q : dot_S2000x256_S2000x256_S2000x2000_1_1_0_0_n_n.contr.Idx) :
    (dot_S2000x256_S2000x256_S2000x2000_1_1_0_0_n_n.rhsIdx i q 1).val = (q ⟨0, by decide⟩).val :=
  dot_S2000x256_S2000x256_S2000x2000_1_1_0_0_n_n.rhsIdx_val_of_single rfl i q

/-- Entry (i, j) of the score product is the sum over t of l(i, t) r(j, t): the rows of the two operands against each other. -/
theorem score_apply (l r : FVec Ideal S2000x256 .f32) (i j : Fin 2000) :
    matmul dot_S2000x256_S2000x256_S2000x2000_1_1_0_0_n_n none l r (constant S2000x2000 .f32 0x00000000#32) (ix2 i j)
      = ∑ t : Fin 256, l (ix2 i t) * r (ix2 j t) :=
  LibContract.matmul_zero_entry dot_S2000x256_S2000x256_S2000x2000_1_1_0_0_n_n none 256 rfl rfl l r (ix2 i j) (fun t => ix2 i t) (fun t => ix2 j t)
    (fun k => funext fun a => Fin.ext (by
      have hk := contrEquiv1_symm_val dot_S2000x256_S2000x256_S2000x2000_1_1_0_0_n_n 256 rfl rfl k
      match a with
      | ⟨0, _⟩ => exact score_lhs0 _ _
      | ⟨1, _⟩ => exact (score_lhs1 _ _).trans hk))
    (fun k => funext fun a => Fin.ext (by
      have hk := contrEquiv1_symm_val dot_S2000x256_S2000x256_S2000x2000_1_1_0_0_n_n 256 rfl rfl k
      match a with
      | ⟨0, _⟩ => exact score_rhs0 _ _
      | ⟨1, _⟩ => exact (score_rhs1 _ _).trans hk))

/-- The word 0x3D800000 is one sixteenth. -/
theorem sixteenth_word : Ideal.ofBits .f32 0x3D800000#32 = sixteenth := by
  unfold sixteenth
  simp [Ideal.ofBits, Ideal.ieee, -EReal.coe_mul]; norm_num

/-- The word 0xFF800000 is the bottom element. -/
theorem bot_word : Ideal.ofBits .f32 0xFF800000#32 = ⊥ := by simp [Ideal.ofBits, Ideal.ieee]

/-! ### A row softmax read at (i, j) -/

/-- Over row `i` of a [2000, 2000] array, the index with `k` put on the reduced axis is (i, k). -/
theorem lift_row (i k : Fin 2000) : reduces_S2000x2000_S2000.lift (ix1 i) k = ix2 i k := by
  funext c
  match c with
  | ⟨0, _⟩ => exact Fin.ext rfl
  | ⟨1, _⟩ => exact Fin.ext rfl

/-- A vector of row statistics kept as a column and broadcast back along the rows. -/
abbrev keepRow (v : FVec Ideal S2000 .f32) : FVec Ideal S2000x2000 .f32 :=
  broadcastTo S2000x2000 (shapeCast S2000x1 v shapeCasts_S2000_S2000x1) broadcasts_S2000x1_S2000x2000

/-- The row maxima, from the bottom element. -/
abbrev rowMax (x : FVec Ideal S2000x2000 .f32) : FVec Ideal S2000 .f32 :=
  multiReduction .maximumf [1] S2000 x 0xFF800000#32 reduces_S2000x2000_S2000 (.inl rfl) rfl

/-- The row sums, from zero. -/
abbrev rowSum (y : FVec Ideal S2000x2000 .f32) : FVec Ideal S2000 .f32 :=
  multiReduction .add [1] S2000 y 0x00000000#32 reduces_S2000x2000_S2000 (.inl rfl) rfl

/-- The softmax of each row: subtract the row's maximum, exponentiate, divide by the row's sum. -/
abbrev rowSoftmax (x : FVec Ideal S2000x2000 .f32) : FVec Ideal S2000x2000 .f32 :=
  divf (exp (subf x (keepRow (rowMax x)))) (keepRow (rowSum (exp (subf x (keepRow (rowMax x))))))

theorem keepRow_apply (v : FVec Ideal S2000 .f32) (i j : Fin 2000) : keepRow v (ix2 i j) = v (ix1 i) :=
  (LibKeepdims.broadcastTo_a1_ab_apply _ broadcasts_S2000x1_S2000x2000 i j).trans
    (LibKeepdims.shapeCast_a_a1_apply v shapeCasts_S2000_S2000x1 i (0 : Fin 1))

theorem rowMax_apply (x : FVec Ideal S2000x2000 .f32) (i : Fin 2000) :
    rowMax x (ix1 i) = Finset.univ.fold max ⊥ (fun k : Fin 2000 => x (ix2 i k)) := by
  refine (Ideal.multiReduction_maximumf_single x 0xFF800000#32 reduces_S2000x2000_S2000 (.inl rfl) rfl (ix1 i)).trans ?_
  have hf : (x ∘ reduces_S2000x2000_S2000.lift (ix1 i)) = fun k : Fin 2000 => x (ix2 i k) :=
    funext fun k => congrArg x (lift_row i k)
  exact congrArg₂ (fun (b : EReal) (f : Fin 2000 → EReal) => (Finset.univ : Finset (Fin 2000)).fold max b f) bot_word hf

theorem rowSum_apply (y : FVec Ideal S2000x2000 .f32) (i : Fin 2000) :
    rowSum y (ix1 i) = ∑ k : Fin 2000, y (ix2 i k) := by
  refine (Ideal.multiReduction_add_single y 0x00000000#32 reduces_S2000x2000_S2000 (.inl rfl) rfl (ix1 i)).trans ?_
  exact Finset.sum_congr rfl fun k _ => congrArg y (lift_row i k)

/-- A row softmax read at (i, j) is the softmax of row `i` at `j`. -/
theorem rowSoftmax_apply (x : FVec Ideal S2000x2000 .f32) (i j : Fin 2000) :
    rowSoftmax x (ix2 i j) = softmax (fun k : Fin 2000 => x (ix2 i k)) j := by
  have he : ∀ k : Fin 2000, exp (subf x (keepRow (rowMax x))) (ix2 i k)
      = Ideal.exp (x (ix2 i k) - Finset.univ.fold max ⊥ (fun k' : Fin 2000 => x (ix2 i k'))) := fun k => by
    show Ideal.exp (x (ix2 i k) - keepRow (rowMax x) (ix2 i k)) = _
    rw [keepRow_apply, rowMax_apply]
  show Ideal.div (exp (subf x (keepRow (rowMax x))) (ix2 i j))
      (keepRow (rowSum (exp (subf x (keepRow (rowMax x))))) (ix2 i j)) = _
  rw [keepRow_apply, rowSum_apply, he j]
  unfold softmax
  exact congrArg (Ideal.div _) (Finset.sum_congr rfl fun k _ => he k)

/-- The first call's product block: entry (e, f) is the sum over the 10000 nodes. -/
theorem he_pay_apply (inc : Vec Ideal S400x10000 .f32) (feat : Vec Ideal S10000x256 .f32) (e : Fin 400) (f : Fin 256) :
    k0_pay1 (F := Ideal) inc feat (ix2 e f) = ∑ n : Fin 10000, mat inc e n * mat feat n f := by
  unfold k0_pay1
  rw [shapeCast_self]
  exact prod_400_apply inc feat e f

/-- The hyperedge attention payload. -/
theorem att_pay_apply (he : Vec Ideal S2000x256 .f32) (wq : Vec Ideal S256x256 .f32) (bq : Vec Ideal S1x256 .f32)
    (wk : Vec Ideal S256x256 .f32) (bk : Vec Ideal S1x256 .f32) (wv : Vec Ideal S256x256 .f32) (bv : Vec Ideal S1x256 .f32)
    (e : Fin 2000) (h : Fin 256) :
    k1_pay2 (F := Ideal) he wq bq wk bk wv bv (ix2 e h)
      = eatt (mat he) (mat wq) (row bq) (mat wk) (row bk) (mat wv) (row bv) e h := by
  unfold k1_pay2
  simp only [shapeCast_self]
  refine (prod_2000_apply _ _ e h).trans ?_
  unfold eatt
  refine Finset.sum_congr rfl fun j _ => ?_
  refine congrArg₂ (· * ·) ?_ (lin_apply he wv bv j h)
  refine (rowSoftmax_apply _ e j).trans ?_
  refine congrArg (fun s => softmax s j) (funext fun j' => ?_)
  show matmul dot_S2000x256_S2000x256_S2000x2000_1_1_0_0_n_n none _ _ _ (ix2 e j') * Ideal.ofBits .f32 0x3D800000#32 = _
  rw [sixteenth_word, score_apply]
  refine congrArg (· * sixteenth) (Finset.sum_congr rfl fun t _ => ?_)
  rw [lin_apply, lin_apply]

/-- What the first scratch buffer is given: the attention transposed (narrowing is the identity here). -/
theorem attT_pay_apply (he : Vec Ideal S2000x256 .f32) (wq : Vec Ideal S256x256 .f32) (bq : Vec Ideal S1x256 .f32)
    (wk : Vec Ideal S256x256 .f32) (bk : Vec Ideal S1x256 .f32) (wv : Vec Ideal S256x256 .f32) (bv : Vec Ideal S1x256 .f32)
    (h : Fin 256) (e : Fin 2000) :
    k1_pay4 (k1_pay3 (F := Ideal) he wq bq wk bk wv bv) (ix2 h e)
      = eatt (mat he) (mat wq) (row bq) (mat wk) (row bk) (mat wv) (row bv) e h := by
  unfold k1_pay4
  rw [shapeCast_self]
  unfold k1_pay3
  refine (truncf_apply (ψ := .bf16) _ bitsLt_bf16_f32 (ix2 h e)).trans ?_
  refine (transpose_ix2_apply _ _ h e).trans ?_
  exact att_pay_apply he wq bq wk bk wv bv e h

/-- What the second scratch buffer is given: the node keys. -/
theorem kn_pay_apply (att : FVec Ideal S2000x256 .f32) (wnk : Vec Ideal S256x256 .f32) (bnk : Vec Ideal S1x256 .f32)
    (e : Fin 2000) (h : Fin 256) :
    k1_pay5 (F := Ideal) att wnk bnk (ix2 e h) = proj (mat att) (mat wnk) (row bnk) e h := by
  unfold k1_pay5
  rw [shapeCast_self, shapeCast_self]
  exact lin_apply att wnk bnk e h

end Cert.KernelIdeal.MathA

end
-- ==== Proof.HeFinal.lean ====
/-
  The first pallas_call's result array after its five write-backs, at the exact instance, as ONE function of the
  arrays the region finds: entry (e, f) is the sum over the 10000 nodes of the transposed incidence weight times the
  node feature.  Each point's block is the restriction of that function (rows 400 t .. 400 t + 399), and the five
  blocks cover the array.
-/
import proofs.«181957_g30339648979507_cont_9to1_1753_20_alg».proof.Proof.HeRegion
import proofs.«181957_g30339648979507_cont_9to1_1753_20_alg».proof.Proof.KernelMathA
import Idealize.ShloMosaic.Lib.Pipeline.Value

set_option maxRecDepth 16384

noncomputable section

namespace Cert.KernelIdeal.HeFinal

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The hyperedge features as one array. -/
def heArr (ht : S2000x10000.Idx → EReal) (x : S10000x256.Idx → EReal) : S2000x256.Idx → EReal :=
  fun i => hedge (mat ht) (mat x) (i 0) (i 1)

/-- The printed index maps over the grid: the incidence window and the product window sit at row block `t`,
    column block 0; the feature window never moves. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a point's product block is the entry of the whole-array function at the row the block's
    rectangle puts it on: the incidence block holds rows 400 r .. 400 r + 399 of the transposed incidence
    matrix, the feature block the whole feature matrix. -/
theorem he_point (inc : Vec Ideal S400x10000 .f32) (feat : Vec Ideal S10000x256 .f32)
    (ht : S2000x10000.Idx → EReal) (x : S10000x256.Idx → EReal) (r : ℕ) (y : S400x256.Idx) (i : S2000x256.Idx)
    (hinc : ∀ (p : Fin 400) (n : Fin 10000) (k : S2000x10000.Idx), (k 0).val = r * 400 + p.val → (k 1).val = n.val →
      inc (ix2 p n) = ht k)
    (hfeat : ∀ (n : Fin 10000) (q : Fin 256), feat (ix2 n q) = x (ix2 n q))
    (hi0 : (i 0).val = r * 400 + (y 0).val) (hi1 : (i 1).val = (y 1).val) :
    heOut inc feat y = heArr ht x i := by
  obtain ⟨p, q, rfl⟩ : ∃ (p : Fin 400) (q : Fin 256), y = ix2 p q := ⟨y 0, y 1, eq_ix2 y⟩
  show k0_pay1 (F := Ideal) inc feat (ix2 p q) = hedge (mat ht) (mat x) (i 0) (i 1)
  rw [MathA.he_pay_apply]
  unfold hedge
  have hq : (i 1 : Fin 256) = q := Fin.ext hi1
  refine Finset.sum_congr rfl fun n _ => ?_
  refine congrArg₂ (· * ·) ?_ ?_
  · exact hinc p n (ix2 (i 0) n) hi0 rfl
  · show feat (ix2 n q) = x (ix2 n (i 1))
    rw [hq]
    exact hfeat n q

/-- What point `t` writes back is block `t` of the whole-array function of the two arrays the region finds. -/
theorem he_flushed_eq (c : Dev nD) (t : Fin cfg0.N) :
    (heDat (F := Ideal) V c).flushed 2 t
      = ((cfg0.win 2).blk t).view.read (Elt Ideal) (heArr (V c main_v6) (V c main_arg0)) := by
  show (cfg0.win 2).cut (grid0.coords t) ((heDat (F := Ideal) V c).after 2 t) = _
  rw [heDat_after2]
  obtain ⟨a0, a1, b0, b1, c0, c1⟩ := idx_facts t
  funext j
  show heOut (heBlk V c 0 t) (heBlk V c 1 t) j
    = heArr (V c main_v6) (V c main_arg0) (((cfg0.win 2).blk t).view.emb j)
  refine he_point _ _ _ _ t.val j _ (fun p n k hk0 hk1 => ?_) (fun n q => ?_) ?_ ?_
  · show V c main_v6 (((cfg0.win 0).blk t).view.emb (ix2 p n)) = V c main_v6 k
    refine congrArg _ (funext fun a => Fin.ext ?_)
    match a with
    | ⟨0, _⟩ => show win0_0.index t (0 : Fin 2) * 400 + 1 * p.val = (k 0).val; omega
    | ⟨1, _⟩ => show win0_0.index t (1 : Fin 2) * 10000 + 1 * n.val = (k 1).val; omega
  · show V c main_arg0 (((cfg0.win 1).blk t).view.emb (ix2 n q)) = V c main_arg0 (ix2 n q)
    refine congrArg _ (funext fun a => Fin.ext ?_)
    match a with
    | ⟨0, _⟩ => show win0_1.index t (0 : Fin 2) * 10000 + 1 * n.val = n.val; omega
    | ⟨1, _⟩ => show win0_1.index t (1 : Fin 2) * 256 + 1 * q.val = q.val; omega
  · show win0_2.index t (0 : Fin 2) * 400 + 1 * (j 0).val = t.val * 400 + (j 0).val; omega
  · show win0_2.index t (1 : Fin 2) * 256 + 1 * (j 1).val = (j 1).val; omega

/-- An index of the product array is in point `t`'s block iff each coordinate is in the block's range on its axis. -/
theorem mem_blk (t : Fin cfg0.N) (i : S2000x256.Idx) :
    i ∈ ((cfg0.win 2).blk t).view.set ↔ ∀ a : Fin 2, win0_2.index t a * S400x256.size a ≤ (i a).val
      ∧ (i a).val < win0_2.index t a * S400x256.size a + S400x256.size a := by
  show i ∈ ((View.whole main_v7).slice (win0_2.rect t)).set ↔ _
  rw [View.set_slice_whole, Rect.mem_set_unit]
  exact Iff.rfl

/-- The five blocks cover the product array: row `r` lies in the block of point `r / 400`. -/
theorem he_cover (i : S2000x256.Idx) :
    ∃ t : Fin cfg0.N, (cfg0.win 2).flush t = true ∧ i ∈ ((cfg0.win 2).blk t).view.set := by
  have hi0 : (i 0).val < 2000 := (i 0).isLt
  have hi1 : (i 1).val < 256 := (i 1).isLt
  have hN : cfg0.N = 5 := N_0
  obtain ⟨t, ht⟩ : ∃ t : Fin cfg0.N, t.val = (i 0).val / 400 := ⟨⟨(i 0).val / 400, by rw [hN]; omega⟩, rfl⟩
  obtain ⟨-, -, -, -, c0, c1⟩ := idx_facts t
  refine ⟨t, flush0_2 t, ?_⟩
  rw [mem_blk]
  intro a
  match a with
  | ⟨0, _⟩ =>
    show win0_2.index t (0 : Fin 2) * 400 ≤ (i 0).val ∧ (i 0).val < win0_2.index t (0 : Fin 2) * 400 + 400
    omega
  | ⟨1, _⟩ =>
    show win0_2.index t (1 : Fin 2) * 256 ≤ (i 1).val ∧ (i 1).val < win0_2.index t (1 : Fin 2) * 256 + 256
    omega

theorem he_final (c : Dev nD) :
    (heDat (F := Ideal) V c).arrAt 2 cfg0.N = heArr (V c main_v6) (V c main_arg0) := by
  exact (heDat (F := Ideal) V c).arrAt_eq_of_cover 2 (heArr (V c main_v6) (V c main_arg0))
    (fun t _ => he_flushed_eq V c t) (fun i => he_cover i)

end Cert.KernelIdeal.HeFinal

end
-- ==== Proof.KernelMathB.lean ====
/-
  The second call's output block read at an index at the exact instance: row r is the specification's node row of
  row r of the node-feature block and column r of the incidence block.
-/
import proofs.«181957_g30339648979507_cont_9to1_1753_20_alg».proof.Proof.Gen.KernelIdeal.Skeleton
import proofs.«181957_g30339648979507_cont_9to1_1753_20_alg».proof.Proof.Spec
import proofs.«181957_g30339648979507_cont_9to1_1753_20_alg».proof.Proof.LibContract
import proofs.«181957_g30339648979507_cont_9to1_1753_20_alg».proof.Proof.LibDense
import proofs.«181957_g30339648979507_cont_9to1_1753_20_alg».proof.Proof.LibKeepdims
import proofs.«181957_g30339648979507_cont_9to1_1753_20_alg».proof.Proof.LibExtReal
import Idealize.ShloMosaic.PureOps.Ideal.Laws
import Idealize.ShloMosaic.Lib.Pipeline.Value
import Idealize.ShloMosaic.Lib.ValueLayout

noncomputable section

namespace Cert.KernelIdeal.MathB

open Cert.KernelIdeal Cert.KernelIdeal.Gen Cert.Spec
open Idealize.ShloMosaic Idealize.ShloMosaic.ValueIdx

/-! ## The two words -/

/-- The word of the scale denotes one sixteenth. -/
theorem ofBits_sixteenth : Ideal.ofBits .f32 0x3D800000#32 = sixteenth := by
  unfold sixteenth
  simp [Ideal.ofBits, Ideal.ieee, -EReal.coe_mul]; norm_num

/-- The word the column maximum starts from denotes the bottom element. -/
theorem ofBits_neg_inf : Ideal.ofBits .f32 0xFF800000#32 = ⊥ := by simp [Ideal.ofBits, Ideal.ieee]

/-! ## The operand positions of the three dimension records

Each record contracts the first operand's columns against the second's rows and has no batch axis, so at the output
position (a, b) and contracted position k the operands are read at (a, k) and (k, b). -/

/-- Operand positions of the [1024,256] by [256,256] product. -/
theorem lhs0_q (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs1_q (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs0_q (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs1_q (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Operand positions of the [2000,256] by [256,1024] product. -/
theorem lhs0_s (i : S2000x1024.Idx) (q : dot_S2000x256_S256x1024_S2000x1024_1_0_0_1_n_n.contr.Idx) :
    (dot_S2000x256_S256x1024_S2000x1024_1_0_0_1_n_n.lhsIdx i q 0).val = (i 0).val := by
  unfold DotDims.lhsIdx
  rw [dif_neg (show ¬(0 : Fin S2000x256.rank) ∈ dot_S2000x256_S256x1024_S2000x1024_1_0_0_1_n_n.lhsBatch by decide), dif_pos (show (0 : Fin S2000x256.rank) ∈ dot_S2000x256_S256x1024_S2000x1024_1_0_0_1_n_n.lhsNonContracting by decide)]
  rfl
theorem lhs1_s (i : S2000x1024.Idx) (q : dot_S2000x256_S256x1024_S2000x1024_1_0_0_1_n_n.contr.Idx) :
    (dot_S2000x256_S256x1024_S2000x1024_1_0_0_1_n_n.lhsIdx i q 1).val = (q ⟨0, by decide⟩).val :=
  dot_S2000x256_S256x1024_S2000x1024_1_0_0_1_n_n.lhsIdx_val_of_single rfl i q
theorem rhs0_s (i : S2000x1024.Idx) (q : dot_S2000x256_S256x1024_S2000x1024_1_0_0_1_n_n.contr.Idx) :
    (dot_S2000x256_S256x1024_S2000x1024_1_0_0_1_n_n.rhsIdx i q 0).val = (q ⟨0, by decide⟩).val :=
  dot_S2000x256_S256x1024_S2000x1024_1_0_0_1_n_n.rhsIdx_val_of_single rfl i q
theorem rhs1_s (i : S2000x1024.Idx) (q : dot_S2000x256_S256x1024_S2000x1024_1_0_0_1_n_n.contr.Idx) :
    (dot_S2000x256_S256x1024_S2000x1024_1_0_0_1_n_n.rhsIdx i q 1).val = (i 1).val := by
  unfold DotDims.rhsIdx
  rw [dif_neg (show ¬(1 : Fin S256x1024.rank) ∈ dot_S2000x256_S256x1024_S2000x1024_1_0_0_1_n_n.rhsBatch by decide), dif_pos (show (1 : Fin S256x1024.rank) ∈ dot_S2000x256_S256x1024_S2000x1024_1_0_0_1_n_n.rhsNonContracting by decide)]
  rfl

/-- Operand positions of the [256,2000] by [2000,1024] product. -/
theorem lhs0_a (i : S256x1024.Idx) (q : dot_S256x2000_S2000x1024_S256x1024_1_0_0_1_n_n.contr.Idx) :
    (dot_S256x2000_S2000x1024_S256x1024_1_0_0_1_n_n.lhsIdx i q 0).val = (i 0).val := by
  unfold DotDims.lhsIdx
  rw [dif_neg (show ¬(0 : Fin S256x2000.rank) ∈ dot_S256x2000_S2000x1024_S256x1024_1_0_0_1_n_n.lhsBatch by decide), dif_pos (show (0 : Fin S256x2000.rank) ∈ dot_S256x2000_S2000x1024_S256x1024_1_0_0_1_n_n.lhsNonContracting by decide)]
  rfl
theorem lhs1_a (i : S256x1024.Idx) (q : dot_S256x2000_S2000x1024_S256x1024_1_0_0_1_n_n.contr.Idx) :
    (dot_S256x2000_S2000x1024_S256x1024_1_0_0_1_n_n.lhsIdx i q 1).val = (q ⟨0, by decide⟩).val :=
  dot_S256x2000_S2000x1024_S256x1024_1_0_0_1_n_n.lhsIdx_val_of_single rfl i q
theorem rhs0_a (i : S256x1024.Idx) (q : dot_S256x2000_S2000x1024_S256x1024_1_0_0_1_n_n.contr.Idx) :
    (dot_S256x2000_S2000x1024_S256x1024_1_0_0_1_n_n.rhsIdx i q 0).val = (q ⟨0, by decide⟩).val :=
  dot_S256x2000_S2000x1024_S256x1024_1_0_0_1_n_n.rhsIdx_val_of_single rfl i q
theorem rhs1_a (i : S256x1024.Idx) (q : dot_S256x2000_S2000x1024_S256x1024_1_0_0_1_n_n.contr.Idx) :
    (dot_S256x2000_S2000x1024_S256x1024_1_0_0_1_n_n.rhsIdx i q 1).val = (i 1).val := by
  unfold DotDims.rhsIdx
  rw [dif_neg (show ¬(1 : Fin S2000x1024.rank) ∈ dot_S256x2000_S2000x1024_S256x1024_1_0_0_1_n_n.rhsBatch by decide), dif_pos (show (1 : Fin S2000x1024.rank) ∈ dot_S256x2000_S2000x1024_S256x1024_1_0_0_1_n_n.rhsNonContracting by decide)]
  rfl

/-! ## The four products read at an index -/

/-- The node queries, transposed: entry (t, r) is row r of the node block against column t of the weight, plus the bias. -/
theorem qnT_apply (x : FVec Ideal S1024x256 .f32) (wnq : FVec Ideal S256x256 .f32) (bnq : FVec Ideal S1x256 .f32)
    (t : Fin 256) (r : Fin 1024) :
    transpose S256x1024 [1, 0]
        (addf (matmul (F := Ideal) dot_S1024x256_S256x256_S1024x256_1_0_0_1_n_n none x wnq (constant (F := Ideal) S1024x256 .f32 0x00000000#32))
          (broadcastTo S1024x256 (shapeCast S1x256 bnq shapeCasts_S1x256_S1x256) broadcasts_S1x256_S1024x256))
        transposes_S1024x256_p1_0_S256x1024 (ix2 t r)
      = (∑ u : Fin 256, x (ix2 r u) * wnq (ix2 u t)) + bnq (ix2 (0 : Fin 1) t) := by
  refine (transpose_ix2_apply _ _ t r).trans ?_
  rw [addf_apply]
  refine congrArg₂ (· + ·) ?_ ?_
  · exact Cert.LibDense.matmul_zero_plain dot_S1024x256_S256x256_S1024x256_1_0_0_1_n_n none rfl rfl
      lhs0_q lhs1_q rhs0_q rhs1_q x wnq r t
  · refine (broadcastTo_1b_ab_apply _ _ r t).trans ?_
    rw [shapeCast_self]

/-- The scores: entry (e, r) is row e of the node keys against column r of the transposed queries, times one sixteenth. -/
theorem st_apply (kn : FVec Ideal S2000x256 .f32) (qnT : FVec Ideal S256x1024 .f32) (e : Fin 2000) (r : Fin 1024) :
    mulf (matmul (F := Ideal) dot_S2000x256_S256x1024_S2000x1024_1_0_0_1_n_n none kn qnT (constant (F := Ideal) S2000x1024 .f32 0x00000000#32))
        (broadcast S2000x1024 (Scalar.ofBits (F := Ideal) .f32 0x3D800000#32)) (ix2 e r)
      = (∑ t : Fin 256, kn (ix2 e t) * qnT (ix2 t r)) * sixteenth := by
  rw [mulf_apply, broadcast_apply]
  refine congrArg₂ (· * ·) ?_ ofBits_sixteenth
  exact Cert.LibDense.matmul_zero_plain dot_S2000x256_S256x1024_S2000x1024_1_0_0_1_n_n none rfl rfl
    lhs0_s lhs1_s rhs0_s rhs1_s kn qnT e r

/-- The weighted attention, transposed: entry (h, r) sums over the hyperedges the attention at (h, e) times the incidence
    at (e, r) times the weight at (e, r); the narrowing of the second operand is the identity at the exact instance. -/
theorem aggT_apply (attT : FVec Ideal S256x2000 .bf16) (ht : FVec Ideal S2000x1024 .f32) (w : FVec Ideal S2000x1024 .f32)
    (h : Fin 256) (r : Fin 1024) :
    matmul (F := Ideal) dot_S256x2000_S2000x1024_S256x1024_1_0_0_1_n_n none attT
        (truncf .bf16 (mulf (shapeCast S2000x1024 ht shapeCasts_S2000x1024_S2000x1024) w) bitsLt_bf16_f32)
        (constant (F := Ideal) S256x1024 .f32 0x00000000#32) (ix2 h r)
      = ∑ e : Fin 2000, attT (ix2 h e) * (ht (ix2 e r) * w (ix2 e r)) := by
  refine (Cert.LibDense.matmul_zero_plain dot_S256x2000_S2000x1024_S256x1024_1_0_0_1_n_n none rfl rfl
    lhs0_a lhs1_a rhs0_a rhs1_a attT _ h r).trans ?_
  unfold Cert.LibDense.dense
  refine Finset.sum_congr rfl fun e _ => ?_
  rw [truncf_apply, mulf_apply, shapeCast_self]

/-- The output: entry (r, j) is column r of the transposed weighted attention against column j of the last weight, plus
    the bias. -/
theorem outRow_apply (aggT : FVec Ideal S256x1024 .f32) (wt : FVec Ideal S256x256 .f32) (bt : FVec Ideal S1x256 .f32)
    (r : Fin 1024) (j : Fin 256) :
    addf (matmul (F := Ideal) dot_S1024x256_S256x256_S1024x256_1_0_0_1_n_n none
            (transpose S1024x256 [1, 0] aggT transposes_S256x1024_p1_0_S1024x256) wt
            (constant (F := Ideal) S1024x256 .f32 0x00000000#32))
        (broadcastTo S1024x256 (shapeCast S1x256 bt shapeCasts_S1x256_S1x256) broadcasts_S1x256_S1024x256) (ix2 r j)
      = (∑ h : Fin 256, aggT (ix2 h r) * wt (ix2 h j)) + bt (ix2 (0 : Fin 1) j) := by
  rw [addf_apply]
  refine congrArg₂ (· + ·) ?_ ?_
  · refine (Cert.LibDense.matmul_zero_plain dot_S1024x256_S256x256_S1024x256_1_0_0_1_n_n none rfl rfl
      lhs0_q lhs1_q rhs0_q rhs1_q _ wt r j).trans ?_
    unfold Cert.LibDense.dense
    exact Finset.sum_congr rfl fun h _ => congrArg (· * wt (ix2 h j)) (transpose_ix2_apply aggT _ r h)
  · refine (broadcastTo_1b_ab_apply _ _ r j).trans ?_
    rw [shapeCast_self]

/-! ## The softmax down each column -/

/-- A vector over the 1024 columns, cast to one row and broadcast down the 2000 rows, reads at (e, r) its entry r. -/
theorem rowBroadcast_apply (v : FVec Ideal S1024 .f32) (e : Fin 2000) (r : Fin 1024) :
    broadcastTo S2000x1024 (shapeCast S1x1024 v shapeCasts_S1024_S1x1024) broadcasts_S1x1024_S2000x1024 (ix2 e r) = v (ix1 r) :=
  (broadcastTo_1b_ab_apply _ _ e r).trans (shapeCast_a_1a_apply v _ 0 r)

/-- The position the reduction over the rows reads at column r and row e is (e, r). -/
theorem lift_col (r : Fin 1024) (e : Fin 2000) : reduces_S2000x1024_S1024.lift (ix1 r) e = ix2 e r :=
  funext fun a => Fin.ext (by
    match a with
    | ⟨0, _⟩ => rfl
    | ⟨1, _⟩ => rfl)

/-- The column maximum: the fold of the maximum from the bottom element down column r. -/
theorem colMax_apply (s : FVec Ideal S2000x1024 .f32) (r : Fin 1024) :
    multiReduction .maximumf [0] S1024 s 0xFF800000#32 reduces_S2000x1024_S1024 (.inl rfl) rfl (ix1 r)
      = (Finset.univ : Finset (Fin 2000)).fold max ⊥ (fun e => s (ix2 e r)) := by
  refine (Ideal.multiReduction_maximumf_single s _ reduces_S2000x1024_S1024 _ _ (ix1 r)).trans ?_
  show (Finset.univ : Finset (Fin 2000)).fold max (Ideal.ofBits .f32 0xFF800000#32) (s ∘ reduces_S2000x1024_S1024.lift (ix1 r)) = _
  rw [ofBits_neg_inf]
  exact congrArg (Finset.univ.fold max ⊥) (funext fun e => congrArg s (lift_col r e))

/-- The column sum. -/
theorem colSum_apply (s : FVec Ideal S2000x1024 .f32) (r : Fin 1024) :
    multiReduction .add [0] S1024 s 0x00000000#32 reduces_S2000x1024_S1024 (.inl rfl) rfl (ix1 r)
      = ∑ e : Fin 2000, s (ix2 e r) := by
  refine (Ideal.multiReduction_add_single s _ reduces_S2000x1024_S1024 _ _ (ix1 r)).trans ?_
  show ∑ e : Fin 2000, s (reduces_S2000x1024_S1024.lift (ix1 r) e) = _
  exact Finset.sum_congr rfl fun e _ => congrArg s (lift_col r e)

/-- The exponentials of the scores less their column maximum. -/
def colExp (s : FVec Ideal S2000x1024 .f32) : FVec Ideal S2000x1024 .f32 :=
  exp (subf s (broadcastTo S2000x1024 (shapeCast S1x1024 (multiReduction .maximumf [0] S1024 s 0xFF800000#32 reduces_S2000x1024_S1024 (.inl rfl) rfl) shapeCasts_S1024_S1x1024) broadcasts_S1x1024_S2000x1024))

theorem colExp_apply (s : FVec Ideal S2000x1024 .f32) (e : Fin 2000) (r : Fin 1024) :
    colExp s (ix2 e r) = Ideal.exp (s (ix2 e r) - (Finset.univ : Finset (Fin 2000)).fold max ⊥ (fun e' => s (ix2 e' r))) := by
  unfold colExp
  show Ideal.exp (subf s _ (ix2 e r)) = _
  rw [subf_apply, rowBroadcast_apply, colMax_apply]

/-- The normalised exponentials at (e, r) are the softmax of column r at e. -/
theorem colSoftmax_apply (s : FVec Ideal S2000x1024 .f32) (e : Fin 2000) (r : Fin 1024) :
    divf (colExp s)
        (broadcastTo S2000x1024 (shapeCast S1x1024
          (multiReduction .add [0] S1024 (colExp s) 0x00000000#32 reduces_S2000x1024_S1024 (.inl rfl) rfl)
          shapeCasts_S1024_S1x1024) broadcasts_S1x1024_S2000x1024) (ix2 e r)
      = softmax (fun e' => s (ix2 e' r)) e := by
  rw [divf_apply, rowBroadcast_apply, colSum_apply]
  unfold softmax
  rw [colExp_apply]
  exact congrArg (Ideal.div _) (Finset.sum_congr rfl fun k _ => colExp_apply s k r)

/-- The output block: row r depends on row r of the node block and column r of the incidence block only. -/
theorem out_pay_apply (x : Vec Ideal S1024x256 .f32) (wnq : Vec Ideal S256x256 .f32) (bnq : Vec Ideal S1x256 .f32)
    (kn : Vec Ideal S2000x256 .f32) (ht : Vec Ideal S2000x1024 .f32) (attT : Vec Ideal S256x2000 .bf16)
    (wt : Vec Ideal S256x256 .f32) (bt : Vec Ideal S1x256 .f32) (r : Fin 1024) (j : Fin 256) :
    k1_pay1 (k1_pay6 (F := Ideal) x wnq bnq kn ht attT wt) bt (ix2 r j)
      = nodeRow (fun u => x (ix2 r u)) (fun e => ht (ix2 e r)) (mat kn) (fun e h => attT (ix2 h e))
          (mat wnq) (row bnq) (mat wt) (row bt) j := by
  unfold k1_pay1 k1_pay6
  refine (outRow_apply _ wt bt r j).trans ?_
  unfold nodeRow
  refine congrArg₂ (· + ·) (Finset.sum_congr rfl fun h _ => congrArg (· * wt (ix2 h j)) ?_) rfl
  refine (aggT_apply attT ht _ h r).trans
    (Finset.sum_congr rfl fun e _ => congrArg (fun z => attT (ix2 h e) * (ht (ix2 e r) * z)) ?_)
  refine (colSoftmax_apply _ e r).trans (congrArg (fun s => softmax s e) (funext fun e' => ?_))
  refine (st_apply kn _ e' r).trans
    (congrArg (· * sixteenth) (Finset.sum_congr rfl fun t _ => congrArg (kn (ix2 e' t) * ·) ?_))
  exact qnT_apply x wnq bnq t r

end Cert.KernelIdeal.MathB

end
-- ==== Proof.NodeFinal.lean ====
/-
  The second pallas_call at the exact instance: (1) the part inside the array of a point's output block does not
  depend on what the clipped inputs' buffers hold past the arrays' ends, because output row r is a function of row r
  of the node block and column r of the incidence block only; (2) the result array after the ten write-backs as ONE
  function of the arrays the region finds and of the two scratch values: each point's block, cut at the array's end
  (the last point keeps 784 of its 1024 rows), is the restriction of that function, and the ten cut blocks cover
  the array.
-/
import proofs.«181957_g30339648979507_cont_9to1_1753_20_alg».proof.Proof.NodeObligation
import proofs.«181957_g30339648979507_cont_9to1_1753_20_alg».proof.Proof.KernelMathB
import Idealize.ShloMosaic.Lib.Pipeline.Value

set_option maxRecDepth 16384

noncomputable section

namespace Cert.KernelIdeal.NodeFinal

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The result as one array: node n's row from its feature row, its column of the transposed incidence matrix, the
    node-query and output layers, and the two scratch values (transposed attention, node keys). -/
def outArr (x : S10000x256.Idx → EReal) (ht : S2000x10000.Idx → EReal) (wnq : S256x256.Idx → EReal) (bnq : S1x256.Idx → EReal)
    (wt : S256x256.Idx → EReal) (bt : S1x256.Idx → EReal) (attT : S256x2000.Idx → EReal) (kn : S2000x256.Idx → EReal) :
    S10000x256.Idx → EReal :=
  fun i => nodeRow (fun u => x (ix2 (i 0) u)) (fun e => ht (ix2 e (i 0))) (mat kn) (fun e h => attT (ix2 h e))
    (mat wnq) (row bnq) (mat wt) (row bt) (i 1)

/-! ## The grid: where each window's block sits and how it is cut -/

/-- The printed index maps and cuts over the ten points. The node block and the output block sit at row block t, column
    block 0; the incidence block at row block 0, column block t; the four weight and bias blocks never move. On the node
    axis the three moving windows are cut alike: 1024 rows (columns) but for the last point's 784; on the other axis no
    block is cut. -/
theorem grid_facts : ∀ t : Fin cfg1.N,
    (win1_9.index t (0 : Fin 2) = t.val ∧ win1_9.index t (1 : Fin 2) = 0)
    ∧ (win1_10.index t (0 : Fin 2) = 0 ∧ win1_10.index t (1 : Fin 2) = t.val)
    ∧ (win1_15.index t (0 : Fin 2) = t.val ∧ win1_15.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0)
    ∧ (win1_9.xsize (grid1.coords t) (0 : Fin 2) = win1_15.xsize (grid1.coords t) (0 : Fin 2)
        ∧ win1_9.xsize (grid1.coords t) (1 : Fin 2) = 256)
    ∧ (win1_10.xsize (grid1.coords t) (0 : Fin 2) = 2000
        ∧ win1_10.xsize (grid1.coords t) (1 : Fin 2) = win1_15.xsize (grid1.coords t) (0 : Fin 2))
    ∧ (win1_15.xsize (grid1.coords t) (0 : Fin 2) = (if t.val = 9 then 784 else 1024)
        ∧ win1_15.xsize (grid1.coords t) (1 : Fin 2) = 256) :=
  (by decide +kernel : ∀ t : Fin grid1.N, _)

/-! ## A filled block read inside the part the transfer moves -/

/-- At an index every coordinate of which lies in the moved part, a filled block reads what it was filled with. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-- So there it does not depend on what the block held before. -/
theorem fill_congr_of_lt {G : Pipeline.Grid} (w : Window sig G) {α : Type} (i : G.Coords) (d d' : w.block.Idx → α)
    (g : (w.xblock i).Idx → α) (j : w.block.Idx) (h : ∀ a, (j a).val < w.xsize i a) :
    w.fill i d g j = w.fill i d' g j := by
  rw [fill_apply_of_lt w i d g j h, fill_apply_of_lt w i d' g j h]

/-! ## One row of the output block -/

/-- Row r of the output block in the specification's terms. -/
theorem nodeOut_apply (x10 : Vec Ideal S1024x256 .f32) (x11 : Vec Ideal S2000x1024 .f32) (x12 : Vec Ideal S256x256 .f32)
    (x13 : Vec Ideal S1x256 .f32) (x14 : Vec Ideal S256x256 .f32) (x15 : Vec Ideal S1x256 .f32)
    (s17 : Vec Ideal S256x2000 .bf16) (s18 : Vec Ideal S2000x256 .f32) (r : Fin 1024) (q : Fin 256) :
    nodeOut x10 x11 x12 x13 x14 x15 s17 s18 (ix2 r q)
      = nodeRow (fun u => x10 (ix2 r u)) (fun e => x11 (ix2 e r)) (mat s18) (fun e h => s17 (ix2 h e))
          (mat x12) (row x13) (mat x14) (row x15) q := by
  unfold nodeOut
  exact MathB.out_pay_apply x10 x12 x13 s18 x11 s17 x14 x15 r q

/-- Two node blocks that agree on row r and two incidence blocks that agree on column r give the same output row r. -/
theorem nodeOut_row (x10 x10' : Vec Ideal S1024x256 .f32) (x11 x11' : Vec Ideal S2000x1024 .f32) (x12 : Vec Ideal S256x256 .f32)
    (x13 : Vec Ideal S1x256 .f32) (x14 : Vec Ideal S256x256 .f32) (x15 : Vec Ideal S1x256 .f32)
    (s17 : Vec Ideal S256x2000 .bf16) (s18 : Vec Ideal S2000x256 .f32) (r : Fin 1024) (q : Fin 256)
    (h10 : ∀ u : Fin 256, x10 (ix2 r u) = x10' (ix2 r u)) (h11 : ∀ e : Fin 2000, x11 (ix2 e r) = x11' (ix2 e r)) :
    nodeOut x10 x11 x12 x13 x14 x15 s17 s18 (ix2 r q) = nodeOut x10' x11' x12 x13 x14 x15 s17 s18 (ix2 r q) := by
  rw [nodeOut_apply, nodeOut_apply]
  have e10 : (fun u => x10 (ix2 r u)) = fun u => x10' (ix2 r u) := funext h10
  have e11 : (fun e => x11 (ix2 e r)) = fun e => x11' (ix2 e r) := funext h11
  rw [e10, e11]

theorem tail_free (c : Dev nD) : TailFree (F := Ideal) V c := by
  intro t d9 d10
  rw [nodeDat_after15]
  obtain ⟨-, -, -, -, -, -, -, ⟨s9a, s9b⟩, ⟨s10a, s10b⟩, -, -⟩ := grid_facts t
  funext j
  have hj0 : (j (0 : Fin 2)).val < win1_15.xsize (grid1.coords t) (0 : Fin 2) := (j (0 : Fin 2)).isLt
  obtain ⟨r, q, hrq, hr⟩ : ∃ (r : Fin 1024) (q : Fin 256),
      (cfg1.win 15).xinj (cfg1.grid.coords t) j = ix2 r q ∧ r.val = (j (0 : Fin 2)).val := ⟨_, _, eq_ix2 _, rfl⟩
  show nodeOut _ _ _ _ _ _ _ _ ((cfg1.win 15).xinj (cfg1.grid.coords t) j)
    = nodeOut _ _ _ _ _ _ _ _ ((cfg1.win 15).xinj (cfg1.grid.coords t) j)
  rw [hrq]
  refine nodeOut_row _ _ _ _ _ _ _ _ _ _ r q (fun u => ?_) (fun e => ?_)
  · refine fill_congr_of_lt (cfg1.win 9) _ _ _ _ (ix2 r u) (fun a => ?_)
    match a with
    | ⟨0, _⟩ => show r.val < win1_9.xsize (grid1.coords t) (0 : Fin 2); omega
    | ⟨1, _⟩ => show u.val < win1_9.xsize (grid1.coords t) (1 : Fin 2); have := u.isLt; omega
  · refine fill_congr_of_lt (cfg1.win 10) _ _ _ _ (ix2 e r) (fun a => ?_)
    match a with
    | ⟨0, _⟩ => show e.val < win1_10.xsize (grid1.coords t) (0 : Fin 2); have := e.isLt; omega
    | ⟨1, _⟩ => show r.val < win1_10.xsize (grid1.coords t) (1 : Fin 2); omega

/-! ## Each point's cut block is the restriction of one function of the arrays -/

/-- One entry of a point's output block is the entry of the whole-array function at the node the block's rectangle puts
    its row on: row r of the node block is node n's feature row, column r of the incidence block node n's incidence
    column, and the weight and bias blocks are the arrays. -/
theorem node_point (x10 : Vec Ideal S1024x256 .f32) (x11 : Vec Ideal S2000x1024 .f32) (x12 : Vec Ideal S256x256 .f32)
    (x13 : Vec Ideal S1x256 .f32) (x14 : Vec Ideal S256x256 .f32) (x15 : Vec Ideal S1x256 .f32)
    (s17 : Vec Ideal S256x2000 .bf16) (s18 : Vec Ideal S2000x256 .f32)
    (x : S10000x256.Idx → EReal) (ht : S2000x10000.Idx → EReal) (wnq : S256x256.Idx → EReal) (bnq : S1x256.Idx → EReal)
    (wt : S256x256.Idx → EReal) (bt : S1x256.Idx → EReal) (r : Fin 1024) (q : Fin 256) (n : Fin 10000)
    (h10 : ∀ u : Fin 256, x10 (ix2 r u) = x (ix2 n u)) (h11 : ∀ e : Fin 2000, x11 (ix2 e r) = ht (ix2 e n))
    (h12 : ∀ a b : Fin 256, x12 (ix2 a b) = wnq (ix2 a b)) (h13 : ∀ b : Fin 256, x13 (ix2 (0 : Fin 1) b) = bnq (ix2 (0 : Fin 1) b))
    (h14 : ∀ a b : Fin 256, x14 (ix2 a b) = wt (ix2 a b)) (h15 : ∀ b : Fin 256, x15 (ix2 (0 : Fin 1) b) = bt (ix2 (0 : Fin 1) b)) :
    nodeOut x10 x11 x12 x13 x14 x15 s17 s18 (ix2 r q) = outArr x ht wnq bnq wt bt s17 s18 (ix2 n q) := by
  rw [nodeOut_apply]
  show _ = nodeRow (fun u => x (ix2 n u)) (fun e => ht (ix2 e n)) (mat s18) (fun e h => s17 (ix2 h e))
    (mat wnq) (row bnq) (mat wt) (row bt) q
  have e10 : (fun u => x10 (ix2 r u)) = fun u => x (ix2 n u) := funext h10
  have e11 : (fun e => x11 (ix2 e r)) = fun e => ht (ix2 e n) := funext h11
  have e12 : mat x12 = mat wnq := funext fun a => funext fun b => h12 a b
  have e13 : row x13 = row bnq := funext h13
  have e14 : mat x14 = mat wt := funext fun a => funext fun b => h14 a b
  have e15 : row x15 = row bt := funext h15
  rw [e10, e11, e12, e13, e14, e15]

/-- What point t writes back is block t, cut at the array's end, of the whole-array function of the arrays the region
    finds and of the two scratch values. -/
theorem node_flushed_eq (c : Dev nD) (t : Fin cfg1.N) :
    (nodeDat (F := Ideal) V c).flushed 15 t
      = ((cfg1.win 15).blk t).view.read (Elt Ideal)
        (outArr (V c main_arg0) (V c main_v6) (V c main_arg8) (V c main_v3) (V c main_arg12) (V c main_v5)
          (attVal V c) (knVal V c)) := by
  show (cfg1.win 15).cut (grid1.coords t) ((nodeDat (F := Ideal) V c).after 15 t) = _
  rw [nodeDat_after15]
  obtain ⟨⟨i9a, i9b⟩, ⟨i10a, i10b⟩, ⟨i15a, i15b⟩, ⟨i11a, i11b⟩, ⟨i12a, i12b⟩, ⟨i13a, i13b⟩, ⟨i14a, i14b⟩,
    ⟨s9a, s9b⟩, ⟨s10a, s10b⟩, ⟨s15a, s15b⟩⟩ := grid_facts t
  funext j
  have hj0 : (j (0 : Fin 2)).val < win1_15.xsize (grid1.coords t) (0 : Fin 2) := (j (0 : Fin 2)).isLt
  have hj1 : (j (1 : Fin 2)).val < win1_15.xsize (grid1.coords t) (1 : Fin 2) := (j (1 : Fin 2)).isLt
  have hN : t.val < 10 := by have h10 : cfg1.N = 10 := N_1; have := t.isLt; omega
  obtain ⟨r, q, hrq, hr, hq⟩ : ∃ (r : Fin 1024) (q : Fin 256),
      (cfg1.win 15).xinj (cfg1.grid.coords t) j = ix2 r q ∧ r.val = (j (0 : Fin 2)).val ∧ q.val = (j (1 : Fin 2)).val :=
    ⟨_, _, eq_ix2 _, rfl, rfl⟩
  obtain ⟨n, hn⟩ : ∃ n : Fin 10000, n.val = t.val * 1024 + r.val :=
    ⟨⟨t.val * 1024 + r.val, by split at s15a <;> omega⟩, rfl⟩
  have hemb : ((cfg1.win 15).blk t).view.emb j = ix2 n q := funext fun a => Fin.ext (by
    match a with
    | ⟨0, _⟩ => show win1_15.index t (0 : Fin 2) * 1024 + 1 * (j (0 : Fin 2)).val = n.val; omega
    | ⟨1, _⟩ => show win1_15.index t (1 : Fin 2) * 256 + 1 * (j (1 : Fin 2)).val = q.val; omega)
  show nodeOut (F := Ideal) _ _ _ _ _ _ _ _ ((cfg1.win 15).xinj (cfg1.grid.coords t) j)
    = outArr _ _ _ _ _ _ _ _ (((cfg1.win 15).blk t).view.emb j)
  rw [hrq, hemb]
  refine node_point _ _ _ _ _ _ _ _ _ _ _ _ _ _ r q n (fun u => ?_) (fun e => ?_) (fun a b => ?_) (fun b => ?_)
    (fun a b => ?_) (fun b => ?_)
  · rw [fill_apply_of_lt (cfg1.win 9) _ _ _ (ix2 r u) (fun a => by
      match a with
      | ⟨0, _⟩ => show r.val < win1_9.xsize (grid1.coords t) (0 : Fin 2); omega
      | ⟨1, _⟩ => show u.val < win1_9.xsize (grid1.coords t) (1 : Fin 2); have := u.isLt; omega)]
    show V c main_arg0 (((cfg1.win 9).blk t).view.emb _) = V c main_arg0 (ix2 n u)
    refine congrArg _ (funext fun a => Fin.ext ?_)
    match a with
    | ⟨0, _⟩ => show win1_9.index t (0 : Fin 2) * 1024 + 1 * r.val = n.val; omega
    | ⟨1, _⟩ => show win1_9.index t (1 : Fin 2) * 256 + 1 * u.val = u.val; omega
  · rw [fill_apply_of_lt (cfg1.win 10) _ _ _ (ix2 e r) (fun a => by
      match a with
      | ⟨0, _⟩ => show e.val < win1_10.xsize (grid1.coords t) (0 : Fin 2); have := e.isLt; omega
      | ⟨1, _⟩ => show r.val < win1_10.xsize (grid1.coords t) (1 : Fin 2); omega)]
    show V c main_v6 (((cfg1.win 10).blk t).view.emb _) = V c main_v6 (ix2 e n)
    refine congrArg _ (funext fun a => Fin.ext ?_)
    match a with
    | ⟨0, _⟩ => show win1_10.index t (0 : Fin 2) * 2000 + 1 * e.val = e.val; omega
    | ⟨1, _⟩ => show win1_10.index t (1 : Fin 2) * 1024 + 1 * r.val = n.val; omega
  · show V c main_arg8 (((cfg1.win 11).blk t).view.emb (ix2 a b)) = V c main_arg8 (ix2 a b)
    refine congrArg _ (funext fun a' => Fin.ext ?_)
    match a' with
    | ⟨0, _⟩ => show win1_11.index t (0 : Fin 2) * 256 + 1 * a.val = a.val; omega
    | ⟨1, _⟩ => show win1_11.index t (1 : Fin 2) * 256 + 1 * b.val = b.val; omega
  · show V c main_v3 (((cfg1.win 12).blk t).view.emb (ix2 (0 : Fin 1) b)) = V c main_v3 (ix2 (0 : Fin 1) b)
    refine congrArg _ (funext fun a' => Fin.ext ?_)
    match a' with
    | ⟨0, _⟩ => show win1_12.index t (0 : Fin 2) * 1 + 1 * 0 = 0; omega
    | ⟨1, _⟩ => show win1_12.index t (1 : Fin 2) * 256 + 1 * b.val = b.val; omega
  · show V c main_arg12 (((cfg1.win 13).blk t).view.emb (ix2 a b)) = V c main_arg12 (ix2 a b)
    refine congrArg _ (funext fun a' => Fin.ext ?_)
    match a' with
    | ⟨0, _⟩ => show win1_13.index t (0 : Fin 2) * 256 + 1 * a.val = a.val; omega
    | ⟨1, _⟩ => show win1_13.index t (1 : Fin 2) * 256 + 1 * b.val = b.val; omega
  · show V c main_v5 (((cfg1.win 14).blk t).view.emb (ix2 (0 : Fin 1) b)) = V c main_v5 (ix2 (0 : Fin 1) b)
    refine congrArg _ (funext fun a' => Fin.ext ?_)
    match a' with
    | ⟨0, _⟩ => show win1_14.index t (0 : Fin 2) * 1 + 1 * 0 = 0; omega
    | ⟨1, _⟩ => show win1_14.index t (1 : Fin 2) * 256 + 1 * b.val = b.val; omega

/-! ## The ten cut blocks cover the array -/

/-- An index of the result array is in point t's cut block iff each coordinate is in the block's range inside the array. -/
theorem mem_blk (t : Fin cfg1.N) (i : S10000x256.Idx) :
    i ∈ ((cfg1.win 15).blk t).view.set ↔ ∀ a : Fin 2, win1_15.index t a * S1024x256.size a ≤ (i a).val
      ∧ (i a).val < win1_15.index t a * S1024x256.size a + win1_15.xsize (grid1.coords t) a := by
  show i ∈ ((View.whole main_v8).slice (win1_15.rect t)).set ↔ _
  rw [View.set_slice_whole, Rect.mem_set_unit]
  exact Iff.rfl

/-- Node n lies in the block of point n / 1024: the first nine keep 1024 rows, the last the remaining 784. -/
theorem node_cover (i : S10000x256.Idx) :
    ∃ t : Fin cfg1.N, (cfg1.win 15).flush t = true ∧ i ∈ ((cfg1.win 15).blk t).view.set := by
  have hi0 : (i 0).val < 10000 := (i 0).isLt
  have hi1 : (i 1).val < 256 := (i 1).isLt
  have hN : cfg1.N = 10 := N_1
  obtain ⟨t, ht⟩ : ∃ t : Fin cfg1.N, t.val = (i 0).val / 1024 := ⟨⟨(i 0).val / 1024, by rw [hN]; omega⟩, rfl⟩
  obtain ⟨-, -, ⟨c0, c1⟩, -, -, -, -, -, -, ⟨s0, s1⟩⟩ := grid_facts t
  refine ⟨t, flush1_15 t, ?_⟩
  rw [mem_blk]
  intro a
  match a with
  | ⟨0, _⟩ =>
    show win1_15.index t (0 : Fin 2) * 1024 ≤ (i 0).val
      ∧ (i 0).val < win1_15.index t (0 : Fin 2) * 1024 + win1_15.xsize (grid1.coords t) (0 : Fin 2)
    split at s0 <;> omega
  | ⟨1, _⟩ =>
    show win1_15.index t (1 : Fin 2) * 256 ≤ (i 1).val
      ∧ (i 1).val < win1_15.index t (1 : Fin 2) * 256 + win1_15.xsize (grid1.coords t) (1 : Fin 2)
    omega

theorem node_final (c : Dev nD) :
    (nodeDat (F := Ideal) V c).arrAt 15 cfg1.N
      = outArr (V c main_arg0) (V c main_v6) (V c main_arg8) (V c main_v3) (V c main_arg12) (V c main_v5)
          (attVal V c) (knVal V c) := by
  exact (nodeDat (F := Ideal) V c).arrAt_eq_of_cover 15
    (outArr (V c main_arg0) (V c main_v6) (V c main_arg8) (V c main_v3) (V c main_arg12) (V c main_v5)
          (attVal V c) (knVal V c))
    (fun t _ => node_flushed_eq V c t) (fun i => node_cover i)

end Cert.KernelIdeal.NodeFinal

end
-- ==== Proof.WholeBlocks.lean ====
/-
  The second pallas_call's thirteen whole-array windows: the block a point stages is the array itself (the block
  index is zero on both axes and the block is the array's size).  From that, at the exact instance, the two scratch
  values read in the specification's terms: the first scratch buffer holds the hyperedge attention transposed, the
  second the node keys.
-/
import proofs.«181957_g30339648979507_cont_9to1_1753_20_alg».proof.Proof.NodeRegion
import proofs.«181957_g30339648979507_cont_9to1_1753_20_alg».proof.Proof.KernelMathA

set_option maxRecDepth 16384

noncomputable section

namespace Cert.KernelIdeal.WholeBlocks

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

section AnyInstance
variable {F : FTy → Type} [FloatOps F]
variable (V : (c : Dev nD) → (b : Ref sig .tc) → Buf (Elt F) ((c : Thread nD τ).loc b))

theorem blk_whole_0 (c : Dev nD) (t : Fin cfg1.N) : nodeBlk V c 0 t = V c main_v7 := by
  obtain ⟨h0, h1⟩ := (by decide +kernel : ∀ t : Fin grid1.N,
    win1_0.index t (0 : Fin 2) = 0 ∧ win1_0.index t (1 : Fin 2) = 0) t
  funext y
  show V c main_v7 (((cfg1.win 0).blk t).view.emb y) = V c main_v7 y
  refine congrArg _ (funext fun a => Fin.ext ?_)
  match a with
  | ⟨0, _⟩ => show win1_0.index t (0 : Fin 2) * _ + 1 * (y 0).val = (y 0).val; rw [h0]; omega
  | ⟨1, _⟩ => show win1_0.index t (1 : Fin 2) * _ + 1 * (y 1).val = (y 1).val; rw [h1]; omega
theorem blk_whole_1 (c : Dev nD) (t : Fin cfg1.N) : nodeBlk V c 1 t = V c main_arg2 := by
  obtain ⟨h0, h1⟩ := (by decide +kernel : ∀ t : Fin grid1.N,
    win1_1.index t (0 : Fin 2) = 0 ∧ win1_1.index t (1 : Fin 2) = 0) t
  funext y
  show V c main_arg2 (((cfg1.win 1).blk t).view.emb y) = V c main_arg2 y
  refine congrArg _ (funext fun a => Fin.ext ?_)
  match a with
  | ⟨0, _⟩ => show win1_1.index t (0 : Fin 2) * _ + 1 * (y 0).val = (y 0).val; rw [h0]; omega
  | ⟨1, _⟩ => show win1_1.index t (1 : Fin 2) * _ + 1 * (y 1).val = (y 1).val; rw [h1]; omega
theorem blk_whole_2 (c : Dev nD) (t : Fin cfg1.N) : nodeBlk V c 2 t = V c main_v0 := by
  obtain ⟨h0, h1⟩ := (by decide +kernel : ∀ t : Fin grid1.N,
    win1_2.index t (0 : Fin 2) = 0 ∧ win1_2.index t (1 : Fin 2) = 0) t
  funext y
  show V c main_v0 (((cfg1.win 2).blk t).view.emb y) = V c main_v0 y
  refine congrArg _ (funext fun a => Fin.ext ?_)
  match a with
  | ⟨0, _⟩ => show win1_2.index t (0 : Fin 2) * _ + 1 * (y 0).val = (y 0).val; rw [h0]; omega
  | ⟨1, _⟩ => show win1_2.index t (1 : Fin 2) * _ + 1 * (y 1).val = (y 1).val; rw [h1]; omega
theorem blk_whole_3 (c : Dev nD) (t : Fin cfg1.N) : nodeBlk V c 3 t = V c main_arg4 := by
  obtain ⟨h0, h1⟩ := (by decide +kernel : ∀ t : Fin grid1.N,
    win1_3.index t (0 : Fin 2) = 0 ∧ win1_3.index t (1 : Fin 2) = 0) t
  funext y
  show V c main_arg4 (((cfg1.win 3).blk t).view.emb y) = V c main_arg4 y
  refine congrArg _ (funext fun a => Fin.ext ?_)
  match a with
  | ⟨0, _⟩ => show win1_3.index t (0 : Fin 2) * _ + 1 * (y 0).val = (y 0).val; rw [h0]; omega
  | ⟨1, _⟩ => show win1_3.index t (1 : Fin 2) * _ + 1 * (y 1).val = (y 1).val; rw [h1]; omega
theorem blk_whole_4 (c : Dev nD) (t : Fin cfg1.N) : nodeBlk V c 4 t = V c main_v1 := by
  obtain ⟨h0, h1⟩ := (by decide +kernel : ∀ t : Fin grid1.N,
    win1_4.index t (0 : Fin 2) = 0 ∧ win1_4.index t (1 : Fin 2) = 0) t
  funext y
  show V c main_v1 (((cfg1.win 4).blk t).view.emb y) = V c main_v1 y
  refine congrArg _ (funext fun a => Fin.ext ?_)
  match a with
  | ⟨0, _⟩ => show win1_4.index t (0 : Fin 2) * _ + 1 * (y 0).val = (y 0).val; rw [h0]; omega
  | ⟨1, _⟩ => show win1_4.index t (1 : Fin 2) * _ + 1 * (y 1).val = (y 1).val; rw [h1]; omega
theorem blk_whole_5 (c : Dev nD) (t : Fin cfg1.N) : nodeBlk V c 5 t = V c main_arg6 := by
  obtain ⟨h0, h1⟩ := (by decide +kernel : ∀ t : Fin grid1.N,
    win1_5.index t (0 : Fin 2) = 0 ∧ win1_5.index t (1 : Fin 2) = 0) t
  funext y
  show V c main_arg6 (((cfg1.win 5).blk t).view.emb y) = V c main_arg6 y
  refine congrArg _ (funext fun a => Fin.ext ?_)
  match a with
  | ⟨0, _⟩ => show win1_5.index t (0 : Fin 2) * _ + 1 * (y 0).val = (y 0).val; rw [h0]; omega
  | ⟨1, _⟩ => show win1_5.index t (1 : Fin 2) * _ + 1 * (y 1).val = (y 1).val; rw [h1]; omega
theorem blk_whole_6 (c : Dev nD) (t : Fin cfg1.N) : nodeBlk V c 6 t = V c main_v2 := by
  obtain ⟨h0, h1⟩ := (by decide +kernel : ∀ t : Fin grid1.N,
    win1_6.index t (0 : Fin 2) = 0 ∧ win1_6.index t (1 : Fin 2) = 0) t
  funext y
  show V c main_v2 (((cfg1.win 6).blk t).view.emb y) = V c main_v2 y
  refine congrArg _ (funext fun a => Fin.ext ?_)
  match a with
  | ⟨0, _⟩ => show win1_6.index t (0 : Fin 2) * _ + 1 * (y 0).val = (y 0).val; rw [h0]; omega
  | ⟨1, _⟩ => show win1_6.index t (1 : Fin 2) * _ + 1 * (y 1).val = (y 1).val; rw [h1]; omega
theorem blk_whole_7 (c : Dev nD) (t : Fin cfg1.N) : nodeBlk V c 7 t = V c main_arg10 := by
  obtain ⟨h0, h1⟩ := (by decide +kernel : ∀ t : Fin grid1.N,
    win1_7.index t (0 : Fin 2) = 0 ∧ win1_7.index t (1 : Fin 2) = 0) t
  funext y
  show V c main_arg10 (((cfg1.win 7).blk t).view.emb y) = V c main_arg10 y
  refine congrArg _ (funext fun a => Fin.ext ?_)
  match a with
  | ⟨0, _⟩ => show win1_7.index t (0 : Fin 2) * _ + 1 * (y 0).val = (y 0).val; rw [h0]; omega
  | ⟨1, _⟩ => show win1_7.index t (1 : Fin 2) * _ + 1 * (y 1).val = (y 1).val; rw [h1]; omega
theorem blk_whole_8 (c : Dev nD) (t : Fin cfg1.N) : nodeBlk V c 8 t = V c main_v4 := by
  obtain ⟨h0, h1⟩ := (by decide +kernel : ∀ t : Fin grid1.N,
    win1_8.index t (0 : Fin 2) = 0 ∧ win1_8.index t (1 : Fin 2) = 0) t
  funext y
  show V c main_v4 (((cfg1.win 8).blk t).view.emb y) = V c main_v4 y
  refine congrArg _ (funext fun a => Fin.ext ?_)
  match a with
  | ⟨0, _⟩ => show win1_8.index t (0 : Fin 2) * _ + 1 * (y 0).val = (y 0).val; rw [h0]; omega
  | ⟨1, _⟩ => show win1_8.index t (1 : Fin 2) * _ + 1 * (y 1).val = (y 1).val; rw [h1]; omega
theorem blk_whole_11 (c : Dev nD) (t : Fin cfg1.N) : nodeBlk V c 11 t = V c main_arg8 := by
  obtain ⟨h0, h1⟩ := (by decide +kernel : ∀ t : Fin grid1.N,
    win1_11.index t (0 : Fin 2) = 0 ∧ win1_11.index t (1 : Fin 2) = 0) t
  funext y
  show V c main_arg8 (((cfg1.win 11).blk t).view.emb y) = V c main_arg8 y
  refine congrArg _ (funext fun a => Fin.ext ?_)
  match a with
  | ⟨0, _⟩ => show win1_11.index t (0 : Fin 2) * _ + 1 * (y 0).val = (y 0).val; rw [h0]; omega
  | ⟨1, _⟩ => show win1_11.index t (1 : Fin 2) * _ + 1 * (y 1).val = (y 1).val; rw [h1]; omega
theorem blk_whole_12 (c : Dev nD) (t : Fin cfg1.N) : nodeBlk V c 12 t = V c main_v3 := by
  obtain ⟨h0, h1⟩ := (by decide +kernel : ∀ t : Fin grid1.N,
    win1_12.index t (0 : Fin 2) = 0 ∧ win1_12.index t (1 : Fin 2) = 0) t
  funext y
  show V c main_v3 (((cfg1.win 12).blk t).view.emb y) = V c main_v3 y
  refine congrArg _ (funext fun a => Fin.ext ?_)
  match a with
  | ⟨0, _⟩ => show win1_12.index t (0 : Fin 2) * _ + 1 * (y 0).val = (y 0).val; rw [h0]; omega
  | ⟨1, _⟩ => show win1_12.index t (1 : Fin 2) * _ + 1 * (y 1).val = (y 1).val; rw [h1]; omega
theorem blk_whole_13 (c : Dev nD) (t : Fin cfg1.N) : nodeBlk V c 13 t = V c main_arg12 := by
  obtain ⟨h0, h1⟩ := (by decide +kernel : ∀ t : Fin grid1.N,
    win1_13.index t (0 : Fin 2) = 0 ∧ win1_13.index t (1 : Fin 2) = 0) t
  funext y
  show V c main_arg12 (((cfg1.win 13).blk t).view.emb y) = V c main_arg12 y
  refine congrArg _ (funext fun a => Fin.ext ?_)
  match a with
  | ⟨0, _⟩ => show win1_13.index t (0 : Fin 2) * _ + 1 * (y 0).val = (y 0).val; rw [h0]; omega
  | ⟨1, _⟩ => show win1_13.index t (1 : Fin 2) * _ + 1 * (y 1).val = (y 1).val; rw [h1]; omega
theorem blk_whole_14 (c : Dev nD) (t : Fin cfg1.N) : nodeBlk V c 14 t = V c main_v5 := by
  obtain ⟨h0, h1⟩ := (by decide +kernel : ∀ t : Fin grid1.N,
    win1_14.index t (0 : Fin 2) = 0 ∧ win1_14.index t (1 : Fin 2) = 0) t
  funext y
  show V c main_v5 (((cfg1.win 14).blk t).view.emb y) = V c main_v5 y
  refine congrArg _ (funext fun a => Fin.ext ?_)
  match a with
  | ⟨0, _⟩ => show win1_14.index t (0 : Fin 2) * _ + 1 * (y 0).val = (y 0).val; rw [h0]; omega
  | ⟨1, _⟩ => show win1_14.index t (1 : Fin 2) * _ + 1 * (y 1).val = (y 1).val; rw [h1]; omega

end AnyInstance

variable (V : (c : Dev nD) → (b : Ref sig .tc) → Buf (Elt Ideal) ((c : Thread nD τ).loc b))

/-- The hyperedge attention of the arrays the region finds. -/
def attOf (c : Dev nD) : Fin 2000 → Fin 256 → EReal :=
  eatt (mat (V c main_v7)) (mat (V c main_arg2)) (row (V c main_v0)) (mat (V c main_arg4)) (row (V c main_v1))
    (mat (V c main_arg6)) (row (V c main_v2))

theorem att_val_apply (c : Dev nD) (h : Fin 256) (e : Fin 2000) :
    attVal (F := Ideal) V c (ix2 h e) = attOf V c e h := by
  unfold attVal scrAtt attOf
  rw [blk_whole_0, blk_whole_1, blk_whole_2, blk_whole_3, blk_whole_4, blk_whole_5, blk_whole_6]
  exact MathA.attT_pay_apply _ _ _ _ _ _ _ h e

theorem kn_val_apply (c : Dev nD) (e : Fin 2000) (h : Fin 256) :
    knVal (F := Ideal) V c (ix2 e h) = proj (attOf V c) (mat (V c main_arg10)) (row (V c main_v4)) e h := by
  unfold knVal scrKn
  rw [blk_whole_0, blk_whole_1, blk_whole_2, blk_whole_3, blk_whole_4, blk_whole_5, blk_whole_6, blk_whole_7, blk_whole_8]
  refine (MathA.kn_pay_apply _ _ _ e h).trans ?_
  have hatt : mat (k1_pay2 (F := Ideal) (V c main_v7) (V c main_arg2) (V c main_v0) (V c main_arg4) (V c main_v1)
      (V c main_arg6) (V c main_v2)) = attOf V c :=
    funext fun e' => funext fun h' => MathA.att_pay_apply _ _ _ _ _ _ _ e' h'
  rw [hatt]

end Cert.KernelIdeal.WholeBlocks

end
-- ==== Proof.HostReads.lean ====
/-
  What the kernel program's seven host operations leave, at the exact instance, read in the specification's terms:
  each of the six reshaped biases is the bias (a [256] array laid out as one row), and the transposed incidence
  matrix at (e, n) is the incidence matrix at (n, e).
-/
import proofs.«181957_g30339648979507_cont_9to1_1753_20_alg».proof.Proof.Gen.KernelIdeal.Regions
import proofs.«181957_g30339648979507_cont_9to1_1753_20_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.HostReads

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem bias_q (c : Dev nD) : row (Gen.V1 m c main_v0) = vec (m ((c : Thread nD τ).loc main_arg3)) := by
  have e : (Gen.V1 m c main_v0 : S1x256.Idx → EReal)
      = shapeCast S1x256 (m ((c : Thread nD τ).loc main_arg3) : S256.Idx → EReal) Facts₀.shapeCasts_S256_S1x256 := by
    dsimp only [Gen.V1, Gen.V0, hostOps0]; after_results; rfl
  funext j
  show (Gen.V1 m c main_v0 : S1x256.Idx → EReal) (ix2 (0 : Fin 1) j) = _
  rw [e]
  exact shapeCast_a_1a_apply _ _ (0 : Fin 1) j
theorem bias_k (c : Dev nD) : row (Gen.V1 m c main_v1) = vec (m ((c : Thread nD τ).loc main_arg5)) := by
  have e : (Gen.V1 m c main_v1 : S1x256.Idx → EReal)
      = shapeCast S1x256 (m ((c : Thread nD τ).loc main_arg5) : S256.Idx → EReal) Facts₀.shapeCasts_S256_S1x256 := by
    dsimp only [Gen.V1, Gen.V0, hostOps0]; after_results; rfl
  funext j
  show (Gen.V1 m c main_v1 : S1x256.Idx → EReal) (ix2 (0 : Fin 1) j) = _
  rw [e]
  exact shapeCast_a_1a_apply _ _ (0 : Fin 1) j
theorem bias_v (c : Dev nD) : row (Gen.V1 m c main_v2) = vec (m ((c : Thread nD τ).loc main_arg7)) := by
  have e : (Gen.V1 m c main_v2 : S1x256.Idx → EReal)
      = shapeCast S1x256 (m ((c : Thread nD τ).loc main_arg7) : S256.Idx → EReal) Facts₀.shapeCasts_S256_S1x256 := by
    dsimp only [Gen.V1, Gen.V0, hostOps0]; after_results; rfl
  funext j
  show (Gen.V1 m c main_v2 : S1x256.Idx → EReal) (ix2 (0 : Fin 1) j) = _
  rw [e]
  exact shapeCast_a_1a_apply _ _ (0 : Fin 1) j
theorem bias_nq (c : Dev nD) : row (Gen.V1 m c main_v3) = vec (m ((c : Thread nD τ).loc main_arg9)) := by
  have e : (Gen.V1 m c main_v3 : S1x256.Idx → EReal)
      = shapeCast S1x256 (m ((c : Thread nD τ).loc main_arg9) : S256.Idx → EReal) Facts₀.shapeCasts_S256_S1x256 := by
    dsimp only [Gen.V1, Gen.V0, hostOps0]; after_results; rfl
  funext j
  show (Gen.V1 m c main_v3 : S1x256.Idx → EReal) (ix2 (0 : Fin 1) j) = _
  rw [e]
  exact shapeCast_a_1a_apply _ _ (0 : Fin 1) j
theorem bias_nk (c : Dev nD) : row (Gen.V1 m c main_v4) = vec (m ((c : Thread nD τ).loc main_arg11)) := by
  have e : (Gen.V1 m c main_v4 : S1x256.Idx → EReal)
      = shapeCast S1x256 (m ((c : Thread nD τ).loc main_arg11) : S256.Idx → EReal) Facts₀.shapeCasts_S256_S1x256 := by
    dsimp only [Gen.V1, Gen.V0, hostOps0]; after_results; rfl
  funext j
  show (Gen.V1 m c main_v4 : S1x256.Idx → EReal) (ix2 (0 : Fin 1) j) = _
  rw [e]
  exact shapeCast_a_1a_apply _ _ (0 : Fin 1) j
theorem bias_t (c : Dev nD) : row (Gen.V1 m c main_v5) = vec (m ((c : Thread nD τ).loc main_arg13)) := by
  have e : (Gen.V1 m c main_v5 : S1x256.Idx → EReal)
      = shapeCast S1x256 (m ((c : Thread nD τ).loc main_arg13) : S256.Idx → EReal) Facts₀.shapeCasts_S256_S1x256 := by
    dsimp only [Gen.V1, Gen.V0, hostOps0]; after_results; rfl
  funext j
  show (Gen.V1 m c main_v5 : S1x256.Idx → EReal) (ix2 (0 : Fin 1) j) = _
  rw [e]
  exact shapeCast_a_1a_apply _ _ (0 : Fin 1) j
theorem inc_transposed (c : Dev nD) (e : Fin 2000) (n : Fin 10000) :
    mat (Gen.V1 m c main_v6) e n = mat (m ((c : Thread nD τ).loc main_arg1)) n e := by
  have hV : (Gen.V1 m c main_v6 : S2000x10000.Idx → EReal)
      = transpose S2000x10000 [1, 0] (m ((c : Thread nD τ).loc main_arg1) : S10000x2000.Idx → EReal)
          Facts₀.transposes_S10000x2000_S2000x10000_1_0 := by
    dsimp only [Gen.V1, Gen.V0, hostOps0]; after_results
  show (Gen.V1 m c main_v6 : S2000x10000.Idx → EReal) (ix2 e n) = _
  rw [hV]
  exact transpose_apply [1, 0] _ _ (ix2 e n) (ix2 n e) (fun b => match b with
    | ⟨0, _⟩ => rfl
    | ⟨1, _⟩ => rfl)

end Cert.KernelIdeal.HostReads

end
-- ==== Proof.KernelValue.lean ====
/-
  The kernel program's result at the exact instance is the specification's result of the launch memory's fourteen
  arguments.

  The result buffer at the last boundary is the second region's output array after its ten write-backs, one
  function of what the region found and of the two scratch values.  What the region found: the arguments as
  launched; the six biases reshaped to one row; the incidence matrix transposed; and the first region's product,
  which is the hyperedge-feature matrix.  The scratch values are the hyperedge attention (transposed) and the node
  keys of those.  Substituting gives, node by node, the specification's output row.
-/
import proofs.«181957_g30339648979507_cont_9to1_1753_20_alg».proof.Proof.KernelRun
import proofs.«181957_g30339648979507_cont_9to1_1753_20_alg».proof.Proof.KernelArgs
import proofs.«181957_g30339648979507_cont_9to1_1753_20_alg».proof.Proof.HeFinal
import proofs.«181957_g30339648979507_cont_9to1_1753_20_alg».proof.Proof.NodeFinal
import proofs.«181957_g30339648979507_cont_9to1_1753_20_alg».proof.Proof.WholeBlocks
import proofs.«181957_g30339648979507_cont_9to1_1753_20_alg».proof.Proof.HostReads

set_option maxRecDepth 16384

noncomputable section

namespace Cert.KernelIdeal.Result

open Cert.KernelIdeal Cert.KernelIdeal.Gen Cert.KernelIdeal.Hand Cert.Spec
open Cert.KernelIdeal.Args Cert.KernelIdeal.HeFinal Cert.KernelIdeal.NodeFinal Cert.KernelIdeal.WholeBlocks Cert.KernelIdeal.HostReads
open Idealize.ShloMosaic Idealize.ShloMosaic.TcCoe Idealize.ShloMosaic.ValueIdx
open Idealize.SL Idealize.SL.Sem

variable (m : (ℓ : Loc nD τ sig) → Buf (Elt Ideal) ℓ)

/-- The specification's result as an array, from the launch memory's arguments on core `c`. -/
def specOut (c : Dev nD) : S10000x256.Idx → EReal := fun i =>
  Spec.out (mat (m ((c : Thread nD τ).loc main_arg0))) (mat (m ((c : Thread nD τ).loc main_arg1))) (mat (m ((c : Thread nD τ).loc main_arg2))) (vec (m ((c : Thread nD τ).loc main_arg3))) (mat (m ((c : Thread nD τ).loc main_arg4))) (vec (m ((c : Thread nD τ).loc main_arg5)))
    (mat (m ((c : Thread nD τ).loc main_arg6))) (vec (m ((c : Thread nD τ).loc main_arg7))) (mat (m ((c : Thread nD τ).loc main_arg8))) (vec (m ((c : Thread nD τ).loc main_arg9))) (mat (m ((c : Thread nD τ).loc main_arg10))) (vec (m ((c : Thread nD τ).loc main_arg11)))
    (mat (m ((c : Thread nD τ).loc main_arg12))) (vec (m ((c : Thread nD τ).loc main_arg13))) (i 0) (i 1)

/-- The hyperedge features of the launch memory's incidence matrix and node features. -/
def heOf (c : Dev nD) : Fin 2000 → Fin 256 → EReal :=
  hedge (fun e n' => mat (m ((c : Thread nD τ).loc main_arg1)) n' e) (mat (m ((c : Thread nD τ).loc main_arg0)))

/-- The hyperedge attention of the launch memory's arguments. -/
def attArg (c : Dev nD) : Fin 2000 → Fin 256 → EReal :=
  eatt (heOf m c) (mat (m ((c : Thread nD τ).loc main_arg2))) (vec (m ((c : Thread nD τ).loc main_arg3))) (mat (m ((c : Thread nD τ).loc main_arg4))) (vec (m ((c : Thread nD τ).loc main_arg5))) (mat (m ((c : Thread nD τ).loc main_arg6))) (vec (m ((c : Thread nD τ).loc main_arg7)))

/-- What the second region finds in the first region's product array: the hyperedge features. -/
theorem found_he (c : Dev nD) : mat (at2 m c main_v7) = heOf m c := by
  rw [entry2_v7, he_final (at1 m) c]
  funext e f
  unfold heOf
  show hedge (mat (at1 m c main_v6)) (mat (at1 m c main_arg0)) e f = _
  rw [entry1_arg0]
  have hT : mat (at1 m c main_v6) = fun e n' => mat (m ((c : Thread nD τ).loc main_arg1)) n' e :=
    funext fun e' => funext fun n' => inc_transposed m c e' n'
  rw [hT]

/-- The attention of what the second region finds is the attention of the arguments. -/
theorem found_att (c : Dev nD) : attOf (at2 m) c = attArg m c := by
  unfold attOf attArg
  rw [found_he, entry2_arg2, entry2_arg4, entry2_arg6, entry2_v0, entry2_v1, entry2_v2, bias_q, bias_k, bias_v]

/-- THE RESULT: the result buffer at the last boundary is the specification's result. -/
theorem kernel_out (c : Dev nD) : bnd3 m c (Proc.devRef .tc main_v8) = specOut m c := by
  rw [last_out, node_final (at2 m) c]
  funext i
  obtain ⟨n, j, rfl⟩ : ∃ (n : Fin 10000) (j : Fin 256), i = ix2 n j := ⟨i 0, i 1, eq_ix2 i⟩
  have hx : (fun u => at2 m c main_arg0 (ix2 n u)) = mat (m ((c : Thread nD τ).loc main_arg0)) n := by rw [entry2_arg0]; rfl
  have hinc : (fun e => at2 m c main_v6 (ix2 e n)) = mat (m ((c : Thread nD τ).loc main_arg1)) n :=
    funext fun e => by rw [entry2_v6]; exact inc_transposed m c e n
  have hatt : (fun e h => attVal (at2 m) c (ix2 h e)) = attArg m c :=
    funext fun e => funext fun h => by rw [att_val_apply, found_att]
  have hkn : mat (knVal (at2 m) c) = proj (attArg m c) (mat (m ((c : Thread nD τ).loc main_arg10))) (vec (m ((c : Thread nD τ).loc main_arg11))) :=
    funext fun e => funext fun h => by
      show knVal (at2 m) c (ix2 e h) = _
      rw [kn_val_apply, found_att, entry2_arg10, entry2_v4, bias_nk]
  show nodeRow (fun u => at2 m c main_arg0 (ix2 n u)) (fun e => at2 m c main_v6 (ix2 e n)) (mat (knVal (at2 m) c))
      (fun e h => attVal (at2 m) c (ix2 h e)) (mat (at2 m c main_arg8)) (row (at2 m c main_v3)) (mat (at2 m c main_arg12))
      (row (at2 m c main_v5)) j = _
  rw [hx, hinc, hatt, hkn, entry2_arg8, entry2_arg12, entry2_v3, entry2_v5, bias_nq, bias_t]
  rfl

end Cert.KernelIdeal.Result

end
-- ==== Proof.LibDenseHost.lean ====
/-
  The host's matrix product, entry by entry.

  At the exact instance a host dot product of an [M, K] by a [K, N] operand, contracting the first operand's columns
  against the second's rows, has at (a, b) the textbook entry  ∑ k, l (a, k) · r (k, b)  — the same sum as the matrix
  unit's product into a zero accumulator. Stated for any dimension record with the four operand-position facts.
-/
import Idealize.ShloMosaic.Lib.ValueIdx
import Idealize.ShloMosaic.PureOps.Ideal.Laws
import proofs.«181957_g30339648979507_cont_9to1_1753_20_alg».proof.Proof.LibDense

noncomputable section

namespace Cert.LibDenseHost

open Idealize.ShloMosaic Idealize.ShloMosaic.ValueIdx Cert.LibDense

/-- The host's dot product of a plain [M, K] by [K, N] pair, read at (a, b): the textbook entry. -/
theorem dotGeneral_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    Host.dotGeneral d prec l r (ix2 a b) = dense (fun k => l (ix2 a k)) r b := by
  simp only [Host.dotGeneral]
  rw [Ideal.dotGeneral_apply]
  exact sum_contr_plain d hr hs (ix2 a b) (hl0 _) (hl1 _) (hr0 _) (hr1 _) l r

end Cert.LibDenseHost

end
-- ==== Proof.RefMath.lean ====
/-
  The reference's last stage read at an index, at the exact instance, is the specification's result.
  The proof chains the generated read-at-an-index lemmas, stage by stage, and the algebra that joins the two
  spellings: a division by the square root of 256 is a product with one sixteenth, a product commutes, a host sum
  starts from zero, the maximum with the bottom element is the identity.
-/
import proofs.«181957_g30339648979507_cont_9to1_1753_20_alg».proof.Proof.Gen.ReferenceIdeal.Read
import proofs.«181957_g30339648979507_cont_9to1_1753_20_alg».proof.Proof.Spec
import proofs.«181957_g30339648979507_cont_9to1_1753_20_alg».proof.Proof.LibDense
import proofs.«181957_g30339648979507_cont_9to1_1753_20_alg».proof.Proof.LibDenseHost
import proofs.«181957_g30339648979507_cont_9to1_1753_20_alg».proof.Proof.LibKeepdims
import proofs.«181957_g30339648979507_cont_9to1_1753_20_alg».proof.Proof.LibExtReal
import Idealize.ShloMosaic.PureOps.Ideal.Laws
import Idealize.ShloMosaic.Lib.Pipeline.Value
import Idealize.ShloMosaic.Lib.ValueLayout

noncomputable section

namespace Cert.ReferenceIdeal.RefMath

open Cert.ReferenceIdeal Cert.ReferenceIdeal.Gen Cert.ReferenceIdeal.Read Cert.Spec
open Idealize.ShloMosaic Idealize.ShloMosaic.ValueIdx

/-! ## Constants -/

/-- The word of the float 256 denotes the real 256. -/
theorem ofBits_256 : Ideal.ofBits .f32 0x43800000#32 = ((256 : ℝ) : EReal) := by
  simp [Ideal.ofBits, Ideal.ieee, -EReal.coe_mul]; norm_num

/-- The word of minus infinity denotes the bottom element. -/
theorem ofBits_neg_inf : Ideal.ofBits .f32 0xFF800000#32 = ⊥ := by simp [Ideal.ofBits, Ideal.ieee]

/-- The square root of 256 is 16. -/
theorem sqrt_256 : Ideal.sqrt ((256 : ℝ) : EReal) = ((16 : ℝ) : EReal) := by
  rw [Ideal.sqrt_coe, if_neg (by norm_num)]
  congr 1
  rw [show (256 : ℝ) = 16 ^ 2 by norm_num, Real.sqrt_sq (by norm_num)]

/-- A quotient by the square root of the float 256 is the product with one sixteenth, at the infinities too. -/
theorem div_sqrt_256 (a : EReal) (i : S_.Idx) : Ideal.div a (val_main_v0 (F := Ideal) i) = a * sixteenth := by
  rw [val_main_v0_apply, val_main_cst_apply]
  simp only [Ideal.hostUnary_sqrt_def, Ideal.ofBits_def]
  rw [ofBits_256, sqrt_256, Ideal.div_coe (by norm_num)]
  rfl

section Stages

variable (x0 : (⟨S10000x256, .f32⟩ : BufTy).Contents (Elt Ideal)) (x1 : (⟨S10000x2000, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal))

/-- Two indices of rank two (of rank one) agree when their coordinates do. -/
local macro "idx_eq2" : tactic =>
  `(tactic| exact funext fun a => Fin.ext (by match a with | ⟨0, _⟩ => rfl | ⟨1, _⟩ => rfl))
local macro "idx_eq1" : tactic =>
  `(tactic| exact funext fun a => Fin.ext (by match a with | ⟨0, _⟩ => rfl))

/-! ## The hyperedge stage -/

/-- The hyperedge features: the transposed incidence matrix times the node features. -/
theorem he_apply (e : Fin 2000) (f : Fin 256) :
    val_main_v2 (F := Ideal) x0 x1 (ix2 e f) = hedge (fun e n' => mat x1 n' e) (mat x0) e f := by
  rw [val_main_v2_apply]
  refine Finset.sum_congr rfl fun k _ => ?_
  rw [val_main_v1_apply]
  have e1 : idx_main_v1 (lidx_main_v2 (ix2 e f) k) = ix2 k e := by idx_eq2
  have e2 : ridx_main_v2 (ix2 e f) k = ix2 k f := by idx_eq2
  rw [e1, e2]
  rfl

/-- The queries: a linear layer of the hyperedge features. -/
theorem q_apply (e : Fin 2000) (t : Fin 256) :
    val_main_v6 (F := Ideal) x0 x1 x2 x3 (ix2 e t)
      = proj (hedge (fun e n' => mat x1 n' e) (mat x0)) (mat x2) (vec x3) e t := by
  rw [val_main_v6_apply, val_main_v3_apply, val_main_v5_apply, val_main_v4_apply]
  simp only [Ideal.addf_def]
  unfold proj
  refine congrArg₂ (· + ·) (Finset.sum_congr rfl fun k _ => ?_) ?_
  · have e1 : lidx_main_v3 (ix2 e t) k = ix2 e k := by idx_eq2
    have e2 : ridx_main_v3 (ix2 e t) k = ix2 k t := by idx_eq2
    rw [e1, e2, he_apply]
    rfl
  · have e3 : idx_main_v4 (idx_main_v5 (ix2 e t)) = ix1 t := by idx_eq1
    rw [e3]
    rfl

/-- The keys. -/
theorem k_apply (e : Fin 2000) (t : Fin 256) :
    val_main_v10 (F := Ideal) x0 x1 x4 x5 (ix2 e t)
      = proj (hedge (fun e n' => mat x1 n' e) (mat x0)) (mat x4) (vec x5) e t := by
  rw [val_main_v10_apply, val_main_v7_apply, val_main_v9_apply, val_main_v8_apply]
  simp only [Ideal.addf_def]
  unfold proj
  refine congrArg₂ (· + ·) (Finset.sum_congr rfl fun k _ => ?_) ?_
  · have e1 : lidx_main_v7 (ix2 e t) k = ix2 e k := by idx_eq2
    have e2 : ridx_main_v7 (ix2 e t) k = ix2 k t := by idx_eq2
    rw [e1, e2, he_apply]
    rfl
  · have e3 : idx_main_v8 (idx_main_v9 (ix2 e t)) = ix1 t := by idx_eq1
    rw [e3]
    rfl

/-- The values. -/
theorem v_apply (e : Fin 2000) (t : Fin 256) :
    val_main_v14 (F := Ideal) x0 x1 x6 x7 (ix2 e t)
      = proj (hedge (fun e n' => mat x1 n' e) (mat x0)) (mat x6) (vec x7) e t := by
  rw [val_main_v14_apply, val_main_v11_apply, val_main_v13_apply, val_main_v12_apply]
  simp only [Ideal.addf_def]
  unfold proj
  refine congrArg₂ (· + ·) (Finset.sum_congr rfl fun k _ => ?_) ?_
  · have e1 : lidx_main_v11 (ix2 e t) k = ix2 e k := by idx_eq2
    have e2 : ridx_main_v11 (ix2 e t) k = ix2 k t := by idx_eq2
    rw [e1, e2, he_apply]
    rfl
  · have e3 : idx_main_v12 (idx_main_v13 (ix2 e t)) = ix1 t := by idx_eq1
    rw [e3]
    rfl

/-- The scaled scores among the hyperedges: a query row against a key row, times one sixteenth. -/
theorem score_apply (e j' : Fin 2000) :
    val_main_v18 (F := Ideal) x0 x1 x2 x3 x4 x5 (ix2 e j')
      = (∑ t : Fin 256, proj (hedge (fun e n' => mat x1 n' e) (mat x0)) (mat x2) (vec x3) e t
            * proj (hedge (fun e n' => mat x1 n' e) (mat x0)) (mat x4) (vec x5) j' t) * sixteenth := by
  rw [val_main_v18_apply, val_main_v17_apply]
  simp only [Ideal.hostDivf_def]
  rw [div_sqrt_256, val_main_v16_apply]
  refine congrArg (· * sixteenth) (Finset.sum_congr rfl fun k _ => ?_)
  rw [val_main_v15_apply]
  have e1 : lidx_main_v16 (ix2 e j') k = ix2 e k := by idx_eq2
  have e2 : idx_main_v15 (ridx_main_v16 (ix2 e j') k) = ix2 j' k := by idx_eq2
  rw [e1, e2, q_apply, k_apply]

/-- A host reduction with a maximum body over the columns of a matrix, from an initial value that is the bottom
    element: at row `p` the fold of the maximum over that row. -/
theorem rowmax_read {a b : ℕ} (y : (⟨2, ![a, b]⟩ : Shape).Idx → EReal) (init : S_.Idx → EReal)
    (h' : (⟨2, ![a, b]⟩ : Shape).ReducesTo [1] (⟨1, ![a]⟩ : Shape)) (h : (⟨2, ![a, b]⟩ : Shape).Reduces [1] (⟨1, ![a]⟩ : Shape))
    (hu : 0 < S_.numel) (hinit : init (Shape.Idx.first hu) = ⊥) (p : Fin a) :
    Host.reduce (FloatOps.maximumf (F := Ideal) (φ := .f32)) y init h' hu (ix1 p)
      = Finset.univ.fold max ⊥ (fun c : Fin b => y (ix2 p c)) := by
  refine (Host.reduce_eq_fold_single (FloatOps.maximumf (F := Ideal) (φ := .f32)) y init h' h hu (ix1 p)).trans ?_
  rw [hinit]
  have hf : (y ∘ h.lift (ix1 p)) = fun c : Fin b => y (ix2 p c) :=
    funext fun c => congrArg y (funext fun d => Fin.ext (by match d with | ⟨0, _⟩ => rfl | ⟨1, _⟩ => rfl))
  exact congrArg (fun f => Finset.fold max ⊥ f (Finset.univ : Finset (Fin b))) hf

/-- The row maximum of the scores, as every column of that row sees it. -/
theorem max_e_apply (e c : Fin 2000) :
    val_main_v23 (F := Ideal) x0 x1 x2 x3 x4 x5 (ix2 e c)
      = Finset.univ.fold max ⊥ (fun c' : Fin 2000 => val_main_v18 (F := Ideal) x0 x1 x2 x3 x4 x5 (ix2 e c')) := by
  rw [val_main_v23_apply, val_main_v22_apply]
  have e1 : idx_main_v22 (idx_main_v23 (ix2 e c)) = ix1 e := by idx_eq1
  rw [e1, val_main_v21_apply, val_main_v20_apply, val_main_cst_1_apply]
  simp only [Ideal.maximumf_def, Ideal.ofBits_def]
  rw [ofBits_neg_inf, bot_sup_eq]
  unfold val_main_v19
  exact rowmax_read _ _ Facts₀.reducesTo_S2000x2000_S2000_d1 (by decide) Facts₀.h_S_
    (by rw [val_main_cst_0_apply]; exact ofBits_neg_inf) e

/-- The softmax over the hyperedges of one row of scores. -/
theorem softmax_e_apply (e j' : Fin 2000) :
    val_main_v29 (F := Ideal) x0 x1 x2 x3 x4 x5 (ix2 e j')
      = softmax (fun c : Fin 2000 => val_main_v18 (F := Ideal) x0 x1 x2 x3 x4 x5 (ix2 e c)) j' := by
  have hE : ∀ c : Fin 2000, val_main_v25 (F := Ideal) x0 x1 x2 x3 x4 x5 (ix2 e c)
      = Ideal.exp (val_main_v18 (F := Ideal) x0 x1 x2 x3 x4 x5 (ix2 e c)
          - Finset.univ.fold max ⊥ (fun c' : Fin 2000 => val_main_v18 (F := Ideal) x0 x1 x2 x3 x4 x5 (ix2 e c'))) := by
    intro c
    rw [val_main_v25_apply, val_main_v24_apply, max_e_apply]
    simp only [Ideal.hostUnary_exp_def, Ideal.subf_def]
  rw [val_main_v29_apply, val_main_v28_apply, val_main_v27_apply, val_main_v26_apply, val_main_cst_2_apply, hE]
  simp only [Ideal.hostDivf_def, Ideal.ofBits_def]
  rw [Ideal.ofBits_zero_f32, zero_add]
  unfold softmax
  refine congrArg (Ideal.div _) (Finset.sum_congr rfl fun k _ => ?_)
  have e2 : idx_main_v26 (idx_main_v27 (idx_main_v28 (ix2 e j'))) k = ix2 e k := by idx_eq2
  rw [e2, hE]

/-- The attention among the hyperedges. -/
theorem att_apply (e : Fin 2000) (h : Fin 256) :
    val_main_v30 (F := Ideal) x0 x1 x2 x3 x4 x5 x6 x7 (ix2 e h)
      = eatt (hedge (fun e n' => mat x1 n' e) (mat x0)) (mat x2) (vec x3) (mat x4) (vec x5) (mat x6) (vec x7) e h := by
  rw [val_main_v30_apply]
  unfold eatt
  refine Finset.sum_congr rfl fun k _ => ?_
  have e1 : lidx_main_v30 (ix2 e h) k = ix2 e k := by idx_eq2
  have e2 : ridx_main_v30 (ix2 e h) k = ix2 k h := by idx_eq2
  rw [e1, e2, softmax_e_apply, v_apply]
  simp only [score_apply]

/-! ## The node stage -/

/-- The node queries: a linear layer of the node features. -/
theorem qn_apply (n : Fin 10000) (t : Fin 256) :
    val_main_v34 (F := Ideal) x0 x8 x9 (ix2 n t) = proj (mat x0) (mat x8) (vec x9) n t := by
  rw [val_main_v34_apply, val_main_v31_apply, val_main_v33_apply, val_main_v32_apply]
  simp only [Ideal.addf_def]
  unfold proj
  refine congrArg₂ (· + ·) (Finset.sum_congr rfl fun k _ => ?_) ?_
  · have e1 : lidx_main_v31 (ix2 n t) k = ix2 n k := by idx_eq2
    have e2 : ridx_main_v31 (ix2 n t) k = ix2 k t := by idx_eq2
    rw [e1, e2]
    rfl
  · have e3 : idx_main_v32 (idx_main_v33 (ix2 n t)) = ix1 t := by idx_eq1
    rw [e3]
    rfl

/-- The node keys: a linear layer of the hyperedge attention. -/
theorem kn_apply (e : Fin 2000) (t : Fin 256) :
    val_main_v38 (F := Ideal) x0 x1 x2 x3 x4 x5 x6 x7 x10 x11 (ix2 e t)
      = proj (eatt (hedge (fun e n' => mat x1 n' e) (mat x0)) (mat x2) (vec x3) (mat x4) (vec x5) (mat x6) (vec x7)) (mat x10) (vec x11) e t := by
  rw [val_main_v38_apply, val_main_v35_apply, val_main_v37_apply, val_main_v36_apply]
  simp only [Ideal.addf_def]
  unfold proj
  refine congrArg₂ (· + ·) (Finset.sum_congr rfl fun k _ => ?_) ?_
  · have e1 : lidx_main_v35 (ix2 e t) k = ix2 e k := by idx_eq2
    have e2 : ridx_main_v35 (ix2 e t) k = ix2 k t := by idx_eq2
    rw [e1, e2, att_apply]
    rfl
  · have e3 : idx_main_v36 (idx_main_v37 (ix2 e t)) = ix1 t := by idx_eq1
    rw [e3]
    rfl

/-- The scaled scores of a node against the hyperedges: a key row against the node's query, times one sixteenth
    (the reference multiplies query by key, the specification key by query). -/
theorem nscore_apply (n : Fin 10000) (e : Fin 2000) :
    val_main_v42 (F := Ideal) x0 x1 x2 x3 x4 x5 x6 x7 x8 x9 x10 x11 (ix2 n e)
      = (fun e' : Fin 2000 => (∑ t : Fin 256, proj (eatt (hedge (fun e n' => mat x1 n' e) (mat x0)) (mat x2) (vec x3) (mat x4) (vec x5) (mat x6) (vec x7)) (mat x10) (vec x11) e' t
            * ((∑ u : Fin 256, mat x0 n u * mat x8 u t) + vec x9 t)) * sixteenth) e := by
  rw [val_main_v42_apply, val_main_v41_apply]
  simp only [Ideal.hostDivf_def]
  rw [div_sqrt_256, val_main_v40_apply]
  refine congrArg (· * sixteenth) (Finset.sum_congr rfl fun k _ => ?_)
  rw [val_main_v39_apply]
  have e1 : lidx_main_v40 (ix2 n e) k = ix2 n k := by idx_eq2
  have e2 : idx_main_v39 (ridx_main_v40 (ix2 n e) k) = ix2 e k := by idx_eq2
  rw [e1, e2, qn_apply, kn_apply]
  exact mul_comm _ _

/-- The maximum of a node's scores, as every hyperedge column of that node sees it. -/
theorem max_n_apply (n : Fin 10000) (c : Fin 2000) :
    val_main_v47 (F := Ideal) x0 x1 x2 x3 x4 x5 x6 x7 x8 x9 x10 x11 (ix2 n c)
      = Finset.univ.fold max ⊥
          (fun c' : Fin 2000 => val_main_v42 (F := Ideal) x0 x1 x2 x3 x4 x5 x6 x7 x8 x9 x10 x11 (ix2 n c')) := by
  rw [val_main_v47_apply, val_main_v46_apply]
  have e1 : idx_main_v46 (idx_main_v47 (ix2 n c)) = ix1 n := by idx_eq1
  rw [e1, val_main_v45_apply, val_main_v44_apply, val_main_cst_4_apply]
  simp only [Ideal.maximumf_def, Ideal.ofBits_def]
  rw [ofBits_neg_inf, bot_sup_eq]
  unfold val_main_v43
  exact rowmax_read _ _ Facts₀.reducesTo_S10000x2000_S10000_d1 (by decide) Facts₀.h_S_
    (by rw [val_main_cst_3_apply]; exact ofBits_neg_inf) n

/-- The softmax over the hyperedges of one node's scores. -/
theorem softmax_n_apply (n : Fin 10000) (e : Fin 2000) :
    val_main_v53 (F := Ideal) x0 x1 x2 x3 x4 x5 x6 x7 x8 x9 x10 x11 (ix2 n e)
      = softmax (fun c : Fin 2000 => val_main_v42 (F := Ideal) x0 x1 x2 x3 x4 x5 x6 x7 x8 x9 x10 x11 (ix2 n c)) e := by
  have hE : ∀ c : Fin 2000, val_main_v49 (F := Ideal) x0 x1 x2 x3 x4 x5 x6 x7 x8 x9 x10 x11 (ix2 n c)
      = Ideal.exp (val_main_v42 (F := Ideal) x0 x1 x2 x3 x4 x5 x6 x7 x8 x9 x10 x11 (ix2 n c)
          - Finset.univ.fold max ⊥
              (fun c' : Fin 2000 => val_main_v42 (F := Ideal) x0 x1 x2 x3 x4 x5 x6 x7 x8 x9 x10 x11 (ix2 n c'))) := by
    intro c
    rw [val_main_v49_apply, val_main_v48_apply, max_n_apply]
    simp only [Ideal.hostUnary_exp_def, Ideal.subf_def]
  rw [val_main_v53_apply, val_main_v52_apply, val_main_v51_apply, val_main_v50_apply, val_main_cst_5_apply, hE]
  simp only [Ideal.hostDivf_def, Ideal.ofBits_def]
  rw [Ideal.ofBits_zero_f32, zero_add]
  unfold softmax
  refine congrArg (Ideal.div _) (Finset.sum_congr rfl fun k _ => ?_)
  have e2 : idx_main_v50 (idx_main_v51 (idx_main_v52 (ix2 n e))) k = ix2 n k := by idx_eq2
  rw [e2, hE]

/-- The attention aggregated over a node's hyperedges, each weighted by the incidence and the node's softmax
    (the reference multiplies the weight by the attention, the specification the attention by the weight). -/
theorem agg_apply (n : Fin 10000) (h : Fin 256) :
    val_main_v55 (F := Ideal) x0 x1 x2 x3 x4 x5 x6 x7 x8 x9 x10 x11 (ix2 n h)
      = ∑ e : Fin 2000, eatt (hedge (fun e n' => mat x1 n' e) (mat x0)) (mat x2) (vec x3) (mat x4) (vec x5) (mat x6) (vec x7) e h
          * (mat x1 n e * softmax (fun e' : Fin 2000 => (∑ t : Fin 256, proj (eatt (hedge (fun e n' => mat x1 n' e) (mat x0)) (mat x2) (vec x3) (mat x4) (vec x5) (mat x6) (vec x7)) (mat x10) (vec x11) e' t
            * ((∑ u : Fin 256, mat x0 n u * mat x8 u t) + vec x9 t)) * sixteenth) e) := by
  rw [val_main_v55_apply]
  refine Finset.sum_congr rfl fun k _ => ?_
  have e1 : lidx_main_v55 (ix2 n h) k = ix2 n k := by idx_eq2
  have e2 : ridx_main_v55 (ix2 n h) k = ix2 k h := by idx_eq2
  rw [e1, e2, val_main_v54_apply, softmax_n_apply, att_apply]
  simp only [Ideal.mulf_def, nscore_apply]
  exact mul_comm _ _

/-- The last layer: the reference's result at (n, j) is the specification's row of node `n` at `j`. -/
theorem out_apply (n : Fin 10000) (j : Fin 256) :
    val_main_v59 (F := Ideal) x0 x1 x2 x3 x4 x5 x6 x7 x8 x9 x10 x11 x12 x13 (ix2 n j)
      = nodeRow (mat x0 n) (mat x1 n) (proj (eatt (hedge (fun e n' => mat x1 n' e) (mat x0)) (mat x2) (vec x3) (mat x4) (vec x5) (mat x6) (vec x7)) (mat x10) (vec x11))
          (eatt (hedge (fun e n' => mat x1 n' e) (mat x0)) (mat x2) (vec x3) (mat x4) (vec x5) (mat x6) (vec x7)) (mat x8) (vec x9) (mat x12) (vec x13) j := by
  rw [val_main_v59_apply, val_main_v56_apply, val_main_v58_apply, val_main_v57_apply]
  simp only [Ideal.addf_def]
  unfold nodeRow
  refine congrArg₂ (· + ·) (Finset.sum_congr rfl fun k _ => ?_) ?_
  · have e1 : lidx_main_v56 (ix2 n j) k = ix2 n k := by idx_eq2
    have e2 : ridx_main_v56 (ix2 n j) k = ix2 k j := by idx_eq2
    rw [e1, e2, agg_apply]
    rfl
  · have e3 : idx_main_v57 (idx_main_v58 (ix2 n j)) = ix1 j := by idx_eq1
    rw [e3]
    rfl

end Stages

theorem ref_apply
    (x0 : (⟨S10000x256, .f32⟩ : BufTy).Contents (Elt Ideal)) (x1 : (⟨S10000x2000, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal))
    (n : Fin 10000) (j : Fin 256) :
    val_main_v59 (F := Ideal) x0 x1 x2 x3 x4 x5 x6 x7 x8 x9 x10 x11 x12 x13 (ix2 n j)
      = out (mat x0) (mat x1) (mat x2) (vec x3) (mat x4) (vec x5) (mat x6) (vec x7) (mat x8) (vec x9)
          (mat x10) (vec x11) (mat x12) (vec x13) n j := by
  exact out_apply x0 x1 x2 x3 x4 x5 x6 x7 x8 x9 x10 x11 x12 x13 n j

end Cert.ReferenceIdeal.RefMath

end
-- ==== Proof.lean ====
/-
  A two-call Pallas kernel — hyperedge features by one matrix product, then a fused pass that computes an
  attention among 2000 hyperedges once, keeps it and the node keys in two scratch buffers, and for each block of
  1024 nodes computes a softmax over the hyperedges, reweights the incidence block and projects — against its jnp
  reference, over the extended reals.

  The five conjuncts.  The two kernel programs run, fault nowhere and leave their arguments as launched: the run
  of @main as three segments (seven host operations, the two calls), each call's body run at every grid point,
  the second call's output window forgotten since a frame reads nothing of it.  The reference runs likewise (its
  generated run).  The idealization rewrote nothing.  And at the exact instance both programs' results are one
  array, the specification's: for the kernel, the second call's ten cut blocks cover the result and block row r is
  the specification's row of node 1024 t + r, a function of that node's feature row and incidence column only
  (which is also why the last, overhanging block's rows inside the array do not depend on what lies past the
  arrays' ends); for the reference, its sixty stages read at an index.  The two spellings differ by a division by
  the square root of 256 against a product with one sixteenth, by the order of two products under a sum, and by
  where the transposes sit; none of this needs the inputs finite.
-/
import proofs.«181957_g30339648979507_cont_9to1_1753_20_alg».proof.Defs
import proofs.«181957_g30339648979507_cont_9to1_1753_20_alg».proof.Proof.Gen.Kernel
import proofs.«181957_g30339648979507_cont_9to1_1753_20_alg».proof.Proof.Gen.KernelIdeal
import proofs.«181957_g30339648979507_cont_9to1_1753_20_alg».proof.Proof.Gen.ReferenceIdeal
import proofs.«181957_g30339648979507_cont_9to1_1753_20_alg».proof.Proof.Gen.Pre_finite_inputs
import proofs.«181957_g30339648979507_cont_9to1_1753_20_alg».proof.Proof.Gen.ReferenceIdeal.Run
import proofs.«181957_g30339648979507_cont_9to1_1753_20_alg».proof.Proof.Gen.ReferenceIdeal.Read
import proofs.«181957_g30339648979507_cont_9to1_1753_20_alg».proof.Proof.KFrameRun
import proofs.«181957_g30339648979507_cont_9to1_1753_20_alg».proof.Proof.FrameRun
import proofs.«181957_g30339648979507_cont_9to1_1753_20_alg».proof.Proof.KernelValue
import proofs.«181957_g30339648979507_cont_9to1_1753_20_alg».proof.Proof.RefMath
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Hand.frame_run (F := Bits) m ρ

theorem frame_kernel_ideal : Cert.frame_KernelIdeal := fun m ρ _ => Cert.KernelIdeal.Hand.frame_run (F := Ideal) m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- Both programs end with the specification's result of the arguments they agree on. -/
theorem algebraic : Cert.algebraic_KernelIdeal_ReferenceIdeal := by
  intro m ρ m' ρ' _ hagree
  refine ⟨fun c => Cert.KernelIdeal.Result.specOut m c, ?_, ?_⟩
  · refine (θ_run Cert.KernelIdeal.defs _ _).mono (fun r h c => ?_)
      (Cert.KernelIdeal.Hand.run_all (F := Ideal) m ρ (fun c => Cert.KernelIdeal.NodeFinal.tail_free (Cert.KernelIdeal.Hand.at2 m) c))
    have hc := h c
    exact ⟨(hc _ (Cert.KernelIdeal.Hand.mem_uc main_v8 (by decide))).trans (Cert.KernelIdeal.Result.kernel_out m c),
        (hc _ (Cert.KernelIdeal.Hand.mem_uc main_arg0 (by decide))).trans (Cert.KernelIdeal.Args.last_arg0 m c),
        (hc _ (Cert.KernelIdeal.Hand.mem_uc main_arg1 (by decide))).trans (Cert.KernelIdeal.Args.last_arg1 m c),
        (hc _ (Cert.KernelIdeal.Hand.mem_uc main_arg2 (by decide))).trans (Cert.KernelIdeal.Args.last_arg2 m c),
        (hc _ (Cert.KernelIdeal.Hand.mem_uc main_arg3 (by decide))).trans (Cert.KernelIdeal.Args.last_arg3 m c),
        (hc _ (Cert.KernelIdeal.Hand.mem_uc main_arg4 (by decide))).trans (Cert.KernelIdeal.Args.last_arg4 m c),
        (hc _ (Cert.KernelIdeal.Hand.mem_uc main_arg5 (by decide))).trans (Cert.KernelIdeal.Args.last_arg5 m c),
        (hc _ (Cert.KernelIdeal.Hand.mem_uc main_arg6 (by decide))).trans (Cert.KernelIdeal.Args.last_arg6 m c),
        (hc _ (Cert.KernelIdeal.Hand.mem_uc main_arg7 (by decide))).trans (Cert.KernelIdeal.Args.last_arg7 m c),
        (hc _ (Cert.KernelIdeal.Hand.mem_uc main_arg8 (by decide))).trans (Cert.KernelIdeal.Args.last_arg8 m c),
        (hc _ (Cert.KernelIdeal.Hand.mem_uc main_arg9 (by decide))).trans (Cert.KernelIdeal.Args.last_arg9 m c),
        (hc _ (Cert.KernelIdeal.Hand.mem_uc main_arg10 (by decide))).trans (Cert.KernelIdeal.Args.last_arg10 m c),
        (hc _ (Cert.KernelIdeal.Hand.mem_uc main_arg11 (by decide))).trans (Cert.KernelIdeal.Args.last_arg11 m c),
        (hc _ (Cert.KernelIdeal.Hand.mem_uc main_arg12 (by decide))).trans (Cert.KernelIdeal.Args.last_arg12 m c),
        (hc _ (Cert.KernelIdeal.Hand.mem_uc main_arg13 (by decide))).trans (Cert.KernelIdeal.Args.last_arg13 m c)⟩
  · refine (θ_run Cert.ReferenceIdeal.defs _ _).mono (fun r h c => ⟨?_, (h c).2⟩)
      (Cert.ReferenceIdeal.Value.run (F := Ideal) m' ρ')
    rw [(h c).1, Cert.ReferenceIdeal.Read.val_main_v59_eq]
    funext i
    obtain ⟨n, j, rfl⟩ : ∃ (n : Fin 10000) (j : Fin 256), i = ix2 n j := ⟨i 0, i 1, eq_ix2 i⟩
    rw [Cert.ReferenceIdeal.RefMath.ref_apply, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
